-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128 .f32) (main_arg6 : FVec F S128x64 .f32) (main_arg7 : FVec F S64 .f32) (main_arg8 : FVec F S64x1 .f32) (main_arg9 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x256 .f32) (main_arg1 : IVec S2x1600000 32) (main_arg2 : FVec F S256x128 .f32) (main_arg3 : FVec F S128 .f32) (main_arg4 : FVec F S128x128 .f32) (main_arg5 : FVec F S128 .f32) (main_arg6 : FVec F S128x64 .f32) (main_arg7 : FVec F S64 .f32) (main_arg8 : FVec F S64x1 .f32) (main_arg9 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128 : Shape := ⟨2, ![1, 128]⟩
abbrev S100000x128 : Shape := ⟨2, ![100000, 128]⟩
abbrev S5000x256 : Shape := ⟨2, ![5000, 256]⟩
abbrev S5000x128 : Shape := ⟨2, ![5000, 128]⟩
abbrev S1600000x128 : Shape := ⟨2, ![1600000, 128]⟩
abbrev S100000x1 : Shape := ⟨2, ![100000, 1]⟩
abbrev S5000x1 : Shape := ⟨2, ![5000, 1]⟩
abbrev S1x64 : Shape := ⟨2, ![1, 64]⟩
abbrev S100000x64 : Shape := ⟨2, ![100000, 64]⟩
abbrev S5000x64 : Shape := ⟨2, ![5000, 64]⟩
abbrev S1600000x64 : Shape := ⟨2, ![1600000, 64]⟩
abbrev S1x1 : Shape := ⟨2, ![1, 1]⟩

abbrev nBuf : Space → Nat
  | .hbm => 115
  | .vmem => 51
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S100000, .f32⟩
  | .hbm, ⟨44, _⟩ => ⟨S_, .f32⟩
  | .hbm, ⟨45, _⟩ => ⟨S128, .f32⟩
  | .hbm, ⟨46, _⟩ => ⟨S1x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S1600000x1, .f32⟩
  | .hbm, ⟨58, _⟩ => ⟨S1600000x128, .f32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S100000x1, .f32⟩
  | .hbm, ⟨65, _⟩ => ⟨S1x128, .f32⟩
  | .hbm, ⟨66, _⟩ => ⟨S100000x128, .f32⟩
  | .hbm, ⟨67, _⟩ => ⟨S_, .f32⟩
  | .hbm, ⟨68, _⟩ => ⟨S128, .f32⟩
  | .hbm, ⟨69, _⟩ => ⟨S1x128, .f32⟩
  | .hbm, ⟨70, _⟩ => ⟨S100000x128, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x128, .f32⟩
  | .hbm, ⟨80, _⟩ => ⟨S1600000x1, .f32⟩
  | .hbm, ⟨81, _⟩ => ⟨S1600000x128, .f32⟩
  | .hbm, ⟨82, _⟩ => ⟨S1600000x128, .f32⟩
  | .hbm, ⟨83, _⟩ => ⟨S_, .f32⟩
  | .hbm, ⟨84, _⟩ => ⟨S100000x128, .f32⟩
  | .hbm, ⟨85, _⟩ => ⟨S1600000x1, .i32⟩
  | .hbm, ⟨86, _⟩ => ⟨S100000x128, .f32⟩
  | .hbm, ⟨87, _⟩ => ⟨S100000x1, .f32⟩
  | .hbm, ⟨88, _⟩ => ⟨S1x128, .f32⟩
  | .hbm, ⟨89, _⟩ => ⟨S100000x128, .f32⟩
  | .hbm, ⟨90, _⟩ => ⟨S_, .f32⟩
  | .hbm, ⟨91, _⟩ => ⟨S64, .f32⟩
  | .hbm, ⟨92, _⟩ => ⟨S1x64, .f32⟩
  | .hbm, ⟨93, _⟩ => ⟨S100000x64, .f32⟩
  | .hbm, ⟨94, _⟩ => ⟨S_, .i32⟩
  | .hbm, ⟨95, _⟩ => ⟨S1600000, .i32⟩
  | .hbm, ⟨96, _⟩ => ⟨S1600000, .i1⟩
  | .hbm, ⟨97, _⟩ => ⟨S_, .i32⟩
  | .hbm, ⟨98, _⟩ => ⟨S1600000, .i32⟩
  | .hbm, ⟨99, _⟩ => ⟨S1600000, .i32⟩
  | .hbm, ⟨100, _⟩ => ⟨S1600000, .i32⟩
  | .hbm, ⟨101, _⟩ => ⟨S1600000x1, .i32⟩
  | .hbm, ⟨102, _⟩ => ⟨S1600000x64, .f32⟩
  | .hbm, ⟨103, _⟩ => ⟨S1600000x1, .f32⟩
  | .hbm, ⟨104, _⟩ => ⟨S1600000x64, .f32⟩
  | .hbm, ⟨105, _⟩ => ⟨S1600000x64, .f32⟩
  | .hbm, ⟨106, _⟩ => ⟨S_, .f32⟩
  | .hbm, ⟨107, _⟩ => ⟨S100000x64, .f32⟩
  | .hbm, ⟨108, _⟩ => ⟨S1600000x1, .i32⟩
  | .hbm, ⟨109, _⟩ => ⟨S100000x64, .f32⟩
  | .hbm, ⟨110, _⟩ => ⟨S100000x1, .f32⟩
  | .hbm, ⟨111, _⟩ => ⟨S1x64, .f32⟩
  | .hbm, ⟨112, _⟩ => ⟨S100000x64, .f32⟩
  | .hbm, ⟨113, _⟩ => ⟨S1x1, .f32⟩
  | .hbm, ⟨114, _⟩ => ⟨S100000x1, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x1, .f32⟩
  | .local _ .vmem, ⟨41, _⟩ => ⟨S5000x1, .f32⟩
  | .local _ .vmem, ⟨42, _⟩ => ⟨S1x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S64x1, .f32⟩
  | .local _ .vmem, ⟨48, _⟩ => ⟨S1x1, .f32⟩
  | .local _ .vmem, ⟨49, _⟩ => ⟨S5000x1, .f32⟩
  | .local _ .vmem, ⟨50, _⟩ => ⟨S5000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_14 : Ref sig .tc := ⟨.hbm, 94, rfl⟩
abbrev main_v68 : Ref sig .tc := ⟨.hbm, 95, rfl⟩
abbrev main_v69 : Ref sig .tc := ⟨.hbm, 96, rfl⟩
abbrev main_c_15 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_16 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg4_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg2_0 : Ref sig .tc := ⟨.vmem, 48, rfl⟩
abbrev cc6_stg3_0 : Ref sig .tc := ⟨.vmem, 49, rfl⟩
abbrev cc6_stg3_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41
abbrev cc5_sem3_0 : DmaSem sig := 42
abbrev cc5_sem4_0 : DmaSem sig := 43
abbrev cc5_sem4_1 : DmaSem sig := 44
abbrev cc6_sem0_0 : DmaSem sig := 45
abbrev cc6_sem0_1 : DmaSem sig := 46
abbrev cc6_sem1_0 : DmaSem sig := 47
abbrev cc6_sem2_0 : DmaSem sig := 48
abbrev cc6_sem3_0 : DmaSem sig := 49
abbrev cc6_sem3_1 : DmaSem sig := 50

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S128 : S_.BroadcastsInDim S128 (![] : Fin 0 → Fin S128.rank)
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S100000_S100000x1 : S100000.ShapeCasts S100000x1
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  bcast_S_S64 : S_.BroadcastsInDim S64 (![] : Fin 0 → Fin S64.rank)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  broadcasts_S5000x1_S5000x64 : S5000x1.Broadcasts S5000x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x1.size a ≤ S64x1.size a
  hwx6_1 : ∀ i : grid6.Coords, EltTy.bits .f32 = 32 ∨ (Rect.block (s := S64x1) S64x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x1.size a ≤ S100000x1.size a
  hwx6_3 : ∀ i : grid6.Coords, EltTy.bits .f32 = 32 ∨ (Rect.block (s := S100000x1) S5000x1.size (cc6_transform_3 i) (hinb6_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v62) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v64) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v67) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v80) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v67) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v81) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v82) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v83) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v83) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S64x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v84) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v85) S5000x1.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩
abbrev S1x1 : Shape := ⟨2, ![1, 1]⟩

abbrev nBuf : Space → Nat
  | .hbm => 129
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S64x1, .f32⟩
  | 9 => ⟨S1, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S100000, .f32⟩
  | 44 => ⟨S100000x128, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x128, .f32⟩
  | 54 => ⟨S1600000x1, .f32⟩
  | 55 => ⟨S1600000x128, .f32⟩
  | 56 => ⟨S1600000x128, .f32⟩
  | 57 => ⟨S_, .f32⟩
  | 58 => ⟨S100000x128, .f32⟩
  | 59 => ⟨S1600000x1, .i32⟩
  | 60 => ⟨S100000x128, .f32⟩
  | 61 => ⟨S100000x1, .f32⟩
  | 62 => ⟨S100000x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000x128, .f32⟩
  | 81 => ⟨S1600000x1, .f32⟩
  | 82 => ⟨S1600000x128, .f32⟩
  | 83 => ⟨S1600000x128, .f32⟩
  | 84 => ⟨S_, .f32⟩
  | 85 => ⟨S100000x128, .f32⟩
  | 86 => ⟨S1600000x1, .i32⟩
  | 87 => ⟨S100000x128, .f32⟩
  | 88 => ⟨S100000x1, .f32⟩
  | 89 => ⟨S100000x128, .f32⟩
  | 90 => ⟨S100000x128, .f32⟩
  | 91 => ⟨S100000x128, .f32⟩
  | 92 => ⟨S1x128, .f32⟩
  | 93 => ⟨S100000x128, .f32⟩
  | 94 => ⟨S100000x128, .f32⟩
  | 95 => ⟨S_, .f32⟩
  | 96 => ⟨S100000x128, .f32⟩
  | 97 => ⟨S100000x128, .f32⟩
  | 98 => ⟨S100000x64, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x64, .f32⟩
  | 108 => ⟨S1600000x1, .f32⟩
  | 109 => ⟨S1600000x64, .f32⟩
  | 110 => ⟨S1600000x64, .f32⟩
  | 111 => ⟨S_, .f32⟩
  | 112 => ⟨S100000x64, .f32⟩
  | 113 => ⟨S1600000x1, .i32⟩
  | 114 => ⟨S100000x64, .f32⟩
  | 115 => ⟨S100000x1, .f32⟩
  | 116 => ⟨S100000x64, .f32⟩
  | 117 => ⟨S100000x64, .f32⟩
  | 118 => ⟨S100000x64, .f32⟩
  | 119 => ⟨S1x64, .f32⟩
  | 120 => ⟨S100000x64, .f32⟩
  | 121 => ⟨S100000x64, .f32⟩
  | 122 => ⟨S_, .f32⟩
  | 123 => ⟨S100000x64, .f32⟩
  | 124 => ⟨S100000x64, .f32⟩
  | 125 => ⟨S100000x1, .f32⟩
  | 126 => ⟨S1x1, .f32⟩
  | 127 => ⟨S100000x1, .f32⟩
  | _ => ⟨S100000x256, .f32⟩

abbrev hbmTy0_1 (i : Nat) : BufTy := match i % 128 with
  | 0 => ⟨S100000x1, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_cst : Ref sig .tc := ⟨.hbm, 68, rfl⟩
abbrev main_call0_v0 : Ref sig .tc := ⟨.hbm, 69, rfl⟩
abbrev main_v48 : Ref sig .tc := ⟨.hbm, 70, rfl⟩
abbrev main_v49 : Ref sig .tc := ⟨.hbm, 71, rfl⟩
abbrev main_c_8 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_call1_cst : Ref sig .tc := ⟨.hbm, 95, rfl⟩
abbrev main_call1_v0 : Ref sig .tc := ⟨.hbm, 96, rfl⟩
abbrev main_v70 : Ref sig .tc := ⟨.hbm, 97, rfl⟩
abbrev main_v71 : Ref sig .tc := ⟨.hbm, 98, rfl⟩
abbrev main_c_11 : Ref sig .tc := ⟨.hbm, 99, rfl⟩
abbrev main_v72 : Ref sig .tc := ⟨.hbm, 100, rfl⟩
abbrev main_v73 : Ref sig .tc := ⟨.hbm, 101, rfl⟩
abbrev main_c_12 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_13 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_call2_cst : Ref sig .tc := ⟨.hbm, 122, rfl⟩
abbrev main_call2_v0 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x1_S100000x1_1_0_0_1_n_n_wf : DotDims.WF S100000x64 S64x1 S100000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The idealized kernel's run with its result named.

  The program is seven tiled regions among stretches of host operations. Its buffer contents at the boundaries
  between those segments form a fold from the launch memory: a stretch of host operations rewrites the buffers it
  computes, a region rewrites its output array with what its grid points wrote back. Every weakly fair
  execution terminates, nothing faulting, with every unscoped buffer at the last boundary's contents; so the result
  buffer ends at the last boundary's contents of the last region's output array, and each argument ends as launched.
-/
import proofs.«166380_j5909874999694_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer then holds the last
    boundary's contents of the last region's output array, and every argument array is as launched. -/
theorem run_result : θ_run defs (onTc (τ := τ) (main (F := F))) ⟨m, fun _ => 0, ρ⟩ (fun r => ∀ c : Dev nD,
      r.2.mem ((c.tc : Thread nD τ).loc main_v85) = W14 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v85 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c)⟩)

end Cert.KernelIdeal.Run

end
-- ==== Proof.Carry.lean ====
/-
  Buffers that a segment of the program does not write keep their contents across it.

  The program computes every intermediate array once. A stretch of host operations rewrites only the buffers its
  operations compute, and a region rewrites only its own arrays; so a buffer computed earlier is read later with the
  contents it was given. Here: the list of buffers each stretch writes, and for each segment the statement that any
  other buffer is the same before and after it.
-/
import proofs.«166380_j5909874999694_1_alg».proof.Proof.Gen.KernelIdeal.Frame

noncomputable section

namespace Cert.KernelIdeal.Carry

open Cert.KernelIdeal Cert.KernelIdeal.Gen
open Idealize.ShloMosaic Idealize.ShloMosaic.TcCoe Idealize.SL.Sem

variable {F : FTy → Type} [FloatOps F]

/-- A reference of a list is, as a device buffer, in the set of the list's device buffers. -/
theorem sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- The buffers the host operations of stretch 0 compute. -/
abbrev wr0 : List (Ref sig .tc) := [main_v0, main_v1, main_v2, main_v3, main_cst, main_v4, main_cst_0, main_v5, main_v6, main_v7, main_cst_1, main_v8, main_v9, main_v10, main_c, main_v11, main_v12, main_c_2, main_v13, main_v14, main_v15, main_v16, main_v17, main_c_3, main_v18, main_v19, main_c_4, main_v20, main_v21, main_v22, main_v23, main_v24, main_v25, main_v26, main_cst_5, main_v27, main_v28]
theorem hostOps0_wr : (hostOps0 : List (HloOp τ sig (Elt F))).Forall
    fun op => op.writes ⊆ (wr0.map (Proc.devRef (τ := τ) .tc)).toFinset := by
  simp only [hostOps0, List.Forall]
  repeat' apply And.intro
  all_goals exact sub_of_mem (by decide)

/-- The buffers the host operations of stretch 1 compute. -/
abbrev wr1 : List (Ref sig .tc) := [main_c_6, main_v30, main_v31, main_c_7, main_v32, main_v33, main_v34, main_v35, main_v36, main_v37, main_v38, main_v39, main_cst_8, main_v40, main_v41, main_v42, main_v43, main_v44]
theorem hostOps1_wr : (hostOps1 : List (HloOp τ sig (Elt F))).Forall
    fun op => op.writes ⊆ (wr1.map (Proc.devRef (τ := τ) .tc)).toFinset := by
  simp only [hostOps1, List.Forall]
  repeat' apply And.intro
  all_goals exact sub_of_mem (by decide)

/-- The buffers the host operations of stretch 2 compute. -/
abbrev wr2 : List (Ref sig .tc) := [main_cst_9, main_v46, main_v47]
theorem hostOps2_wr : (hostOps2 : List (HloOp τ sig (Elt F))).Forall
    fun op => op.writes ⊆ (wr2.map (Proc.devRef (τ := τ) .tc)).toFinset := by
  simp only [hostOps2, List.Forall]
  repeat' apply And.intro
  all_goals exact sub_of_mem (by decide)

/-- The buffers the host operations of stretch 3 compute. -/
abbrev wr3 : List (Ref sig .tc) := [main_c_10, main_v49, main_v50, main_c_11, main_v51, main_v52, main_v53, main_v54, main_v55, main_v56, main_v57, main_v58, main_cst_12, main_v59, main_v60, main_v61, main_v62, main_v63]
theorem hostOps3_wr : (hostOps3 : List (HloOp τ sig (Elt F))).Forall
    fun op => op.writes ⊆ (wr3.map (Proc.devRef (τ := τ) .tc)).toFinset := by
  simp only [hostOps3, List.Forall]
  repeat' apply And.intro
  all_goals exact sub_of_mem (by decide)

/-- The buffers the host operations of stretch 4 compute. -/
abbrev wr4 : List (Ref sig .tc) := [main_cst_13, main_v65, main_v66]
theorem hostOps4_wr : (hostOps4 : List (HloOp τ sig (Elt F))).Forall
    fun op => op.writes ⊆ (wr4.map (Proc.devRef (τ := τ) .tc)).toFinset := by
  simp only [hostOps4, List.Forall]
  repeat' apply And.intro
  all_goals exact sub_of_mem (by decide)

/-- The buffers the host operations of stretch 5 compute. -/
abbrev wr5 : List (Ref sig .tc) := [main_c_14, main_v68, main_v69, main_c_15, main_v70, main_v71, main_v72, main_v73, main_v74, main_v75, main_v76, main_v77, main_cst_16, main_v78, main_v79, main_v80, main_v81, main_v82]
theorem hostOps5_wr : (hostOps5 : List (HloOp τ sig (Elt F))).Forall
    fun op => op.writes ⊆ (wr5.map (Proc.devRef (τ := τ) .tc)).toFinset := by
  simp only [hostOps5, List.Forall]
  repeat' apply And.intro
  all_goals exact sub_of_mem (by decide)

/-- The buffers the host operations of stretch 6 compute. -/
abbrev wr6 : List (Ref sig .tc) := [main_v84]
theorem hostOps6_wr : (hostOps6 : List (HloOp τ sig (Elt F))).Forall
    fun op => op.writes ⊆ (wr6.map (Proc.devRef (τ := τ) .tc)).toFinset := by
  simp only [hostOps6, List.Forall]
  repeat' apply And.intro
  all_goals exact sub_of_mem (by decide)

variable (m : (ℓ : Loc nD τ sig) → Buf (Elt F) ℓ) (ρ : Dev nD → PrngReg) (c : Dev nD)

/-- A buffer stretch 0 does not compute is the same after it. -/
theorem host0 (b : Ref sig .tc) (hb : b ∉ wr0) :
    W1 m ρ c (Proc.devRef .tc b) = W0 m ρ c (Proc.devRef .tc b) :=
  StableHlo.after_of_writes_sub hostOps0 (W0 m ρ c) hostOps0_wr hb
/-- A buffer that is not an array of region 0 is the same after it. -/
theorem reg0 (b : Ref sig .tc) (hb : ∀ w, Pipeline.arrRef spec0 w ≠ b) :
    W2 m ρ c (Proc.devRef .tc b) = W1 m ρ c (Proc.devRef .tc b) :=
  W2_of_ne m ρ c b hb

/-- A buffer stretch 1 does not compute is the same after it. -/
theorem host1 (b : Ref sig .tc) (hb : b ∉ wr1) :
    W3 m ρ c (Proc.devRef .tc b) = W2 m ρ c (Proc.devRef .tc b) :=
  StableHlo.after_of_writes_sub hostOps1 (W2 m ρ c) hostOps1_wr hb
/-- A buffer that is not an array of region 1 is the same after it. -/
theorem reg1 (b : Ref sig .tc) (hb : ∀ w, Pipeline.arrRef spec1 w ≠ b) :
    W4 m ρ c (Proc.devRef .tc b) = W3 m ρ c (Proc.devRef .tc b) :=
  W4_of_ne m ρ c b hb

/-- A buffer stretch 2 does not compute is the same after it. -/
theorem host2 (b : Ref sig .tc) (hb : b ∉ wr2) :
    W5 m ρ c (Proc.devRef .tc b) = W4 m ρ c (Proc.devRef .tc b) :=
  StableHlo.after_of_writes_sub hostOps2 (W4 m ρ c) hostOps2_wr hb
/-- A buffer that is not an array of region 2 is the same after it. -/
theorem reg2 (b : Ref sig .tc) (hb : ∀ w, Pipeline.arrRef spec2 w ≠ b) :
    W6 m ρ c (Proc.devRef .tc b) = W5 m ρ c (Proc.devRef .tc b) :=
  W6_of_ne m ρ c b hb

/-- A buffer stretch 3 does not compute is the same after it. -/
theorem host3 (b : Ref sig .tc) (hb : b ∉ wr3) :
    W7 m ρ c (Proc.devRef .tc b) = W6 m ρ c (Proc.devRef .tc b) :=
  StableHlo.after_of_writes_sub hostOps3 (W6 m ρ c) hostOps3_wr hb
/-- A buffer that is not an array of region 3 is the same after it. -/
theorem reg3 (b : Ref sig .tc) (hb : ∀ w, Pipeline.arrRef spec3 w ≠ b) :
    W8 m ρ c (Proc.devRef .tc b) = W7 m ρ c (Proc.devRef .tc b) :=
  W8_of_ne m ρ c b hb

/-- A buffer stretch 4 does not compute is the same after it. -/
theorem host4 (b : Ref sig .tc) (hb : b ∉ wr4) :
    W9 m ρ c (Proc.devRef .tc b) = W8 m ρ c (Proc.devRef .tc b) :=
  StableHlo.after_of_writes_sub hostOps4 (W8 m ρ c) hostOps4_wr hb
/-- A buffer that is not an array of region 4 is the same after it. -/
theorem reg4 (b : Ref sig .tc) (hb : ∀ w, Pipeline.arrRef spec4 w ≠ b) :
    W10 m ρ c (Proc.devRef .tc b) = W9 m ρ c (Proc.devRef .tc b) :=
  W10_of_ne m ρ c b hb

/-- A buffer stretch 5 does not compute is the same after it. -/
theorem host5 (b : Ref sig .tc) (hb : b ∉ wr5) :
    W11 m ρ c (Proc.devRef .tc b) = W10 m ρ c (Proc.devRef .tc b) :=
  StableHlo.after_of_writes_sub hostOps5 (W10 m ρ c) hostOps5_wr hb
/-- A buffer that is not an array of region 5 is the same after it. -/
theorem reg5 (b : Ref sig .tc) (hb : ∀ w, Pipeline.arrRef spec5 w ≠ b) :
    W12 m ρ c (Proc.devRef .tc b) = W11 m ρ c (Proc.devRef .tc b) :=
  W12_of_ne m ρ c b hb

/-- A buffer stretch 6 does not compute is the same after it. -/
theorem host6 (b : Ref sig .tc) (hb : b ∉ wr6) :
    W13 m ρ c (Proc.devRef .tc b) = W12 m ρ c (Proc.devRef .tc b) :=
  StableHlo.after_of_writes_sub hostOps6 (W12 m ρ c) hostOps6_wr hb
/-- A buffer that is not an array of region 6 is the same after it. -/
theorem reg6 (b : Ref sig .tc) (hb : ∀ w, Pipeline.arrRef spec6 w ≠ b) :
    W14 m ρ c (Proc.devRef .tc b) = W13 m ρ c (Proc.devRef .tc b) :=
  W14_of_ne m ρ c b hb

end Cert.KernelIdeal.Carry

end
-- ==== Proof.Stretch0.lean ====
/-
  The first stretch of host operations of the idealized kernel, read at the buffers later segments use.

  Before its first region the kernel's host side computes, from the edge list alone, the source and target node of
  every edge (the two rows of the edge list), the degree-based factor rsqrt(1 + in-degree), its product over the two
  ends of each edge and its square at each node; and a zero offset row for the first linear layer. These are the
  reference program's operations, in the same order, on the same argument: each buffer holds the reference's
  stage of the same name.
-/
import proofs.«166380_j5909874999694_1_alg».proof.Proof.Gen.KernelIdeal.Frame
import proofs.«166380_j5909874999694_1_alg».proof.Proof.Gen.ReferenceIdeal.Read
import proofs.«166380_j5909874999694_1_alg».proof.Proof.Carry

set_option maxRecDepth 16384

noncomputable section

namespace Cert.KernelIdeal.Stretch0

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- The source node of every edge. -/
theorem src_eq : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  dsimp only [hostOps0]
  after_results_simp
  rfl

/-- The target node of every edge. -/
theorem dst_eq : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  dsimp only [hostOps0]
  after_results_simp
  rfl

/-- The factor of every edge: the product of its two ends' factors. -/
theorem edgeNorm_eq : W1 m ρ c (Proc.devRef .tc main_v25) = Cert.ReferenceIdeal.Read.val_main_v25 (F := Ideal) (m ((c : Thread nD τ).loc main_arg1)) := by
  show StableHlo.after hostOps0 (W0 m ρ c) (Proc.devRef .tc main_v25) = _
  dsimp only [hostOps0]
  after_results_simp
  rfl

/-- The factor of every node's own row: the square of its factor. -/
theorem selfNorm_eq : W1 m ρ c (Proc.devRef .tc main_v26) = Cert.ReferenceIdeal.Read.val_main_v26 (F := Ideal) (m ((c : Thread nD τ).loc main_arg1)) := by
  show StableHlo.after hostOps0 (W0 m ρ c) (Proc.devRef .tc main_v26) = _
  dsimp only [hostOps0]
  after_results_simp
  rfl

/-- The first linear layer's offset row: zero in every lane. -/
theorem zeroRow_eq : W1 m ρ c (Proc.devRef .tc main_v28)
    = shapeCast S1x128 (broadcastInDim S128 ![] bcast_S_S128 (constant (F := Ideal) S_ .f32 0x00000000#32)) shapeCasts_S128_S1x128 := by
  show StableHlo.after hostOps0 (W0 m ρ c) (Proc.devRef .tc main_v28) = _
  dsimp only [hostOps0]
  after_results_simp
  rfl

/-- The features and the first weight matrix are as launched when the first region is entered. -/
theorem x_eq : W1 m ρ c (Proc.devRef .tc main_arg0) = m ((c : Thread nD τ).loc main_arg0) :=
  Carry.host0 m ρ c main_arg0 (by decide)
theorem w1_eq : W1 m ρ c (Proc.devRef .tc main_arg2) = m ((c : Thread nD τ).loc main_arg2) :=
  Carry.host0 m ρ c main_arg2 (by decide)

end Cert.KernelIdeal.Stretch0

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.LibRowInDim.lean ====
/-
  A 1×n row copied to every row of an R×n matrix by a host broadcast along both axes, read at an entry.

  `broadcast_in_dim` with dims = [0, 1] from 1×n to R×n copies along the operand's unit axis 0 and keeps axis 1
  (for n ≠ 1, where axis 1 is not itself a unit axis): entry (p, k) of the result is the row's entry (0, k).
-/
import Idealize.ShloMosaic.Lib.Pipeline.Value
import Idealize.ShloMosaic.Lib.ValueIdx

noncomputable section

namespace Cert.RowInDim

open Idealize.ShloMosaic Idealize.ShloMosaic.ValueIdx

variable {α : Type} {R n : Nat}

/-- The row broadcast along both axes into R×n, at (p, k): the row at (0, k). -/
theorem broadcastInDim_rows (hn : n ≠ 1) (v : (⟨2, ![1, n]⟩ : Shape).Idx → α)
    (h : (⟨2, ![1, n]⟩ : Shape).BroadcastsInDim ⟨2, ![R, n]⟩ (![0, 1] : Fin 2 → Fin 2)) (p : Fin R) (k : Fin n) :
    broadcastInDim ⟨2, ![R, n]⟩ ![0, 1] h v (ix2 p k) = v (ix2 0 k) :=
  broadcastInDim_apply _ h v (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

end Cert.RowInDim

end
-- ==== Proof.LibColumnInDim.lean ====
/-
  A per-row vector carried to a matrix by the host's `broadcast_in_dim`, read at an entry.

  * `broadcastInDim_column`: a length-a vector broadcast along axis 0 into an a×1 column holds, at (i, u), the
    vector's entry i.
  * `broadcastInDim_lanes`: an a×1 column broadcast along both axes into a×b holds, at (p, c), the column's entry
    of row p, whatever the lane c.
  * `shapeCast_column` and `shapeCast_eq_broadcastInDim`: a reshape of the vector to a×1 holds the same entries,
    so the reshape and the broadcast are one array.
-/
import Idealize.ShloMosaic.Lib.Pipeline.Value
import Idealize.ShloMosaic.Lib.ValueIdx

noncomputable section

namespace Cert.ColumnInDim

open Idealize.ShloMosaic Idealize.ShloMosaic.ValueIdx

variable {α : Type} {a b : Nat}

/-- The vector broadcast along axis 0 into an a×1 column, at (i, u): the vector at i. -/
theorem broadcastInDim_column (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) :=
  broadcastInDim_apply _ h x (ix2 i u) (ix1 i) (fun ax => match ax with
    | ⟨0, _⟩ => by
      show i.val = if a = 1 then 0 else i.val
      split
      · have := i.isLt; omega
      · rfl)

/-- The column broadcast along both axes into a×b, at (p, c): the column at (p, 0). -/
theorem broadcastInDim_lanes (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply _ h v (ix2 p c) (ix2 p (0 : Fin 1)) (fun ax => match ax with
    | ⟨0, _⟩ => by
      show p.val = if a = 1 then 0 else p.val
      split
      · have := p.isLt; omega
      · rfl
    | ⟨1, _⟩ => by
      show (0 : Nat) = if (1 : Nat) = 1 then 0 else c.val
      rw [if_pos rfl])

/-- The vector reshaped to an a×1 column, at (i, u): the vector at i. -/
theorem shapeCast_column (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- So the reshape and the broadcast are one array. -/
theorem shapeCast_eq_broadcastInDim (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [shapeCast_column, broadcastInDim_column]

end Cert.ColumnInDim

end
-- ==== Proof.LibCombine.lean ====
/-
  A graph-convolution layer's combine step as one array, and its two spellings.

  For R×N arrays A (the aggregated messages) and H (the projected features), an R×1 column D (a per-row factor)
  and a 1×N row B (a per-lane offset) the combine step is the array

      combine A H D B (i, j) = (A(i, j) + H(i, j) · D(i, 0)) + B(0, j)

  in the extended reals, and `combineRelu` clamps it below at zero. A host spells it with the column and the row
  broadcast to R×N along both axes; a kernel body spells it with the two vector broadcasts (of a whole block's
  column and of the row). Each spelling holds that value at every entry by definition, so no finiteness is asked.
  N ≠ 1, so that the row's own axis is not one a broadcast copies.
-/
import Idealize.ShloMosaic.PureOps.Ideal.Laws
import Idealize.ShloMosaic.Lib.Pipeline.Value
import Idealize.ShloMosaic.Lib.ValueIdx
import proofs.«166380_j5909874999694_1_alg».proof.Proof.LibRowVector
import proofs.«166380_j5909874999694_1_alg».proof.Proof.LibRowInDim
import proofs.«166380_j5909874999694_1_alg».proof.Proof.LibColumnInDim

noncomputable section

namespace Cert.Combine

open Idealize.ShloMosaic Idealize.ShloMosaic.ValueIdx

variable {R N : Nat}

/-- The zero every clamp compares against: the value of the all-zero f32 pattern. -/
abbrev zero : EReal := Ideal.ofBits .f32 0x00000000#32

/-- (A + H · D) + B, entry by entry: D a per-row factor, B a per-lane offset. -/
def combine (A H : (⟨2, ![R, N]⟩ : Shape).Idx → EReal) (D : (⟨2, ![R, 1]⟩ : Shape).Idx → EReal)
    (B : (⟨2, ![1, N]⟩ : Shape).Idx → EReal) : (⟨2, ![R, N]⟩ : Shape).Idx → EReal :=
  fun i => (A i + H i * D (ix2 (i 0) (0 : Fin 1))) + B (ix2 (0 : Fin 1) (i 1))

/-- The same, clamped below at zero. -/
def combineRelu (A H : (⟨2, ![R, N]⟩ : Shape).Idx → EReal) (D : (⟨2, ![R, 1]⟩ : Shape).Idx → EReal)
    (B : (⟨2, ![1, N]⟩ : Shape).Idx → EReal) : (⟨2, ![R, N]⟩ : Shape).Idx → EReal :=
  fun i => max (combine A H D B i) zero

theorem combine_apply (A H : (⟨2, ![R, N]⟩ : Shape).Idx → EReal) (D : (⟨2, ![R, 1]⟩ : Shape).Idx → EReal)
    (B : (⟨2, ![1, N]⟩ : Shape).Idx → EReal) (p : Fin R) (q : Fin N) :
    combine A H D B (ix2 p q) = (A (ix2 p q) + H (ix2 p q) * D (ix2 p (0 : Fin 1))) + B (ix2 (0 : Fin 1) q) := rfl

theorem combineRelu_apply (A H : (⟨2, ![R, N]⟩ : Shape).Idx → EReal) (D : (⟨2, ![R, 1]⟩ : Shape).Idx → EReal)
    (B : (⟨2, ![1, N]⟩ : Shape).Idx → EReal) (p : Fin R) (q : Fin N) :
    combineRelu A H D B (ix2 p q)
      = max ((A (ix2 p q) + H (ix2 p q) * D (ix2 p (0 : Fin 1))) + B (ix2 (0 : Fin 1) q)) zero := rfl

/-- An R×1 column copied to every lane of an R×N array by a vector broadcast, at (p, c): the column at (p, 0). -/
theorem broadcastTo_column {α : Type} (v : (⟨2, ![R, 1]⟩ : Shape).Idx → α)
    (h : (⟨2, ![R, 1]⟩ : Shape).Broadcasts ⟨2, ![R, N]⟩) (p : Fin R) (c : Fin N) :
    broadcastTo ⟨2, ![R, N]⟩ v h (ix2 p c) = v (ix2 p (0 : Fin 1)) :=
  broadcastTo_apply v h (ix2 p c) (ix2 p (0 : Fin 1)) (fun ax => match ax with
    | ⟨0, _⟩ => by
      show p.val = if R = 1 then 0 else p.val
      split
      · have := p.isLt; omega
      · rfl
    | ⟨1, _⟩ => by
      show (0 : Nat) = if (1 : Nat) = 1 then 0 else c.val
      rw [if_pos rfl])

/-- A scalar broadcast to every entry by the host, at an index: the scalar. -/
theorem broadcastInDim_scalar {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 (fun ax => ax.elim0)

/-- A host's spelling of the combine step IS the combine step. -/
theorem host_eq (hN : N ≠ 1) (A H : FVec Ideal ⟨2, ![R, N]⟩ .f32) (D : FVec Ideal ⟨2, ![R, 1]⟩ .f32)
    (B : FVec Ideal ⟨2, ![1, N]⟩ .f32)
    (hD : (⟨2, ![R, 1]⟩ : Shape).BroadcastsInDim ⟨2, ![R, N]⟩ (![0, 1] : Fin 2 → Fin 2))
    (hB : (⟨2, ![1, N]⟩ : Shape).BroadcastsInDim ⟨2, ![R, N]⟩ (![0, 1] : Fin 2 → Fin 2)) :
    addf (addf A (mulf H (broadcastInDim ⟨2, ![R, N]⟩ ![0, 1] hD D))) (broadcastInDim ⟨2, ![R, N]⟩ ![0, 1] hB B)
      = combine A H D B := by
  funext j
  obtain ⟨p, q, rfl⟩ : ∃ (p : Fin R) (q : Fin N), j = ix2 p q := ⟨j 0, j 1, eq_ix2 j⟩
  show (A (ix2 p q) + H (ix2 p q) * broadcastInDim ⟨2, ![R, N]⟩ ![0, 1] hD D (ix2 p q))
      + broadcastInDim ⟨2, ![R, N]⟩ ![0, 1] hB B (ix2 p q) = _
  rw [ColumnInDim.broadcastInDim_lanes, RowInDim.broadcastInDim_rows hN, combine_apply]

/-- A host's clamp at zero (a maximum with the zero scalar broadcast to every entry), entry by entry. -/
theorem host_relu_eq (X : FVec Ideal ⟨2, ![R, N]⟩ .f32)
    (h0 : (⟨0, ![]⟩ : Shape).BroadcastsInDim ⟨2, ![R, N]⟩ (![] : Fin 0 → Fin 2)) :
    maximumf X (broadcastInDim ⟨2, ![R, N]⟩ ![] h0 (constant (F := Ideal) ⟨0, ![]⟩ .f32 0x00000000#32))
      = fun i => max (X i) zero := by
  funext j
  show max (X j) (broadcastInDim ⟨2, ![R, N]⟩ ![] h0 (constant (F := Ideal) ⟨0, ![]⟩ .f32 0x00000000#32) j) = _
  rw [broadcastInDim_scalar]
  rfl

/-- So a host's spelling of the clamped combine step IS the clamped combine step. -/
theorem host_relu_combine_eq (hN : N ≠ 1) (A H : FVec Ideal ⟨2, ![R, N]⟩ .f32) (D : FVec Ideal ⟨2, ![R, 1]⟩ .f32)
    (B : FVec Ideal ⟨2, ![1, N]⟩ .f32)
    (hD : (⟨2, ![R, 1]⟩ : Shape).BroadcastsInDim ⟨2, ![R, N]⟩ (![0, 1] : Fin 2 → Fin 2))
    (hB : (⟨2, ![1, N]⟩ : Shape).BroadcastsInDim ⟨2, ![R, N]⟩ (![0, 1] : Fin 2 → Fin 2))
    (h0 : (⟨0, ![]⟩ : Shape).BroadcastsInDim ⟨2, ![R, N]⟩ (![] : Fin 0 → Fin 2)) :
    maximumf (addf (addf A (mulf H (broadcastInDim ⟨2, ![R, N]⟩ ![0, 1] hD D)))
        (broadcastInDim ⟨2, ![R, N]⟩ ![0, 1] hB B))
        (broadcastInDim ⟨2, ![R, N]⟩ ![] h0 (constant (F := Ideal) ⟨0, ![]⟩ .f32 0x00000000#32))
      = combineRelu A H D B := by
  rw [host_relu_eq, host_eq hN]
  rfl

/-- A kernel body's spelling on one block (the block's column and the row spread by vector broadcasts), at entry
    (r, q) of the block. -/
theorem kernel_apply (hN : N ≠ 1) (a h : FVec Ideal ⟨2, ![R, N]⟩ .f32) (d : FVec Ideal ⟨2, ![R, 1]⟩ .f32)
    (b : FVec Ideal ⟨2, ![1, N]⟩ .f32)
    (hd : (⟨2, ![R, 1]⟩ : Shape).Broadcasts ⟨2, ![R, N]⟩) (hb : (⟨2, ![1, N]⟩ : Shape).Broadcasts ⟨2, ![R, N]⟩)
    (r : Fin R) (q : Fin N) :
    addf (addf a (mulf h (broadcastTo ⟨2, ![R, N]⟩ d hd))) (broadcastTo ⟨2, ![R, N]⟩ b hb) (ix2 r q)
      = (a (ix2 r q) + h (ix2 r q) * d (ix2 r (0 : Fin 1))) + b (ix2 (0 : Fin 1) q) := by
  show (a (ix2 r q) + h (ix2 r q) * broadcastTo ⟨2, ![R, N]⟩ d hd (ix2 r q)) + broadcastTo ⟨2, ![R, N]⟩ b hb (ix2 r q) = _
  rw [broadcastTo_column, RowVector.broadcastTo_row hN]

end Cert.Combine

end
-- ==== Proof.LibRowOfVector.lean ====
/-
  Two spellings of a length-n vector laid out as a 1×n row.

  A reshape of the vector to 1×n and a broadcast of it along axis 1 into a 1×n array are the same array: both hold,
  at (0, k), the vector's entry k (for n ≠ 1, where the broadcast does not copy along the vector's own axis).
-/
import Idealize.ShloMosaic.Lib.Pipeline.Value
import Idealize.ShloMosaic.Lib.ValueIdx

noncomputable section

namespace Cert.RowOfVector

open Idealize.ShloMosaic Idealize.ShloMosaic.ValueIdx

variable {α : Type} {n : Nat}

/-- The vector broadcast along axis 1 into a 1×n row, at (0, k): the vector at k. -/
theorem broadcastInDim_row (hn : n ≠ 1) (x : (⟨1, ![n]⟩ : Shape).Idx → α)
    (h : (⟨1, ![n]⟩ : Shape).BroadcastsInDim ⟨2, ![1, n]⟩ (![1] : Fin 1 → Fin 2)) (z : Fin 1) (k : Fin n) :
    broadcastInDim ⟨2, ![1, n]⟩ ![1] h x (ix2 z k) = x (ix1 k) :=
  broadcastInDim_apply _ h x (ix2 z k) (ix1 k) (fun a => match a with
    | ⟨0, _⟩ => by
      show k.val = if n = 1 then 0 else k.val
      rw [if_neg hn])

/-- The vector reshaped to a 1×n row, at (0, k): the vector at k. -/
theorem shapeCast_row (x : (⟨1, ![n]⟩ : Shape).Idx → α)
    (h : (⟨1, ![n]⟩ : Shape).ShapeCasts ⟨2, ![1, n]⟩) (z : Fin 1) (k : Fin n) :
    shapeCast ⟨2, ![1, n]⟩ x h (ix2 z k) = x (ix1 k) :=
  shapeCast_apply x h (ix2 z k) (ix1 k) (by
    rw [Shape.rowMajor_val_two, Shape.rowMajor_val_one]
    show k.val = z.val * n + k.val
    have hz : z.val = 0 := by have := z.isLt; omega
    rw [hz]; omega)

/-- So the reshape and the broadcast are one array. -/
theorem shapeCast_eq_broadcastInDim (hn : n ≠ 1) (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, k, rfl⟩ : ∃ (z : Fin 1) (k : Fin n), j = ix2 z k := ⟨j 0, j 1, eq_ix2 j⟩
  rw [shapeCast_row, broadcastInDim_row hn]

end Cert.RowOfVector

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibHostRead.lean ====
/-
  GENERAL LEMMAS: host layout operations read at an index.

  * a host operation of three operands whose function is given as a function of the three contents leaves that
    function of the three operands' contents in its result buffer;
  * a matrix (or vector) padded on the high side only reads, inside the original extents, the operand at the same
    index, and outside them the padding value;
  * three equal-shape blocks joined along the lanes of a matrix (or along a vector) read, at position
    w·g + r of the joined axis, block g at position r.
  Nothing here depends on a program.
-/
import Idealize.ShloMosaic.Lib.StableHlo.Run
import Idealize.ShloMosaic.Lib.Pipeline.Value
import Idealize.ShloMosaic.Lib.ValueIdx

noncomputable section

namespace Cert.HostRead

open Idealize.ShloMosaic Idealize.ShloMosaic.ValueIdx Idealize.ShloMosaic.StableHlo Idealize.SL.Sem

/-- A three-operand host operation whose function is `g` of the three contents: its result buffer holds `g` of the
    operands' contents. -/
theorem nary3_result {τ : Topo} {sig : RefSig} {Val : EltTy → Type} {x a b y : Ref sig .tc}
    (g : x.ty.Contents Val → a.ty.Contents Val → b.ty.Contents Val → y.ty.Contents Val) (hxs hy)
    (F : Valuation τ sig Val) :
    (nary (τ := τ) ![x, a, b] y (fun u => g (u 0) (u 1) (u 2)) hxs hy).result F (no_index (Proc.devRef .tc y))
      = g (F (Proc.devRef .tc x)) (F (Proc.devRef .tc a)) (F (Proc.devRef .tc b)) :=
  nary_result ![x, a, b] y _ hxs hy F

variable {α : Type}

/-- A matrix padded on the high side of both axes, read inside the original extents. -/
theorem pad2_inside {a b A B ha hb : Nat} (X : (⟨2, ![a, b]⟩ : Shape).Idx → α) {u : Shape} (v : u.Idx → α)
    (h : (⟨2, ![a, b]⟩ : Shape).Pads ![0, 0] ![ha, hb] ![0, 0] ⟨2, ![A, B]⟩) (hu : 0 < u.numel)
    (i : Fin A) (j : Fin B) (hi : i.val < a) (hj : j.val < b) :
    pad ⟨2, ![A, B]⟩ ![0, 0] ![ha, hb] ![0, 0] X v h hu (ix2 i j) = X (ix2 ⟨i.val, hi⟩ ⟨j.val, hj⟩) := by
  unfold pad
  rw [dif_pos (fun ax => match ax with
    | ⟨0, _⟩ => ⟨Nat.zero_le _, Nat.mod_one _, by show (i.val - 0) / (0 + 1) < a; simpa using hi⟩
    | ⟨1, _⟩ => ⟨Nat.zero_le _, Nat.mod_one _, by show (j.val - 0) / (0 + 1) < b; simpa using hj⟩)]
  refine congrArg X (funext fun ax => Fin.ext ?_)
  match ax with
  | ⟨0, _⟩ => show (i.val - 0) / (0 + 1) = i.val; simp
  | ⟨1, _⟩ => show (j.val - 0) / (0 + 1) = j.val; simp

/-- A matrix padded on the high side, read at a row past the original rows: the padding value. -/
theorem pad2_past_rows {a b A B ha hb : Nat} (X : (⟨2, ![a, b]⟩ : Shape).Idx → α) {u : Shape} (v : u.Idx → α)
    (h : (⟨2, ![a, b]⟩ : Shape).Pads ![0, 0] ![ha, hb] ![0, 0] ⟨2, ![A, B]⟩) (hu : 0 < u.numel)
    (i : Fin A) (j : Fin B) (hi : a ≤ i.val) :
    pad ⟨2, ![A, B]⟩ ![0, 0] ![ha, hb] ![0, 0] X v h hu (ix2 i j) = v (Shape.Idx.first hu) := by
  unfold pad
  rw [dif_neg]
  intro hin
  have h0 : (i.val - 0) / (0 + 1) < a := (hin (0 : Fin 2)).2.2
  simp at h0
  omega

/-- A vector padded on the high side, read inside the original extent. -/
theorem pad1_inside {a A ha : Nat} (x : (⟨1, ![a]⟩ : Shape).Idx → α) {u : Shape} (v : u.Idx → α)
    (h : (⟨1, ![a]⟩ : Shape).Pads ![0] ![ha] ![0] ⟨1, ![A]⟩) (hu : 0 < u.numel) (i : Fin A) (hi : i.val < a) :
    pad ⟨1, ![A]⟩ ![0] ![ha] ![0] x v h hu (ix1 i) = x (ix1 ⟨i.val, hi⟩) := by
  unfold pad
  rw [dif_pos (fun ax => match ax with
    | ⟨0, _⟩ => ⟨Nat.zero_le _, Nat.mod_one _, by show (i.val - 0) / (0 + 1) < a; simpa using hi⟩)]
  refine congrArg x (funext fun ax => Fin.ext ?_)
  match ax with
  | ⟨0, _⟩ => show (i.val - 0) / (0 + 1) = i.val; simp

/-- Three K×w blocks joined along the lanes, read at lane w·g + r: block g at lane r. -/
theorem join3_lanes {K w n : Nat} (A0 A1 A2 : (⟨2, ![K, w]⟩ : Shape).Idx → α)
    (h : Shape.Concatenates [(⟨2, ![K, w]⟩ : Shape), ⟨2, ![K, w]⟩, ⟨2, ![K, w]⟩] ⟨2, ![K, n]⟩ 1) (k : Fin K) (r : Fin w) (l : Fin n) :
    (l.val = r.val → concatenate ⟨2, ![K, n]⟩ 1 [⟨⟨2, ![K, w]⟩, A0⟩, ⟨⟨2, ![K, w]⟩, A1⟩, ⟨⟨2, ![K, w]⟩, A2⟩] h (ix2 k l) = A0 (ix2 k r))
    ∧ (l.val = w + r.val → concatenate ⟨2, ![K, n]⟩ 1 [⟨⟨2, ![K, w]⟩, A0⟩, ⟨⟨2, ![K, w]⟩, A1⟩, ⟨⟨2, ![K, w]⟩, A2⟩] h (ix2 k l) = A1 (ix2 k r))
    ∧ (l.val = w + w + r.val → concatenate ⟨2, ![K, n]⟩ 1 [⟨⟨2, ![K, w]⟩, A0⟩, ⟨⟨2, ![K, w]⟩, A1⟩, ⟨⟨2, ![K, w]⟩, A2⟩] h (ix2 k l) = A2 (ix2 k r)) := by
  have hi : ∀ b : Fin 2, b.cast (rfl : (2 : Nat) = 2) ≠ (1 : Fin 2) → ((ix2 k r : (⟨2, ![K, w]⟩ : Shape).Idx) b).val = ((ix2 k l : (⟨2, ![K, n]⟩ : Shape).Idx) (b.cast rfl)).val :=
    fun b hb => match b with
      | ⟨0, _⟩ => rfl
      | ⟨1, _⟩ => absurd rfl hb
  refine ⟨fun hl => ?_, fun hl => ?_, fun hl => ?_⟩
  · exact concatenate_apply_piece (t := ⟨2, ![K, n]⟩) (1 : Fin 2) [⟨⟨2, ![K, w]⟩, A0⟩, ⟨⟨2, ![K, w]⟩, A1⟩, ⟨⟨2, ![K, w]⟩, A2⟩] h (ix2 k l) 0 (by show 0 < 3; omega) _ A0 rfl rfl 0 (by simp) (ix2 k r) hi (by show 0 + r.val = l.val; omega)
  · exact concatenate_apply_piece (t := ⟨2, ![K, n]⟩) (1 : Fin 2) [⟨⟨2, ![K, w]⟩, A0⟩, ⟨⟨2, ![K, w]⟩, A1⟩, ⟨⟨2, ![K, w]⟩, A2⟩] h (ix2 k l) 1 (by show 1 < 3; omega) _ A1 rfl rfl w (by simp) (ix2 k r) hi (by show w + r.val = l.val; omega)
  · exact concatenate_apply_piece (t := ⟨2, ![K, n]⟩) (1 : Fin 2) [⟨⟨2, ![K, w]⟩, A0⟩, ⟨⟨2, ![K, w]⟩, A1⟩, ⟨⟨2, ![K, w]⟩, A2⟩] h (ix2 k l) 2 (by show 2 < 3; omega) _ A2 rfl rfl (w + w) (by simp) (ix2 k r) hi (by show w + w + r.val = l.val; omega)

/-- Three length-w vectors joined end to end, read at position w·g + r: vector g at position r. -/
theorem join3_vec {w n : Nat} (a0 a1 a2 : (⟨1, ![w]⟩ : Shape).Idx → α)
    (h : Shape.Concatenates [(⟨1, ![w]⟩ : Shape), ⟨1, ![w]⟩, ⟨1, ![w]⟩] ⟨1, ![n]⟩ 0) (r : Fin w) (l : Fin n) :
    (l.val = r.val → concatenate ⟨1, ![n]⟩ 0 [⟨⟨1, ![w]⟩, a0⟩, ⟨⟨1, ![w]⟩, a1⟩, ⟨⟨1, ![w]⟩, a2⟩] h (ix1 l) = a0 (ix1 r))
    ∧ (l.val = w + r.val → concatenate ⟨1, ![n]⟩ 0 [⟨⟨1, ![w]⟩, a0⟩, ⟨⟨1, ![w]⟩, a1⟩, ⟨⟨1, ![w]⟩, a2⟩] h (ix1 l) = a1 (ix1 r))
    ∧ (l.val = w + w + r.val → concatenate ⟨1, ![n]⟩ 0 [⟨⟨1, ![w]⟩, a0⟩, ⟨⟨1, ![w]⟩, a1⟩, ⟨⟨1, ![w]⟩, a2⟩] h (ix1 l) = a2 (ix1 r)) := by
  have hi : ∀ b : Fin 1, b.cast (rfl : (1 : Nat) = 1) ≠ (0 : Fin 1) → ((ix1 r : (⟨1, ![w]⟩ : Shape).Idx) b).val = ((ix1 l : (⟨1, ![n]⟩ : Shape).Idx) (b.cast rfl)).val :=
    fun b hb => match b with
      | ⟨0, _⟩ => absurd rfl hb
  refine ⟨fun hl => ?_, fun hl => ?_, fun hl => ?_⟩
  · exact concatenate_apply_piece (t := ⟨1, ![n]⟩) (0 : Fin 1) [⟨⟨1, ![w]⟩, a0⟩, ⟨⟨1, ![w]⟩, a1⟩, ⟨⟨1, ![w]⟩, a2⟩] h (ix1 l) 0 (by show 0 < 3; omega) _ a0 rfl rfl 0 (by simp) (ix1 r) hi (by show 0 + r.val = l.val; omega)
  · exact concatenate_apply_piece (t := ⟨1, ![n]⟩) (0 : Fin 1) [⟨⟨1, ![w]⟩, a0⟩, ⟨⟨1, ![w]⟩, a1⟩, ⟨⟨1, ![w]⟩, a2⟩] h (ix1 l) 1 (by show 1 < 3; omega) _ a1 rfl rfl w (by simp) (ix1 r) hi (by show w + r.val = l.val; omega)
  · exact concatenate_apply_piece (t := ⟨1, ![n]⟩) (0 : Fin 1) [⟨⟨1, ![w]⟩, a0⟩, ⟨⟨1, ![w]⟩, a1⟩, ⟨⟨1, ![w]⟩, a2⟩] h (ix1 l) 2 (by show 2 < 3; omega) _ a2 rfl rfl (w + w) (by simp) (ix1 r) hi (by show w + w + r.val = l.val; omega)

end Cert.HostRead

end
-- ==== Proof.LibLinear.lean ====
/-
  An affine layer read at one entry, at the ideal values.

  For an R×K matrix X, a K×N matrix W and a length-N vector b the layer is the array

      dense X W b (i, j) = (∑ c, X(i, c) · W(c, j)) + b(j)

  in the extended reals. Two spellings of it are read here at an entry (p, q), with no finiteness asked, since
  each is that sum by definition once the contraction index is renamed by its one coordinate:

    * a kernel's: the product on the matrix unit into the zero accumulator of the two operands after a change of
      float format (the identity on ideal values), the left operand first re-cast to its own shape; the vector
      laid out as a 1×N row, copied to every row and added;
    * a host's: the general dot product with the plain dimension numbers; the vector broadcast to a 1×N row and
      then to every row, and added.

  Row i of the layer depends on row i of X alone. So rows appended below X (a padding of any value) change nothing
  in the first rows: the layer of the padded matrix, cut back to the original rows, is the layer of X
  (`slice_dense_pad`).

  The dimension record of either product may be any record equal to the plain one (for a record written out with
  those lists the equality is `rfl`); N ≠ 1 so that the row's own axis is not one that a broadcast copies.
-/
import Idealize.ShloMosaic.PureOps.Ideal.Laws
import Idealize.ShloMosaic.Lib.Pipeline.Value
import Idealize.ShloMosaic.Lib.ValueIdx
import proofs.«166380_j5909874999694_1_alg».proof.Proof.LibPlainDot
import proofs.«166380_j5909874999694_1_alg».proof.Proof.LibRowVector
import proofs.«166380_j5909874999694_1_alg».proof.Proof.LibRowInDim
import proofs.«166380_j5909874999694_1_alg».proof.Proof.LibRowOfVector
import proofs.«166380_j5909874999694_1_alg».proof.Proof.LibHostRead

noncomputable section

open scoped BigOperators

namespace Cert.Linear

open Idealize.ShloMosaic Idealize.ShloMosaic.ValueIdx

variable {R K N : Nat}

/-- The affine layer X · W + b as one array, entry by entry. -/
def dense (X : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => (∑ c : Fin K, X (ix2 (i 0) c) * W (ix2 c (i 1))) + b (ix1 (i 1))

/-- The layer at entry (p, q). -/
theorem dense_apply (X : (⟨2, ![R, K]⟩ : Shape).Idx → EReal) (W : (⟨2, ![K, N]⟩ : Shape).Idx → EReal)
    (b : (⟨1, ![N]⟩ : Shape).Idx → EReal) (p : Fin R) (q : Fin N) :
    dense X W b (ix2 p q) = (∑ c : Fin K, X (ix2 p c) * W (ix2 c q)) + b (ix1 q) := rfl

/-- A kernel's spelling of the layer, at entry (p, q). -/
theorem kernel_apply (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ .f32) (W : FVec Ideal ⟨2, ![K, N]⟩ .f32)
    (b : FVec Ideal ⟨1, ![N]⟩ .f32)
    (hX : (⟨2, ![R, K]⟩ : Shape).ShapeCasts ⟨2, ![R, K]⟩) (hb : (⟨1, ![N]⟩ : Shape).ShapeCasts ⟨2, ![1, N]⟩)
    (hbc : (⟨2, ![1, N]⟩ : Shape).Broadcasts ⟨2, ![R, N]⟩) (hlt : FTy.bf16.bits < FTy.f32.bits)
    (p : Fin R) (q : Fin N) :
    addf (matmul D prec (truncf .bf16 (shapeCast ⟨2, ![R, K]⟩ X hX) hlt) (truncf .bf16 W hlt)
          (constant (F := Ideal) ⟨2, ![R, N]⟩ .f32 0x00000000#32))
        (broadcastTo ⟨2, ![R, N]⟩ (shapeCast ⟨2, ![1, N]⟩ b hb) hbc) (ix2 p q)
      = dense X W b (ix2 p q) := by
  show matmul D prec (truncf .bf16 (shapeCast ⟨2, ![R, K]⟩ X hX) hlt) (truncf .bf16 W hlt)
        (constant (F := Ideal) ⟨2, ![R, N]⟩ .f32 0x00000000#32) (ix2 p q)
      + broadcastTo ⟨2, ![R, N]⟩ (shapeCast ⟨2, ![1, N]⟩ b hb) hbc (ix2 p q) = _
  rw [RowVector.broadcastTo_row hN, RowVector.shapeCast_row, dense_apply]
  refine congrArg (· + b (ix1 q))
    ((PlainDot.matmul_zero_apply D hD prec (truncf .bf16 (shapeCast ⟨2, ![R, K]⟩ X hX) hlt) (truncf .bf16 W hlt) p q).trans ?_)
  refine Finset.sum_congr rfl fun c _ => ?_
  show shapeCast ⟨2, ![R, K]⟩ X hX (ix2 p c) * W (ix2 c q) = _
  rw [shapeCast_self]

/-- A host's spelling of the layer, at entry (r, c). -/
theorem host_apply (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ .f32) (W : FVec Ideal ⟨2, ![K, N]⟩ .f32)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) (r : Fin R) (c : Fin N) :
    addf (Host.dotGeneral D prec X W)
        (broadcastInDim ⟨2, ![R, N]⟩ ![0, 1] h2 (broadcastInDim ⟨2, ![1, N]⟩ ![1] h1 b)) (ix2 r c)
      = dense X W b (ix2 r c) := by
  show FloatOps.dotGeneral D prec .single X W (ix2 r c)
      + broadcastInDim ⟨2, ![R, N]⟩ ![0, 1] h2 (broadcastInDim ⟨2, ![1, N]⟩ ![1] h1 b) (ix2 r c) = _
  rw [RowInDim.broadcastInDim_rows hN, PlainDot.dotGeneral_apply D hD, RowOfVector.broadcastInDim_row hN, dense_apply]

/-- So a host's spelling of the layer IS the layer. -/
theorem host_eq (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ .f32) (W : FVec Ideal ⟨2, ![K, N]⟩ .f32)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) :
    addf (Host.dotGeneral D prec X W)
        (broadcastInDim ⟨2, ![R, N]⟩ ![0, 1] h2 (broadcastInDim ⟨2, ![1, N]⟩ ![1] h1 b))
      = dense X W b := by
  funext j
  obtain ⟨r, c, rfl⟩ : ∃ (r : Fin R) (c : Fin N), j = ix2 r c := ⟨j 0, j 1, eq_ix2 j⟩
  exact host_apply D hD hN prec X W b h1 h2 r c

/-- Rows appended below a matrix do not reach the rows above them: the layer of a matrix padded with extra rows,
    cut back to the original rows, is the layer of the matrix. -/
theorem slice_dense_pad {a A ha : Nat} (X : (⟨2, ![a, K]⟩ : Shape).Idx → EReal) {u : Shape} (v : u.Idx → EReal)
    (W : (⟨2, ![K, N]⟩ : Shape).Idx → EReal) (b : (⟨1, ![N]⟩ : Shape).Idx → EReal)
    (hp : (⟨2, ![a, K]⟩ : Shape).Pads ![0, 0] ![ha, 0] ![0, 0] ⟨2, ![A, K]⟩) (hu : 0 < u.numel)
    (hs : (⟨2, ![A, N]⟩ : Shape).Slices ![0, 0] ⟨2, ![a, N]⟩) (haA : a ≤ A) :
    extractStridedSlice ⟨2, ![a, N]⟩ ![0, 0] (dense (pad ⟨2, ![A, K]⟩ ![0, 0] ![ha, 0] ![0, 0] X v hp hu) W b) hs
      = dense X W b := by
  funext j
  obtain ⟨r, q, rfl⟩ : ∃ (r : Fin a) (q : Fin N), j = ix2 r q := ⟨j 0, j 1, eq_ix2 j⟩
  have hr : r.val < A := lt_of_lt_of_le r.isLt haA
  rw [extractStridedSlice_apply ![0, 0] _ hs (ix2 r q) (ix2 ⟨r.val, hr⟩ q) (fun ax => match ax with
      | ⟨0, _⟩ => by show r.val = 0 + r.val; omega
      | ⟨1, _⟩ => by show q.val = 0 + q.val; omega),
    dense_apply, dense_apply]
  refine congrArg (· + b (ix1 q)) (Finset.sum_congr rfl fun c _ => ?_)
  rw [HostRead.pad2_inside X v hp hu ⟨r.val, hr⟩ c r.isLt c.isLt]

end Cert.Linear

end
-- ==== Proof.LibRowAffine.lean ====
/-
  An affine layer whose bias arrives laid out as a 1×N row, read at one entry at the ideal values.

  For an R×K matrix X, a K×N matrix W and a 1×N row B the layer is the array

      rowAffine X W B (i, j) = (∑ c, X(i, c) · W(c, j)) + B(0, j)

  in the extended reals. Read here, with no finiteness asked:

    * a kernel block's spelling: the product on the matrix unit into the zero accumulator of the two operands after a
      change of float format (the identity on ideal values), the row copied to every row of the block and added — with
      the operands first re-cast to their own shapes, or not;
    * a host's spelling with a length-N bias vector broadcast to a 1×N row and then to every row: the layer at the
      vector reshaped to a 1×N row (a reshape and a broadcast of a vector into a row are one array);
    * a host's plain product with no bias at all: the layer at the reshaped splat of the zero word, since x + 0 = x
      for every extended real x.

  The dimension record of either product may be any record equal to the plain one; N ≠ 1 so that the row's own
  axis is not one that a broadcast copies.
-/
import Idealize.ShloMosaic.PureOps.Ideal.Laws
import Idealize.ShloMosaic.Lib.Pipeline.Value
import Idealize.ShloMosaic.Lib.ValueIdx
import proofs.«166380_j5909874999694_1_alg».proof.Proof.LibPlainDot
import proofs.«166380_j5909874999694_1_alg».proof.Proof.LibRowVector
import proofs.«166380_j5909874999694_1_alg».proof.Proof.LibLinear

noncomputable section

open scoped BigOperators

namespace Cert.RowAffine

open Idealize.ShloMosaic Idealize.ShloMosaic.ValueIdx

variable {R K N : Nat}

/-- The affine layer X · W + B with B a 1×N row, entry by entry. -/
def rowAffine (X : (⟨2, ![R, K]⟩ : Shape).Idx → EReal) (W : (⟨2, ![K, N]⟩ : Shape).Idx → EReal)
    (B : (⟨2, ![1, N]⟩ : Shape).Idx → EReal) : (⟨2, ![R, N]⟩ : Shape).Idx → EReal :=
  fun i => (∑ c : Fin K, X (ix2 (i 0) c) * W (ix2 c (i 1))) + B (ix2 0 (i 1))

/-- The layer at entry (p, q). -/
theorem rowAffine_apply (X : (⟨2, ![R, K]⟩ : Shape).Idx → EReal) (W : (⟨2, ![K, N]⟩ : Shape).Idx → EReal)
    (B : (⟨2, ![1, N]⟩ : Shape).Idx → EReal) (p : Fin R) (q : Fin N) :
    rowAffine X W B (ix2 p q) = (∑ c : Fin K, X (ix2 p c) * W (ix2 c q)) + B (ix2 0 q) := rfl

/-- A kernel block's spelling of the layer, the operands used as loaded, at entry (p, q). -/
theorem kernel_apply (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ .f32) (W : FVec Ideal ⟨2, ![K, N]⟩ .f32)
    (B : FVec Ideal ⟨2, ![1, N]⟩ .f32)
    (hB : (⟨2, ![1, N]⟩ : Shape).ShapeCasts ⟨2, ![1, N]⟩)
    (hbc : (⟨2, ![1, N]⟩ : Shape).Broadcasts ⟨2, ![R, N]⟩) (hlt : FTy.bf16.bits < FTy.f32.bits)
    (p : Fin R) (q : Fin N) :
    addf (matmul D prec (truncf .bf16 X hlt) (truncf .bf16 W hlt)
          (constant (F := Ideal) ⟨2, ![R, N]⟩ .f32 0x00000000#32))
        (broadcastTo ⟨2, ![R, N]⟩ (shapeCast ⟨2, ![1, N]⟩ B hB) hbc) (ix2 p q)
      = rowAffine X W B (ix2 p q) := by
  show matmul D prec (truncf .bf16 X hlt) (truncf .bf16 W hlt)
        (constant (F := Ideal) ⟨2, ![R, N]⟩ .f32 0x00000000#32) (ix2 p q)
      + broadcastTo ⟨2, ![R, N]⟩ (shapeCast ⟨2, ![1, N]⟩ B hB) hbc (ix2 p q) = _
  rw [RowVector.broadcastTo_row hN, shapeCast_self, rowAffine_apply]
  exact congrArg (· + B (ix2 0 q))
    (PlainDot.matmul_zero_apply D hD prec (truncf .bf16 X hlt) (truncf .bf16 W hlt) p q)

/-- A kernel block's spelling of the layer, both operands first re-cast to their own shapes, at entry (p, q). -/
theorem kernel_cast_apply (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ .f32) (W : FVec Ideal ⟨2, ![K, N]⟩ .f32)
    (B : FVec Ideal ⟨2, ![1, N]⟩ .f32)
    (hX : (⟨2, ![R, K]⟩ : Shape).ShapeCasts ⟨2, ![R, K]⟩) (hW : (⟨2, ![K, N]⟩ : Shape).ShapeCasts ⟨2, ![K, N]⟩)
    (hB : (⟨2, ![1, N]⟩ : Shape).ShapeCasts ⟨2, ![1, N]⟩)
    (hbc : (⟨2, ![1, N]⟩ : Shape).Broadcasts ⟨2, ![R, N]⟩) (hlt : FTy.bf16.bits < FTy.f32.bits)
    (p : Fin R) (q : Fin N) :
    addf (matmul D prec (truncf .bf16 (shapeCast ⟨2, ![R, K]⟩ X hX) hlt) (truncf .bf16 (shapeCast ⟨2, ![K, N]⟩ W hW) hlt)
          (constant (F := Ideal) ⟨2, ![R, N]⟩ .f32 0x00000000#32))
        (broadcastTo ⟨2, ![R, N]⟩ (shapeCast ⟨2, ![1, N]⟩ B hB) hbc) (ix2 p q)
      = rowAffine X W B (ix2 p q) := by
  rw [shapeCast_self X hX, shapeCast_self W hW]
  exact kernel_apply D hD hN prec X W B hB hbc hlt p q

/-- The layer at a vector reshaped to a row is the layer with that vector as its bias. -/
theorem rowAffine_shapeCast (X : (⟨2, ![R, K]⟩ : Shape).Idx → EReal) (W : (⟨2, ![K, N]⟩ : Shape).Idx → EReal)
    (b : (⟨1, ![N]⟩ : Shape).Idx → EReal) (hb : (⟨1, ![N]⟩ : Shape).ShapeCasts ⟨2, ![1, N]⟩) :
    rowAffine X W (shapeCast ⟨2, ![1, N]⟩ b hb) = Linear.dense X W b := by
  funext j
  obtain ⟨r, c, rfl⟩ : ∃ (r : Fin R) (c : Fin N), j = ix2 r c := ⟨j 0, j 1, eq_ix2 j⟩
  rw [rowAffine_apply, Linear.dense_apply, RowVector.shapeCast_row]

/-- A host's spelling of the layer with a bias vector IS the layer at the vector reshaped to a row. -/
theorem host_eq (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ .f32) (W : FVec Ideal ⟨2, ![K, N]⟩ .f32)
    (b : FVec Ideal ⟨1, ![N]⟩ .f32) (hb : (⟨1, ![N]⟩ : Shape).ShapeCasts ⟨2, ![1, N]⟩)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) :
    addf (Host.dotGeneral D prec X W)
        (broadcastInDim ⟨2, ![R, N]⟩ ![0, 1] h2 (broadcastInDim ⟨2, ![1, N]⟩ ![1] h1 b))
      = rowAffine X W (shapeCast ⟨2, ![1, N]⟩ b hb) :=
  (Linear.host_eq D hD hN prec X W b h1 h2).trans (rowAffine_shapeCast X W b hb).symm

/-- A host's plain product with no bias IS the layer at the reshaped splat of the zero word. -/
theorem host_nobias_eq (D : DotDims ⟨2, ![R, K]⟩ ⟨2, ![K, N]⟩ ⟨2, ![R, N]⟩) (hD : D = DotDims.plain R K N)
    (prec : Option ContractPrecision) (X : FVec Ideal ⟨2, ![R, K]⟩ .f32) (W : FVec Ideal ⟨2, ![K, N]⟩ .f32)
    (hb : (⟨1, ![N]⟩ : Shape).ShapeCasts ⟨2, ![1, N]⟩)
    (h0 : (⟨0, ![]⟩ : Shape).BroadcastsInDim ⟨1, ![N]⟩ (![] : Fin 0 → Fin 1)) :
    Host.dotGeneral D prec X W
      = rowAffine X W (shapeCast ⟨2, ![1, N]⟩
          (broadcastInDim ⟨1, ![N]⟩ ![] h0 (constant (F := Ideal) ⟨0, ![]⟩ .f32 0x00000000#32)) hb) := by
  funext j
  obtain ⟨r, c, rfl⟩ : ∃ (r : Fin R) (c : Fin N), j = ix2 r c := ⟨j 0, j 1, eq_ix2 j⟩
  rw [rowAffine_apply, RowVector.shapeCast_row,
    broadcastInDim_apply _ h0 _ (ix1 c) (fun a => a.elim0) (fun a => a.elim0),
    constant_apply, Ideal.ofBits_zero_f32, add_zero]
  exact PlainDot.dotGeneral_apply D hD prec .single X W r c

end Cert.RowAffine

end
-- ==== Proof.LibHostForms.lean ====
/-
  A host program's spellings of a graph-convolution layer's two dense steps, as whole arrays.

  For R×N arrays A (messages summed at each node) and H (projected features), a length-R vector d (a per-node
  factor) and a length-N vector b (a per-lane offset), a host spells the clamped combine step
  max((A + H · d) + b, 0) with d broadcast to a column and then to every lane and b broadcast to a row and then to
  every row. That array is the clamped combine step over the column and the row that are the RESHAPES of d and b
  (a reshape and a broadcast of a vector into a column, or into a row, are one array).

  For the last layer, whose output has ONE lane: the product X · W plus a length-1 offset broadcast to a 1×1 cell
  and then to every row is the affine layer at the offset reshaped to a 1×1 cell. With one lane the broadcast
  copies along both axes, and the only lane is lane 0.
  No finiteness is asked: each side holds the same extended real at every entry by definition.
-/
import Idealize.ShloMosaic.PureOps.Ideal.Laws
import Idealize.ShloMosaic.Lib.Pipeline.Value
import Idealize.ShloMosaic.Lib.ValueIdx
import proofs.«166380_j5909874999694_1_alg».proof.Proof.LibCombine
import proofs.«166380_j5909874999694_1_alg».proof.Proof.LibColumnInDim
import proofs.«166380_j5909874999694_1_alg».proof.Proof.LibRowOfVector
import proofs.«166380_j5909874999694_1_alg».proof.Proof.LibRowAffine
import proofs.«166380_j5909874999694_1_alg».proof.Proof.LibPlainDot
import proofs.«166380_j5909874999694_1_alg».proof.Proof.LibRowVector

noncomputable section

open scoped BigOperators

namespace Cert.HostForms

open Idealize.ShloMosaic Idealize.ShloMosaic.ValueIdx

variable {R K N : Nat}

/-- A host's clamped combine step over a factor vector and an offset vector IS the clamped combine step over the
    vectors reshaped to a column and to a row. -/
theorem host_combine_eq (hN : N ≠ 1) (A H : FVec Ideal ⟨2, ![R, N]⟩ .f32) (d : FVec Ideal ⟨1, ![R]⟩ .f32)
    (b : FVec Ideal ⟨1, ![N]⟩ .f32)
    (hc : (⟨1, ![R]⟩ : Shape).BroadcastsInDim ⟨2, ![R, 1]⟩ (![0] : Fin 1 → Fin 2))
    (hl : (⟨2, ![R, 1]⟩ : Shape).BroadcastsInDim ⟨2, ![R, N]⟩ (![0, 1] : Fin 2 → Fin 2))
    (hr : (⟨1, ![N]⟩ : Shape).BroadcastsInDim ⟨2, ![1, N]⟩ (![1] : Fin 1 → Fin 2))
    (hrr : (⟨2, ![1, N]⟩ : Shape).BroadcastsInDim ⟨2, ![R, N]⟩ (![0, 1] : Fin 2 → Fin 2))
    (h0 : (⟨0, ![]⟩ : Shape).BroadcastsInDim ⟨2, ![R, N]⟩ (![] : Fin 0 → Fin 2))
    (hd : (⟨1, ![R]⟩ : Shape).ShapeCasts ⟨2, ![R, 1]⟩) (hb : (⟨1, ![N]⟩ : Shape).ShapeCasts ⟨2, ![1, N]⟩) :
    maximumf
        (addf (addf A (mulf H (broadcastInDim ⟨2, ![R, N]⟩ ![0, 1] hl (broadcastInDim ⟨2, ![R, 1]⟩ ![0] hc d))))
          (broadcastInDim ⟨2, ![R, N]⟩ ![0, 1] hrr (broadcastInDim ⟨2, ![1, N]⟩ ![1] hr b)))
        (broadcastInDim ⟨2, ![R, N]⟩ ![] h0 (constant (F := Ideal) ⟨0, ![]⟩ .f32 0x00000000#32))
      = Combine.combineRelu A H (shapeCast ⟨2, ![R, 1]⟩ d hd) (shapeCast ⟨2, ![1, N]⟩ b hb) := by
  rw [Combine.host_relu_combine_eq hN A H _ _ hl hrr h0,
    ColumnInDim.shapeCast_eq_broadcastInDim d hd hc, RowOfVector.shapeCast_eq_broadcastInDim hN b hb hr]

/-- A 1×1 cell copied to every row of an R×1 column by the host, at (p, u): the cell. -/
theorem broadcastInDim_cell {α : Type} (v : (⟨2, ![1, 1]⟩ : Shape).Idx → α)
    (h : (⟨2, ![1, 1]⟩ : Shape).BroadcastsInDim ⟨2, ![R, 1]⟩ (![0, 1] : Fin 2 → Fin 2)) (p : Fin R) (u : Fin 1) :
    broadcastInDim ⟨2, ![R, 1]⟩ ![0, 1] h v (ix2 p u) = v (ix2 (0 : Fin 1) (0 : Fin 1)) :=
  broadcastInDim_apply _ h v (ix2 p u) (ix2 (0 : Fin 1) (0 : Fin 1)) (fun a => match a with
    | ⟨0, _⟩ => by
      show (0 : Nat) = if (1 : Nat) = 1 then 0 else _
      rw [if_pos rfl]
    | ⟨1, _⟩ => by
      show (0 : Nat) = if (1 : Nat) = 1 then 0 else _
      rw [if_pos rfl])

/-- A length-1 vector broadcast into a 1×1 cell by the host, at (0, 0): its one entry. -/
theorem broadcastInDim_one {α : Type} (x : (⟨1, ![1]⟩ : Shape).Idx → α)
    (h : (⟨1, ![1]⟩ : Shape).BroadcastsInDim ⟨2, ![1, 1]⟩ (![1] : Fin 1 → Fin 2)) :
    broadcastInDim ⟨2, ![1, 1]⟩ ![1] h x (ix2 (0 : Fin 1) (0 : Fin 1)) = x (ix1 (0 : Fin 1)) :=
  broadcastInDim_apply _ h x (ix2 (0 : Fin 1) (0 : Fin 1)) (ix1 (0 : Fin 1)) (fun a => match a with
    | ⟨0, _⟩ => by
      show (0 : Nat) = if (1 : Nat) = 1 then 0 else _
      rw [if_pos rfl])

/-- A host's one-lane affine layer (the product plus a length-1 offset spread over the rows) IS the affine layer
    at the offset reshaped to a 1×1 cell. -/
theorem host_one_lane_eq (D : DotDims ⟨2, ![R, K]⟩ ⟨2, ![K, 1]⟩ ⟨2, ![R, 1]⟩) (hD : D = DotDims.plain R K 1)
    (prec : Option ContractPrecision) (X : FVec Ideal ⟨2, ![R, K]⟩ .f32) (W : FVec Ideal ⟨2, ![K, 1]⟩ .f32)
    (b : FVec Ideal ⟨1, ![1]⟩ .f32) (hb : (⟨1, ![1]⟩ : Shape).ShapeCasts ⟨2, ![1, 1]⟩)
    (h1 : (⟨1, ![1]⟩ : Shape).BroadcastsInDim ⟨2, ![1, 1]⟩ (![1] : Fin 1 → Fin 2))
    (h2 : (⟨2, ![1, 1]⟩ : Shape).BroadcastsInDim ⟨2, ![R, 1]⟩ (![0, 1] : Fin 2 → Fin 2)) :
    addf (Host.dotGeneral D prec X W)
        (broadcastInDim ⟨2, ![R, 1]⟩ ![0, 1] h2 (broadcastInDim ⟨2, ![1, 1]⟩ ![1] h1 b))
      = RowAffine.rowAffine X W (shapeCast ⟨2, ![1, 1]⟩ b hb) := by
  funext j
  obtain ⟨r, u, rfl⟩ : ∃ (r : Fin R) (u : Fin 1), j = ix2 r u := ⟨j 0, j 1, eq_ix2 j⟩
  have hu : u = (0 : Fin 1) := Subsingleton.elim _ _
  subst hu
  show Host.dotGeneral D prec X W (ix2 r (0 : Fin 1))
      + broadcastInDim ⟨2, ![R, 1]⟩ ![0, 1] h2 (broadcastInDim ⟨2, ![1, 1]⟩ ![1] h1 b) (ix2 r (0 : Fin 1)) = _
  rw [broadcastInDim_cell, broadcastInDim_one, RowAffine.rowAffine_apply, RowVector.shapeCast_row]
  exact congrArg (· + b (ix1 (0 : Fin 1))) (PlainDot.dotGeneral_apply D hD prec .single X W r (0 : Fin 1))

end Cert.HostForms

end
-- ==== Proof.Region0.lean ====
/-
  Region 0 of the program: a tiled affine layer, read as one array.

  The region walks 20 grid points. Point t loads rows 5000·t … 5000·t + 4999 of the 100000×256 input, the whole
  256×128 weight and the whole 1×128 bias row, and writes rows 5000·t … 5000·t + 4999 of the 100000×128 output with
  the block's product plus the row on every row of the block. Entry (p, q) of the block written at point t is entry
  (5000·t + p, q) of the affine layer of the whole arrays, because row p of the loaded block IS row 5000·t + p of
  the input; and the 20 blocks cover every row (row r lies in block r / 5000). So after the region the output
  array holds the affine layer of the three arrays as the region found them.
-/
import proofs.«166380_j5909874999694_1_alg».proof.Proof.Gen.KernelIdeal.Frame
import proofs.«166380_j5909874999694_1_alg».proof.Proof.LibRowAffine
import Idealize.ShloMosaic.Lib.Pipeline.Value
import Idealize.ShloMosaic.Lib.ValueIdx
import Idealize.ShloMosaic.Lib.Tactic

set_option maxRecDepth 16384

noncomputable section

open scoped BigOperators

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- The block a point writes, from the three blocks it loaded: the affine layer of those blocks, entry by entry. -/
theorem out0_apply (x0 : Vec Ideal S5000x256 .f32) (x1 : Vec Ideal S256x128 .f32) (x2 : Vec Ideal S1x128 .f32)
    (p : Fin 5000) (q : Fin 128) :
    Gen.out0_3 x0 x1 x2 (ix2 p q) = RowAffine.rowAffine x0 x1 x2 (ix2 p q) := by
  unfold Gen.out0_3
  rw [View.canon_unit_zero zeroOffsets]
  simp only [View.ld_unit_zero (S := S5000x256) zeroOffsets, View.ld_unit_zero (S := S256x128) zeroOffsets,
    View.ld_unit_zero (S := S1x128) zeroOffsets]
  unfold Gen.k0_pay1
  exact RowAffine.kernel_apply dot_S5000x256_S256x128_S5000x128_1_0_0_1_n_n rfl (by decide) none x0 x1 x2
    shapeCasts_S1x128_S1x128 broadcasts_S1x128_S5000x128 bitsLt_bf16_f32 p q

/-- The same against whole arrays: when the loaded input block is rows 5000·k … of A, and the other two blocks are
    the whole W and B, entry y of the written block is the layer of A, W, B at the entry 5000·k rows further down. -/
theorem out0_block (A : S100000x256.Idx → EReal) (W : S256x128.Idx → EReal) (B : S1x128.Idx → EReal)
    (x0 : Vec Ideal S5000x256 .f32) (x1 : Vec Ideal S256x128 .f32) (x2 : Vec Ideal S1x128 .f32) (k : Nat)
    (hx0 : ∀ (p : Fin 5000) (d : Fin 256) (r : Fin 100000), r.val = 5000 * k + p.val → x0 (ix2 p d) = A (ix2 r d))
    (hx1 : x1 = W) (hx2 : x2 = B)
    (y : S5000x128.Idx) (i : S100000x128.Idx)
    (hi0 : (i 0).val = 5000 * k + (y 0).val) (hi1 : (i 1).val = (y 1).val) :
    Gen.out0_3 x0 x1 x2 y = RowAffine.rowAffine A W B i := by
  obtain ⟨p, q, rfl⟩ : ∃ (p : Fin 5000) (q : Fin 128), y = ix2 p q := ⟨y 0, y 1, eq_ix2 y⟩
  obtain ⟨r, q', rfl⟩ : ∃ (r : Fin 100000) (q' : Fin 128), i = ix2 r q' := ⟨i 0, i 1, eq_ix2 i⟩
  have hr : r.val = 5000 * k + p.val := hi0
  have hq : q' = q := Fin.ext hi1
  rw [hq, out0_apply, RowAffine.rowAffine_apply, RowAffine.rowAffine_apply, hx1, hx2]
  exact congrArg (· + B (ix2 0 q)) (Finset.sum_congr rfl fun d _ => by rw [hx0 p d r hr])

/-- The printed index maps, decided once over the grid: the input and the output move one block of rows per point,
    the weight and the bias row stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The layer of the three arrays as the region finds them. -/
abbrev G0 (c : Dev nD) : S100000x128.Idx → EReal :=
  RowAffine.rowAffine (R := 100000) (K := 256) (N := 128) (V c main_arg0) (V c main_arg2) (V c main_v28)

/-- What point t writes back is block t of the layer. -/
theorem flushed0_eq (c : Dev nD) (t : Fin cfg0.N) :
    (Gen.dat0 V c).flushed 3 t = ((cfg0.win 3).blk t).view.read (Elt Ideal) (G0 V c) := by
  show (cfg0.win 3).cut (grid0.coords t) ((Gen.dat0 V c).after 3 t) = _
  rw [Gen.after0_3]
  obtain ⟨e00, e01, e10, e11, e20, e21, e30, e31⟩ := idx_facts0 t
  funext j
  show Gen.out0_3 (Gen.iblk0 V c 0 t) (Gen.iblk0 V c 1 t) (Gen.iblk0 V c 2 t) ((cfg0.win 3).xinj (grid0.coords t) j)
      = G0 V c (((cfg0.win 3).blk t).view.emb j)
  refine out0_block (V c main_arg0) (V c main_arg2) (V c main_v28)
    (Gen.iblk0 V c 0 t) (Gen.iblk0 V c 1 t) (Gen.iblk0 V c 2 t) t.val ?_ ?_ ?_
    ((cfg0.win 3).xinj (grid0.coords t) j) (((cfg0.win 3).blk t).view.emb j) ?_ ?_
  · intro p d r hr
    show V c main_arg0 (((cfg0.win 0).blk t).view.emb (ix2 p d)) = V c main_arg0 (ix2 r d)
    refine congrArg (V c main_arg0) (funext fun a => Fin.ext ?_)
    match a with
    | ⟨0, _⟩ => show win0_0.index t (0 : Fin 2) * 5000 + 1 * p.val = r.val; omega
    | ⟨1, _⟩ => show win0_0.index t (1 : Fin 2) * 256 + 1 * d.val = d.val; omega
  · funext y
    show V c main_arg2 (((cfg0.win 1).blk t).view.emb y) = V c main_arg2 y
    refine congrArg (V c main_arg2) (funext fun a => Fin.ext ?_)
    match a with
    | ⟨0, _⟩ => show win0_1.index t (0 : Fin 2) * 256 + 1 * (y 0).val = (y 0).val; omega
    | ⟨1, _⟩ => show win0_1.index t (1 : Fin 2) * 128 + 1 * (y 1).val = (y 1).val; omega
  · funext y
    show V c main_v28 (((cfg0.win 2).blk t).view.emb y) = V c main_v28 y
    refine congrArg (V c main_v28) (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  · show win0_3.index t (0 : Fin 2) * 5000 + 1 * (j 0).val = 5000 * t.val + (j 0).val; omega
  · show win0_3.index t (1 : Fin 2) * 128 + 1 * (j 1).val = (j 1).val; omega

/-- An index of the output array is in point t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v29).slice (win0_3.rect t)).set ↔ _
  rw [View.set_slice_whole, Rect.mem_set_unit]
  exact Iff.rfl

/-- Every index of the output array is in some point's block: row r is in block r / 5000. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hlt : (i 0).val / 5000 < cfg0.N := by show _ < grid0.N; rw [N_0]; omega
  refine ⟨⟨(i 0).val / 5000, hlt⟩, flush0_3 _, ?_⟩
  rw [mem_blk0]
  obtain ⟨-, -, -, -, -, -, e30, e31⟩ := idx_facts0 ⟨(i 0).val / 5000, hlt⟩
  have e30' : win0_3.index ⟨(i 0).val / 5000, hlt⟩ (0 : Fin 2) = (i 0).val / 5000 := e30
  intro a
  match a with
  | ⟨0, _⟩ =>
    show win0_3.index _ (0 : Fin 2) * 5000 ≤ (i 0).val ∧ (i 0).val < win0_3.index _ (0 : Fin 2) * 5000 + 5000
    rw [e30']; omega
  | ⟨1, _⟩ =>
    show win0_3.index _ (1 : Fin 2) * 128 ≤ (i 1).val ∧ (i 1).val < win0_3.index _ (1 : Fin 2) * 128 + 128
    rw [e31]; omega

/-- After region 0 its output array holds the affine layer of the input, the weight and the bias row as the region
    found them. -/
theorem final0 (c : Dev nD) :
    (Gen.dat0 V c).arrAt 3 cfg0.N
      = RowAffine.rowAffine (R := 100000) (K := 256) (N := 128) (V c main_arg0) (V c main_arg2) (V c main_v28) :=
  (Gen.dat0 V c).arrAt_eq_of_cover 3 (G0 V c) (fun t _ => flushed0_eq V c t) (cover0)

end Cert.KernelIdeal.Regions

end
-- ==== Proof.Region1.lean ====
/-
  Region 1 of the program: a tiled combine step, read as one array.

  The region walks 20 grid points. Point t loads rows 5000·t … 5000·t + 4999 of two 100000×128 arrays (the summed
  messages A and the projected features H) and of a 100000×1 column D (a per-row factor), and the whole 1×128 row B,
  and writes rows 5000·t … 5000·t + 4999 of the 100000×128 output with max ((A + H · D) + B) 0 taken entry by entry on
  the block, the block's column spread over the lanes and the row over the rows. Entry (p, q) of the block written at
  point t is entry (5000·t + p, q) of the clamped combine step of the whole arrays, because row p of each loaded
  block IS row 5000·t + p of its array; and the 20 blocks cover every row (row r lies in block r / 5000). So after
  the region the output array holds the clamped combine step of the four arrays as the region found them.
-/
import proofs.«166380_j5909874999694_1_alg».proof.Proof.Gen.KernelIdeal.Frame
import proofs.«166380_j5909874999694_1_alg».proof.Proof.LibCombine
import Idealize.ShloMosaic.Lib.Pipeline.Value
import Idealize.ShloMosaic.Lib.ValueIdx
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets1 : (![0, 0] : Fin 2 → Nat) = fun _ => 0 := funext fun a => by fin_cases a <;> rfl

/-- The block a point writes, from the four blocks it loaded: the clamped combine step of those blocks, entry by
    entry. Each block is first re-cast to its own shape, which changes nothing. -/
theorem out1_apply (x0 x1 : Vec Ideal S5000x128 .f32) (x2 : Vec Ideal S5000x1 .f32) (x3 : Vec Ideal S1x128 .f32)
    (p : Fin 5000) (q : Fin 128) :
    Gen.out1_4 x0 x1 x2 x3 (ix2 p q) = Combine.combineRelu x0 x1 x2 x3 (ix2 p q) := by
  unfold Gen.out1_4
  rw [View.canon_unit_zero zeroOffsets1]
  simp only [View.ld_unit_zero (S := S5000x128) zeroOffsets1, View.ld_unit_zero (S := S5000x1) zeroOffsets1,
    View.ld_unit_zero (S := S1x128) zeroOffsets1]
  unfold Gen.k1_pay1
  show max ((addf (addf (shapeCast S5000x128 x0 shapeCasts_S5000x128_S5000x128)
        (mulf (shapeCast S5000x128 x1 shapeCasts_S5000x128_S5000x128)
          (broadcastTo S5000x128 (shapeCast S5000x1 x2 shapeCasts_S5000x1_S5000x1) broadcasts_S5000x1_S5000x128)))
      (broadcastTo S5000x128 (shapeCast S1x128 x3 shapeCasts_S1x128_S1x128) broadcasts_S1x128_S5000x128) : FVec Ideal S5000x128 .f32) (ix2 p q))
      Combine.zero = _
  rw [shapeCast_self x0, shapeCast_self x1, shapeCast_self x2, shapeCast_self x3]
  exact congrArg (fun z => max z Combine.zero)
    (Combine.kernel_apply (R := 5000) (N := 128) (by decide) x0 x1 x2 x3 broadcasts_S5000x1_S5000x128 broadcasts_S1x128_S5000x128 p q)

/-- The same against whole arrays: when the loaded blocks of A, H and D are their rows 5000·k …, and the fourth block
    is the whole row B, entry y of the written block is the clamped combine step of A, H, D, B at the entry 5000·k
    rows further down. -/
theorem out1_block (A H : S100000x128.Idx → EReal) (D : S100000x1.Idx → EReal) (B : S1x128.Idx → EReal)
    (x0 x1 : Vec Ideal S5000x128 .f32) (x2 : Vec Ideal S5000x1 .f32) (x3 : Vec Ideal S1x128 .f32) (k : Nat)
    (hx0 : ∀ (p : Fin 5000) (q : Fin 128) (r : Fin 100000), r.val = 5000 * k + p.val → x0 (ix2 p q) = A (ix2 r q))
    (hx1 : ∀ (p : Fin 5000) (q : Fin 128) (r : Fin 100000), r.val = 5000 * k + p.val → x1 (ix2 p q) = H (ix2 r q))
    (hx2 : ∀ (p : Fin 5000) (r : Fin 100000), r.val = 5000 * k + p.val → x2 (ix2 p (0 : Fin 1)) = D (ix2 r (0 : Fin 1)))
    (hx3 : x3 = B)
    (y : S5000x128.Idx) (i : S100000x128.Idx)
    (hi0 : (i 0).val = 5000 * k + (y 0).val) (hi1 : (i 1).val = (y 1).val) :
    Gen.out1_4 x0 x1 x2 x3 y = Combine.combineRelu A H D B i := by
  obtain ⟨p, q, rfl⟩ : ∃ (p : Fin 5000) (q : Fin 128), y = ix2 p q := ⟨y 0, y 1, eq_ix2 y⟩
  obtain ⟨r, q', rfl⟩ : ∃ (r : Fin 100000) (q' : Fin 128), i = ix2 r q' := ⟨i 0, i 1, eq_ix2 i⟩
  have hr : r.val = 5000 * k + p.val := hi0
  have hq : q' = q := Fin.ext hi1
  rw [hq, out1_apply, Combine.combineRelu_apply, Combine.combineRelu_apply, hx0 p q r hr, hx1 p q r hr, hx2 p r hr, hx3]

/-- The printed index maps, decided once over the grid: the three row-blocked inputs and the output move one block
    of rows per point, the row B stays. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The clamped combine step of the four arrays as the region finds them. -/
abbrev G1 (c : Dev nD) : S100000x128.Idx → EReal :=
  Combine.combineRelu (R := 100000) (N := 128) (V c main_v42) (V c main_v29) (V c main_v43) (V c main_v44)

/-- What point t writes back is block t of the clamped combine step. -/
theorem flushed1_eq (c : Dev nD) (t : Fin cfg1.N) :
    (Gen.dat1 V c).flushed 4 t = ((cfg1.win 4).blk t).view.read (Elt Ideal) (G1 V c) := by
  show (cfg1.win 4).cut (grid1.coords t) ((Gen.dat1 V c).after 4 t) = _
  rw [Gen.after1_4]
  obtain ⟨e00, e01, e10, e11, e20, e21, e30, e31, e40, e41⟩ := idx_facts1 t
  funext j
  show Gen.out1_4 (Gen.iblk1 V c 0 t) (Gen.iblk1 V c 1 t) (Gen.iblk1 V c 2 t) (Gen.iblk1 V c 3 t)
        ((cfg1.win 4).xinj (grid1.coords t) j)
      = G1 V c (((cfg1.win 4).blk t).view.emb j)
  refine out1_block (V c main_v42) (V c main_v29) (V c main_v43) (V c main_v44)
    (Gen.iblk1 V c 0 t) (Gen.iblk1 V c 1 t) (Gen.iblk1 V c 2 t) (Gen.iblk1 V c 3 t) t.val ?_ ?_ ?_ ?_
    ((cfg1.win 4).xinj (grid1.coords t) j) (((cfg1.win 4).blk t).view.emb j) ?_ ?_
  · intro p q r hr
    show V c main_v42 (((cfg1.win 0).blk t).view.emb (ix2 p q)) = V c main_v42 (ix2 r q)
    refine congrArg (V c main_v42) (funext fun a => Fin.ext ?_)
    match a with
    | ⟨0, _⟩ => show win1_0.index t (0 : Fin 2) * 5000 + 1 * p.val = r.val; omega
    | ⟨1, _⟩ => show win1_0.index t (1 : Fin 2) * 128 + 1 * q.val = q.val; omega
  · intro p q r hr
    show V c main_v29 (((cfg1.win 1).blk t).view.emb (ix2 p q)) = V c main_v29 (ix2 r q)
    refine congrArg (V c main_v29) (funext fun a => Fin.ext ?_)
    match a with
    | ⟨0, _⟩ => show win1_1.index t (0 : Fin 2) * 5000 + 1 * p.val = r.val; omega
    | ⟨1, _⟩ => show win1_1.index t (1 : Fin 2) * 128 + 1 * q.val = q.val; omega
  · intro p r hr
    show V c main_v43 (((cfg1.win 2).blk t).view.emb (ix2 p (0 : Fin 1))) = V c main_v43 (ix2 r (0 : Fin 1))
    refine congrArg (V c main_v43) (funext fun a => Fin.ext ?_)
    match a with
    | ⟨0, _⟩ => show win1_2.index t (0 : Fin 2) * 5000 + 1 * p.val = r.val; omega
    | ⟨1, _⟩ => show win1_2.index t (1 : Fin 2) * 1 + 1 * 0 = 0; omega
  · funext y
    show V c main_v44 (((cfg1.win 3).blk t).view.emb y) = V c main_v44 y
    refine congrArg (V c main_v44) (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega
  · show win1_4.index t (0 : Fin 2) * 5000 + 1 * (j 0).val = 5000 * t.val + (j 0).val; omega
  · show win1_4.index t (1 : Fin 2) * 128 + 1 * (j 1).val = (j 1).val; omega

/-- An index of the output array is in point t's block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v45).slice (win1_4.rect t)).set ↔ _
  rw [View.set_slice_whole, Rect.mem_set_unit]
  exact Iff.rfl

/-- Every index of the output array is in some point's block: row r is in block r / 5000. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hlt : (i 0).val / 5000 < cfg1.N := by show _ < grid1.N; rw [N_1]; omega
  refine ⟨⟨(i 0).val / 5000, hlt⟩, flush1_4 _, ?_⟩
  rw [mem_blk1]
  obtain ⟨-, -, -, -, -, -, -, -, e40, e41⟩ := idx_facts1 ⟨(i 0).val / 5000, hlt⟩
  have e40' : win1_4.index ⟨(i 0).val / 5000, hlt⟩ (0 : Fin 2) = (i 0).val / 5000 := e40
  intro a
  match a with
  | ⟨0, _⟩ =>
    show win1_4.index _ (0 : Fin 2) * 5000 ≤ (i 0).val ∧ (i 0).val < win1_4.index _ (0 : Fin 2) * 5000 + 5000
    rw [e40']; omega
  | ⟨1, _⟩ =>
    show win1_4.index _ (1 : Fin 2) * 128 ≤ (i 1).val ∧ (i 1).val < win1_4.index _ (1 : Fin 2) * 128 + 128
    rw [e41]; omega

/-- After region 1 its output array holds the clamped combine step of the four arrays as the region found them. -/
theorem final1 (c : Dev nD) :
    (Gen.dat1 V c).arrAt 4 cfg1.N
      = Combine.combineRelu (R := 100000) (N := 128) (V c main_v42) (V c main_v29) (V c main_v43) (V c main_v44) :=
  (Gen.dat1 V c).arrAt_eq_of_cover 4 (G1 V c) (fun t _ => flushed1_eq V c t) (cover1)

end Cert.KernelIdeal.Regions

end
-- ==== Proof.Layer1.lean ====
/-
  Layer 1 of the graph convolution in the idealized kernel: a linear projection of the node features (region 0),
  the messages gathered along the edges, scaled by each edge's factor and summed at the target nodes (host
  operations), and the combine step, clamped at zero (region 1).

  Each buffer holds the reference program's stage of the same meaning. The projection: the region's output array is
  the affine layer of its three input arrays, whose offset row is zero, so it is the plain matrix product the
  reference computes (x + 0 = x for every extended real). The messages: the kernel's host operations are the
  reference's, on buffers already identified. The combine step: the region's output array is the clamped
  (A + H · D) + B over the column D and the row B that are reshapes of the per-node factor and of the offset, which
  is the reference's spelling with the two vectors broadcast.
-/
import proofs.«166380_j5909874999694_1_alg».proof.Proof.Gen.KernelIdeal.Frame
import proofs.«166380_j5909874999694_1_alg».proof.Proof.Gen.ReferenceIdeal.Read
import proofs.«166380_j5909874999694_1_alg».proof.Proof.Carry
import proofs.«166380_j5909874999694_1_alg».proof.Proof.Stretch0
import proofs.«166380_j5909874999694_1_alg».proof.Proof.LibHostForms
import proofs.«166380_j5909874999694_1_alg».proof.Proof.LibRowAffine
import proofs.«166380_j5909874999694_1_alg».proof.Proof.Region0
import proofs.«166380_j5909874999694_1_alg».proof.Proof.Region1

set_option maxRecDepth 16384

noncomputable section

namespace Cert.KernelIdeal.Layer1

open Cert.KernelIdeal Cert.KernelIdeal.Gen
open Idealize.ShloMosaic Idealize.ShloMosaic.TcCoe Idealize.SL.Sem
open Cert

variable (m : (ℓ : Loc nD τ sig) → Buf (Elt Ideal) ℓ) (ρ : Dev nD → PrngReg) (c : Dev nD)

/-! ## Buffers computed earlier, as this layer's segments find them -/

theorem src_at : W2 m ρ c (Proc.devRef .tc main_v1) = Cert.ReferenceIdeal.Read.val_main_v1 (F := Ideal) (m ((c : Thread nD τ).loc main_arg1)) :=
  (Carry.reg0 m ρ c main_v1 (by decide)).trans (Stretch0.src_eq m ρ c)
theorem dst_at : W2 m ρ c (Proc.devRef .tc main_v3) = Cert.ReferenceIdeal.Read.val_main_v3 (F := Ideal) (m ((c : Thread nD τ).loc main_arg1)) :=
  (Carry.reg0 m ρ c main_v3 (by decide)).trans (Stretch0.dst_eq m ρ c)
theorem edgeNorm_at : W2 m ρ c (Proc.devRef .tc main_v25) = Cert.ReferenceIdeal.Read.val_main_v25 (F := Ideal) (m ((c : Thread nD τ).loc main_arg1)) :=
  (Carry.reg0 m ρ c main_v25 (by decide)).trans (Stretch0.edgeNorm_eq m ρ c)
theorem selfNorm_at : W2 m ρ c (Proc.devRef .tc main_v26) = Cert.ReferenceIdeal.Read.val_main_v26 (F := Ideal) (m ((c : Thread nD τ).loc main_arg1)) :=
  (Carry.reg0 m ρ c main_v26 (by decide)).trans (Stretch0.selfNorm_eq m ρ c)
theorem offset_at : W2 m ρ c (Proc.devRef .tc main_arg3) = (m ((c : Thread nD τ).loc main_arg3)) :=
  (((Carry.reg0 m ρ c main_arg3 (by decide)).trans (Carry.host0 m ρ c main_arg3 (by decide))).trans (show W0 m ρ c (Proc.devRef .tc main_arg3) = m ((c : Thread nD τ).loc main_arg3) from rfl))
theorem weight_at : W1 m ρ c (Proc.devRef .tc main_arg2) = (m ((c : Thread nD τ).loc main_arg2)) :=
  ((Carry.host0 m ρ c main_arg2 (by decide)).trans (show W0 m ρ c (Proc.devRef .tc main_arg2) = m ((c : Thread nD τ).loc main_arg2) from rfl))
theorem zeroRow_at : W1 m ρ c (Proc.devRef .tc main_v28) = shapeCast S1x128 (broadcastInDim S128 ![] bcast_S_S128 (constant (F := Ideal) S_ .f32 0x00000000#32)) shapeCasts_S128_S1x128 := Stretch0.zeroRow_eq m ρ c
theorem input_at : W1 m ρ c (Proc.devRef .tc main_arg0) = (m ((c : Thread nD τ).loc main_arg0)) := Stretch0.x_eq m ρ c

/-! ## The projection -/

/-- The projected features: the reference's matrix product. -/
theorem lin_eq : W2 m ρ c (Proc.devRef .tc main_v29) = Cert.ReferenceIdeal.Read.val_main_v27 (F := Ideal) (m ((c : Thread nD τ).loc main_arg0)) (m ((c : Thread nD τ).loc main_arg2)) := by
  have h : W2 m ρ c (Proc.devRef .tc main_v29) = _ := (W2_arr m ρ c 3).trans (Regions.final0 (V1 m ρ) c)
  refine h.trans ?_
  rw [show V1 m ρ c main_arg0 = _ from input_at m ρ c, show V1 m ρ c main_arg2 = _ from weight_at m ρ c,
    show V1 m ρ c main_v28 = _ from zeroRow_at m ρ c]
  exact (RowAffine.host_nobias_eq (R := 100000) (K := 256) (N := 128) Cert.ReferenceIdeal.dot_S100000x256_S256x128_S100000x128_1_0_0_1_n_n rfl none
    (m ((c : Thread nD τ).loc main_arg0)) (m ((c : Thread nD τ).loc main_arg2)) shapeCasts_S128_S1x128 bcast_S_S128).symm

/-! ## The messages summed at the target nodes -/

/-- The aggregated messages: the reference's scatter-add of the gathered, scaled rows. -/
theorem agg_eq : W3 m ρ c (Proc.devRef .tc main_v42) = Cert.ReferenceIdeal.Read.val_main_v40 (F := Ideal) (m ((c : Thread nD τ).loc main_arg0)) (m ((c : Thread nD τ).loc main_arg1)) (m ((c : Thread nD τ).loc main_arg2)) := by
  show StableHlo.after hostOps1 (W2 m ρ c) (Proc.devRef .tc main_v42) = _
  dsimp only [hostOps1]
  after_results_simp
  rw [lin_eq m ρ c, src_at m ρ c, dst_at m ρ c, edgeNorm_at m ρ c]
  rfl

/-- The per-node factor as a column. -/
theorem col_eq : W3 m ρ c (Proc.devRef .tc main_v43) = shapeCast S100000x1 (Cert.ReferenceIdeal.Read.val_main_v26 (F := Ideal) (m ((c : Thread nD τ).loc main_arg1))) shapeCasts_S100000_S100000x1 := by
  show StableHlo.after hostOps1 (W2 m ρ c) (Proc.devRef .tc main_v43) = _
  dsimp only [hostOps1]
  after_results_simp
  rw [selfNorm_at m ρ c]
  rfl

/-- The offset as a row. -/
theorem row_eq : W3 m ρ c (Proc.devRef .tc main_v44) = shapeCast S1x128 (m ((c : Thread nD τ).loc main_arg3)) shapeCasts_S128_S1x128 := by
  show StableHlo.after hostOps1 (W2 m ρ c) (Proc.devRef .tc main_v44) = _
  dsimp only [hostOps1]
  after_results_simp
  rw [offset_at m ρ c]
  rfl

/-! ## The combine step -/

/-- The layer's output: the reference's clamped sum. -/
theorem out_eq : W4 m ρ c (Proc.devRef .tc main_v45) = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) := by
  have h : W4 m ρ c (Proc.devRef .tc main_v45) = _ := (W4_arr m ρ c 4).trans (Regions.final1 (V3 m ρ) c)
  refine h.trans ?_
  rw [show V3 m ρ c main_v42 = _ from agg_eq m ρ c,
    show V3 m ρ c main_v29 = _ from (Carry.host1 m ρ c main_v29 (by decide)).trans (lin_eq m ρ c),
    show V3 m ρ c main_v43 = _ from col_eq m ρ c, show V3 m ρ c main_v44 = _ from row_eq m ρ c]
  exact (HostForms.host_combine_eq (R := 100000) (N := 128) (by decide) (Cert.ReferenceIdeal.Read.val_main_v40 (F := Ideal) (m ((c : Thread nD τ).loc main_arg0)) (m ((c : Thread nD τ).loc main_arg1)) (m ((c : Thread nD τ).loc main_arg2))) (Cert.ReferenceIdeal.Read.val_main_v27 (F := Ideal) (m ((c : Thread nD τ).loc main_arg0)) (m ((c : Thread nD τ).loc main_arg2))) (Cert.ReferenceIdeal.Read.val_main_v26 (F := Ideal) (m ((c : Thread nD τ).loc main_arg1))) (m ((c : Thread nD τ).loc main_arg3))
    Cert.ReferenceIdeal.Gen.bcast_S100000_S100000x1_0 Cert.ReferenceIdeal.Gen.bcast_S100000x1_S100000x128_0_1 Cert.ReferenceIdeal.Gen.bcast_S128_S1x128_1 Cert.ReferenceIdeal.Gen.bcast_S1x128_S100000x128_0_1
    Cert.ReferenceIdeal.Gen.bcast_S_S100000x128 shapeCasts_S100000_S100000x1 shapeCasts_S128_S1x128).symm

end Cert.KernelIdeal.Layer1

end
-- ==== Proof.LibProduct.lean ====
/-
  The plain matrix product as one array, and its two spellings.

  For an R×K matrix X and a K×N matrix W the product is the array

      prod X W (i, j) = ∑ c, X(i, c) · W(c, j)

  in the extended reals. A host's general dot product with the plain dimension numbers IS this array, and a
  product on the matrix unit into the zero accumulator holds the same sum at every entry — with no finiteness
  asked, since each is that sum by definition once the contraction index is renamed by its one coordinate.
  The dimension record may be any record equal to the plain one (for a record written out with those lists the
  equality is `rfl`).
-/
import Idealize.ShloMosaic.PureOps.Ideal.Laws
import Idealize.ShloMosaic.Lib.ValueIdx
import proofs.«166380_j5909874999694_1_alg».proof.Proof.LibPlainDot

noncomputable section

open scoped BigOperators

namespace Cert.Product

open Idealize.ShloMosaic Idealize.ShloMosaic.ValueIdx

variable {R K N : Nat}

/-- The product X · W as one array, entry by entry. -/
def prod (X : (⟨2, ![R, K]⟩ : Shape).Idx → EReal) (W : (⟨2, ![K, N]⟩ : Shape).Idx → EReal) :
    (⟨2, ![R, N]⟩ : Shape).Idx → EReal :=
  fun i => ∑ c : Fin K, X (ix2 (i 0) c) * W (ix2 c (i 1))

/-- The product at entry (p, q). -/
theorem prod_apply (X : (⟨2, ![R, K]⟩ : Shape).Idx → EReal) (W : (⟨2, ![K, N]⟩ : Shape).Idx → EReal)
    (p : Fin R) (q : Fin N) : prod X W (ix2 p q) = ∑ c : Fin K, X (ix2 p c) * W (ix2 c q) := rfl

/-- The host's general dot product with the plain dimension numbers is the product. -/
theorem dotGeneral_eq (D : DotDims ⟨2, ![R, K]⟩ ⟨2, ![K, N]⟩ ⟨2, ![R, N]⟩) (hD : D = DotDims.plain R K N)
    (prec : Option ContractPrecision) (X : FVec Ideal ⟨2, ![R, K]⟩ .f32) (W : FVec Ideal ⟨2, ![K, N]⟩ .f32) :
    Host.dotGeneral D prec X W = prod X W := by
  funext j
  obtain ⟨p, q, rfl⟩ : ∃ (p : Fin R) (q : Fin N), j = ix2 p q := ⟨j 0, j 1, eq_ix2 j⟩
  exact PlainDot.dotGeneral_apply D hD prec .single X W p q

/-- A product on the matrix unit into the zero accumulator, after a change of float format of both operands,
    at entry (p, q): the product's entry. -/
theorem matmul_truncf_apply (D : DotDims ⟨2, ![R, K]⟩ ⟨2, ![K, N]⟩ ⟨2, ![R, N]⟩) (hD : D = DotDims.plain R K N)
    (prec : Option ContractPrecision) (X : FVec Ideal ⟨2, ![R, K]⟩ .f32) (W : FVec Ideal ⟨2, ![K, N]⟩ .f32)
    (hlt : FTy.bf16.bits < FTy.f32.bits) (p : Fin R) (q : Fin N) :
    matmul D prec (truncf .bf16 X hlt) (truncf .bf16 W hlt) (constant (F := Ideal) ⟨2, ![R, N]⟩ .f32 0x00000000#32) (ix2 p q)
      = prod X W (ix2 p q) :=
  PlainDot.matmul_zero_apply D hD prec (truncf .bf16 X hlt) (truncf .bf16 W hlt) p q

end Cert.Product

end
-- ==== Proof.LibAffineRow.lean ====
/-
  A matrix product plus a row, as one array.

  For an R×K matrix X, a K×N matrix W and a 1×N row B,

      rowAffine X W B (i, j) = (∑ c, X(i, c) · W(c, j)) + B(0, j)

  in the extended reals. When the row is a length-N vector laid out as 1×N by a reshape, this is the affine layer
  X · W + b of that vector.
-/
import Idealize.ShloMosaic.PureOps.Ideal.Laws
import Idealize.ShloMosaic.Lib.Pipeline.Value
import Idealize.ShloMosaic.Lib.ValueIdx
import proofs.«166380_j5909874999694_1_alg».proof.Proof.LibProduct
import proofs.«166380_j5909874999694_1_alg».proof.Proof.LibLinear
import proofs.«166380_j5909874999694_1_alg».proof.Proof.LibRowVector

noncomputable section

open scoped BigOperators

namespace Cert.AffineRow

open Idealize.ShloMosaic Idealize.ShloMosaic.ValueIdx

variable {R K N : Nat}

/-- X · W plus the row B on every row, entry by entry. -/
def rowAffine (X : (⟨2, ![R, K]⟩ : Shape).Idx → EReal) (W : (⟨2, ![K, N]⟩ : Shape).Idx → EReal)
    (B : (⟨2, ![1, N]⟩ : Shape).Idx → EReal) : (⟨2, ![R, N]⟩ : Shape).Idx → EReal :=
  fun i => (∑ c : Fin K, X (ix2 (i 0) c) * W (ix2 c (i 1))) + B (ix2 (0 : Fin 1) (i 1))

theorem rowAffine_apply (X : (⟨2, ![R, K]⟩ : Shape).Idx → EReal) (W : (⟨2, ![K, N]⟩ : Shape).Idx → EReal)
    (B : (⟨2, ![1, N]⟩ : Shape).Idx → EReal) (p : Fin R) (q : Fin N) :
    rowAffine X W B (ix2 p q) = (∑ c : Fin K, X (ix2 p c) * W (ix2 c q)) + B (ix2 (0 : Fin 1) q) := rfl

/-- With the row a reshaped length-N vector, this is the affine layer of the vector. -/
theorem rowAffine_shapeCast (X : (⟨2, ![R, K]⟩ : Shape).Idx → EReal) (W : (⟨2, ![K, N]⟩ : Shape).Idx → EReal)
    (b : (⟨1, ![N]⟩ : Shape).Idx → EReal) (h : (⟨1, ![N]⟩ : Shape).ShapeCasts ⟨2, ![1, N]⟩) :
    rowAffine X W (shapeCast ⟨2, ![1, N]⟩ b h) = Linear.dense X W b := by
  funext j
  obtain ⟨p, q, rfl⟩ : ∃ (p : Fin R) (q : Fin N), j = ix2 p q := ⟨j 0, j 1, eq_ix2 j⟩
  rw [rowAffine_apply, Linear.dense_apply, RowVector.shapeCast_row]

end Cert.AffineRow

end
-- ==== Proof.LibNodeUpdate.lean ====
/-
  One node update of a normalised graph convolution as one array, and its spellings.

  For R×N arrays A (the messages summed at each node) and H (the node's own projected features), a length-R
  vector d (a per-node factor) and a length-N vector b (a per-lane offset) the update is

      update A H d b (i, j) = max ((A(i, j) + (d(i) · d(i)) · H(i, j)) + b(j)) 0

  in the extended reals: the node's own row enters scaled by the square of its factor, and the sum is clamped
  below at zero. Three spellings are read here, each that value by definition at every entry, so no
  finiteness is asked:

    * over a column view D (R×1) of d and a row view B (1×N) of b (`updateCol`), and that with the views
      the reshapes of the vectors it is `update`;
    * a kernel body's, on one block: the block's column squared, then spread over the lanes by a vector
      broadcast, the row spread over the rows, the maximum taken with a splat zero;
    * a host's: the squared vector broadcast to a column and then to every lane, the offset broadcast to a
      row and then to every row, the maximum taken with the zero scalar broadcast to every entry.

  Also an affine layer whose offset is a 1×N row (`AffineRow.rowAffine`), in a kernel body's spelling on
  one block, with and without the clamp, and the clamp `relu` itself in a host's spelling.
  N ≠ 1 so that the row's own axis is not one a broadcast copies.
-/
import Idealize.ShloMosaic.PureOps.Ideal.Laws
import Idealize.ShloMosaic.Lib.Pipeline.Value
import Idealize.ShloMosaic.Lib.ValueIdx
import proofs.«166380_j5909874999694_1_alg».proof.Proof.LibRowVector
import proofs.«166380_j5909874999694_1_alg».proof.Proof.LibRowInDim
import proofs.«166380_j5909874999694_1_alg».proof.Proof.LibColumnInDim
import proofs.«166380_j5909874999694_1_alg».proof.Proof.LibRowOfVector
import proofs.«166380_j5909874999694_1_alg».proof.Proof.LibCombine
import proofs.«166380_j5909874999694_1_alg».proof.Proof.LibPlainDot
import proofs.«166380_j5909874999694_1_alg».proof.Proof.LibAffineRow

noncomputable section

open scoped BigOperators

namespace Cert.NodeUpdate

open Idealize.ShloMosaic Idealize.ShloMosaic.ValueIdx

variable {R K N : Nat}

/-- The zero every clamp compares against: the value of the all-zero f32 pattern. -/
abbrev zero : EReal := Ideal.ofBits .f32 0x00000000#32

/-- The clamp below at zero, entry by entry. -/
def relu {s : Shape} (X : s.Idx → EReal) : s.Idx → EReal := fun i => max (X i) zero

/-- The node update over a column view of the factor and a row view of the offset. -/
def updateCol (A H : (⟨2, ![R, N]⟩ : Shape).Idx → EReal) (D : (⟨2, ![R, 1]⟩ : Shape).Idx → EReal)
    (B : (⟨2, ![1, N]⟩ : Shape).Idx → EReal) : (⟨2, ![R, N]⟩ : Shape).Idx → EReal :=
  fun i => max ((A i + (D (ix2 (i 0) (0 : Fin 1)) * D (ix2 (i 0) (0 : Fin 1))) * H i) + B (ix2 (0 : Fin 1) (i 1))) zero

/-- The node update over the factor and the offset as vectors. -/
def update (A H : (⟨2, ![R, N]⟩ : Shape).Idx → EReal) (d : (⟨1, ![R]⟩ : Shape).Idx → EReal)
    (b : (⟨1, ![N]⟩ : Shape).Idx → EReal) : (⟨2, ![R, N]⟩ : Shape).Idx → EReal :=
  fun i => max ((A i + (d (ix1 (i 0)) * d (ix1 (i 0))) * H i) + b (ix1 (i 1))) zero

theorem updateCol_apply (A H : (⟨2, ![R, N]⟩ : Shape).Idx → EReal) (D : (⟨2, ![R, 1]⟩ : Shape).Idx → EReal)
    (B : (⟨2, ![1, N]⟩ : Shape).Idx → EReal) (p : Fin R) (q : Fin N) :
    updateCol A H D B (ix2 p q)
      = max ((A (ix2 p q) + (D (ix2 p (0 : Fin 1)) * D (ix2 p (0 : Fin 1))) * H (ix2 p q)) + B (ix2 (0 : Fin 1) q)) zero := rfl

theorem update_apply (A H : (⟨2, ![R, N]⟩ : Shape).Idx → EReal) (d : (⟨1, ![R]⟩ : Shape).Idx → EReal)
    (b : (⟨1, ![N]⟩ : Shape).Idx → EReal) (p : Fin R) (q : Fin N) :
    update A H d b (ix2 p q) = max ((A (ix2 p q) + (d (ix1 p) * d (ix1 p)) * H (ix2 p q)) + b (ix1 q)) zero := rfl

/-- With the column and the row the reshapes of the two vectors, the update over views is the update. -/
theorem updateCol_shapeCast (A H : (⟨2, ![R, N]⟩ : Shape).Idx → EReal) (d : (⟨1, ![R]⟩ : Shape).Idx → EReal)
    (b : (⟨1, ![N]⟩ : Shape).Idx → EReal) (hd : (⟨1, ![R]⟩ : Shape).ShapeCasts ⟨2, ![R, 1]⟩)
    (hb : (⟨1, ![N]⟩ : Shape).ShapeCasts ⟨2, ![1, N]⟩) :
    updateCol A H (shapeCast ⟨2, ![R, 1]⟩ d hd) (shapeCast ⟨2, ![1, N]⟩ b hb) = update A H d b := by
  funext j
  obtain ⟨p, q, rfl⟩ : ∃ (p : Fin R) (q : Fin N), j = ix2 p q := ⟨j 0, j 1, eq_ix2 j⟩
  rw [updateCol_apply, update_apply, ColumnInDim.shapeCast_column, RowVector.shapeCast_row]

/-- A kernel body's spelling of the update on one block, at entry (r, q) of the block. -/
theorem block_apply (hN : N ≠ 1) (a h : FVec Ideal ⟨2, ![R, N]⟩ .f32) (d : FVec Ideal ⟨2, ![R, 1]⟩ .f32)
    (b : FVec Ideal ⟨2, ![1, N]⟩ .f32)
    (h1 : (⟨2, ![R, N]⟩ : Shape).ShapeCasts ⟨2, ![R, N]⟩) (h2 : (⟨2, ![R, 1]⟩ : Shape).ShapeCasts ⟨2, ![R, 1]⟩)
    (h3 : (⟨2, ![1, N]⟩ : Shape).ShapeCasts ⟨2, ![1, N]⟩)
    (hd : (⟨2, ![R, 1]⟩ : Shape).Broadcasts ⟨2, ![R, N]⟩) (hb : (⟨2, ![1, N]⟩ : Shape).Broadcasts ⟨2, ![R, N]⟩)
    (r : Fin R) (q : Fin N) :
    maximumf
        (addf
          (addf (shapeCast ⟨2, ![R, N]⟩ a h1)
            (mulf (broadcastTo ⟨2, ![R, N]⟩ (mulf (shapeCast ⟨2, ![R, 1]⟩ d h2) (shapeCast ⟨2, ![R, 1]⟩ d h2)) hd)
              (shapeCast ⟨2, ![R, N]⟩ h h1)))
          (broadcastTo ⟨2, ![R, N]⟩ (shapeCast ⟨2, ![1, N]⟩ b h3) hb))
        (broadcast ⟨2, ![R, N]⟩ (Scalar.ofBits (F := Ideal) .f32 0x00000000#32)) (ix2 r q)
      = max ((a (ix2 r q) + (d (ix2 r (0 : Fin 1)) * d (ix2 r (0 : Fin 1))) * h (ix2 r q)) + b (ix2 (0 : Fin 1) q)) zero := by
  show max ((shapeCast ⟨2, ![R, N]⟩ a h1 (ix2 r q)
        + broadcastTo ⟨2, ![R, N]⟩ (mulf (shapeCast ⟨2, ![R, 1]⟩ d h2) (shapeCast ⟨2, ![R, 1]⟩ d h2)) hd (ix2 r q)
          * shapeCast ⟨2, ![R, N]⟩ h h1 (ix2 r q))
      + broadcastTo ⟨2, ![R, N]⟩ (shapeCast ⟨2, ![1, N]⟩ b h3) hb (ix2 r q)) zero = _
  rw [Combine.broadcastTo_column, RowVector.broadcastTo_row hN]
  simp only [shapeCast_self]
  rfl

/-- A host's spelling of the update IS the update. -/
theorem host_eq (hN : N ≠ 1) (A H : FVec Ideal ⟨2, ![R, N]⟩ .f32) (d : FVec Ideal ⟨1, ![R]⟩ .f32)
    (b : FVec Ideal ⟨1, ![N]⟩ .f32)
    (hc : (⟨1, ![R]⟩ : Shape).BroadcastsInDim ⟨2, ![R, 1]⟩ (![0] : Fin 1 → Fin 2))
    (hl : (⟨2, ![R, 1]⟩ : Shape).BroadcastsInDim ⟨2, ![R, N]⟩ (![0, 1] : Fin 2 → Fin 2))
    (hr : (⟨1, ![N]⟩ : Shape).BroadcastsInDim ⟨2, ![1, N]⟩ (![1] : Fin 1 → Fin 2))
    (hrr : (⟨2, ![1, N]⟩ : Shape).BroadcastsInDim ⟨2, ![R, N]⟩ (![0, 1] : Fin 2 → Fin 2))
    (h0 : (⟨0, ![]⟩ : Shape).BroadcastsInDim ⟨2, ![R, N]⟩ (![] : Fin 0 → Fin 2)) :
    maximumf
        (addf
          (addf A (mulf (broadcastInDim ⟨2, ![R, N]⟩ ![0, 1] hl (broadcastInDim ⟨2, ![R, 1]⟩ ![0] hc (mulf d d))) H))
          (broadcastInDim ⟨2, ![R, N]⟩ ![0, 1] hrr (broadcastInDim ⟨2, ![1, N]⟩ ![1] hr b)))
        (broadcastInDim ⟨2, ![R, N]⟩ ![] h0 (constant (F := Ideal) ⟨0, ![]⟩ .f32 0x00000000#32))
      = update A H d b := by
  funext j
  obtain ⟨p, q, rfl⟩ : ∃ (p : Fin R) (q : Fin N), j = ix2 p q := ⟨j 0, j 1, eq_ix2 j⟩
  show max ((A (ix2 p q)
        + broadcastInDim ⟨2, ![R, N]⟩ ![0, 1] hl (broadcastInDim ⟨2, ![R, 1]⟩ ![0] hc (mulf d d)) (ix2 p q) * H (ix2 p q))
      + broadcastInDim ⟨2, ![R, N]⟩ ![0, 1] hrr (broadcastInDim ⟨2, ![1, N]⟩ ![1] hr b) (ix2 p q))
      (broadcastInDim ⟨2, ![R, N]⟩ ![] h0 (constant (F := Ideal) ⟨0, ![]⟩ .f32 0x00000000#32) (ix2 p q)) = _
  rw [ColumnInDim.broadcastInDim_lanes, ColumnInDim.broadcastInDim_column, RowInDim.broadcastInDim_rows hN,
    RowOfVector.broadcastInDim_row hN, Combine.broadcastInDim_scalar, update_apply]
  rfl

/-- A host's clamp at zero IS the clamp. -/
theorem host_relu_eq (X : FVec Ideal ⟨2, ![R, N]⟩ .f32)
    (h0 : (⟨0, ![]⟩ : Shape).BroadcastsInDim ⟨2, ![R, N]⟩ (![] : Fin 0 → Fin 2)) :
    maximumf X (broadcastInDim ⟨2, ![R, N]⟩ ![] h0 (constant (F := Ideal) ⟨0, ![]⟩ .f32 0x00000000#32)) = relu X :=
  Combine.host_relu_eq X h0

/-- A kernel body's spelling of an affine layer whose offset is a 1×N row, on one block, at entry (p, q). -/
theorem affine_block_apply (D : DotDims ⟨2, ![R, K]⟩ ⟨2, ![K, N]⟩ ⟨2, ![R, N]⟩) (hD : D = DotDims.plain R K N)
    (hN : N ≠ 1) (prec : Option ContractPrecision) (X : FVec Ideal ⟨2, ![R, K]⟩ .f32)
    (W : FVec Ideal ⟨2, ![K, N]⟩ .f32) (B : FVec Ideal ⟨2, ![1, N]⟩ .f32)
    (hX : (⟨2, ![R, K]⟩ : Shape).ShapeCasts ⟨2, ![R, K]⟩) (hB : (⟨2, ![1, N]⟩ : Shape).ShapeCasts ⟨2, ![1, N]⟩)
    (hbc : (⟨2, ![1, N]⟩ : Shape).Broadcasts ⟨2, ![R, N]⟩) (hlt : FTy.bf16.bits < FTy.f32.bits)
    (p : Fin R) (q : Fin N) :
    addf (matmul D prec (truncf .bf16 (shapeCast ⟨2, ![R, K]⟩ X hX) hlt) (truncf .bf16 W hlt)
          (constant (F := Ideal) ⟨2, ![R, N]⟩ .f32 0x00000000#32))
        (broadcastTo ⟨2, ![R, N]⟩ (shapeCast ⟨2, ![1, N]⟩ B hB) hbc) (ix2 p q)
      = AffineRow.rowAffine X W B (ix2 p q) := by
  show matmul D prec (truncf .bf16 (shapeCast ⟨2, ![R, K]⟩ X hX) hlt) (truncf .bf16 W hlt)
        (constant (F := Ideal) ⟨2, ![R, N]⟩ .f32 0x00000000#32) (ix2 p q)
      + broadcastTo ⟨2, ![R, N]⟩ (shapeCast ⟨2, ![1, N]⟩ B hB) hbc (ix2 p q) = _
  rw [RowVector.broadcastTo_row hN]
  simp only [shapeCast_self]
  rw [AffineRow.rowAffine_apply]
  exact congrArg (· + B (ix2 (0 : Fin 1) q))
    (PlainDot.matmul_zero_apply D hD prec (truncf .bf16 X hlt) (truncf .bf16 W hlt) p q)

/-- The same followed by the clamp (a maximum with a splat zero), at entry (p, q). -/
theorem affine_relu_block_apply (D : DotDims ⟨2, ![R, K]⟩ ⟨2, ![K, N]⟩ ⟨2, ![R, N]⟩) (hD : D = DotDims.plain R K N)
    (hN : N ≠ 1) (prec : Option ContractPrecision) (X : FVec Ideal ⟨2, ![R, K]⟩ .f32)
    (W : FVec Ideal ⟨2, ![K, N]⟩ .f32) (B : FVec Ideal ⟨2, ![1, N]⟩ .f32)
    (hX : (⟨2, ![R, K]⟩ : Shape).ShapeCasts ⟨2, ![R, K]⟩) (hB : (⟨2, ![1, N]⟩ : Shape).ShapeCasts ⟨2, ![1, N]⟩)
    (hbc : (⟨2, ![1, N]⟩ : Shape).Broadcasts ⟨2, ![R, N]⟩) (hlt : FTy.bf16.bits < FTy.f32.bits)
    (p : Fin R) (q : Fin N) :
    maximumf
        (addf (matmul D prec (truncf .bf16 (shapeCast ⟨2, ![R, K]⟩ X hX) hlt) (truncf .bf16 W hlt)
            (constant (F := Ideal) ⟨2, ![R, N]⟩ .f32 0x00000000#32))
          (broadcastTo ⟨2, ![R, N]⟩ (shapeCast ⟨2, ![1, N]⟩ B hB) hbc))
        (broadcast ⟨2, ![R, N]⟩ (Scalar.ofBits (F := Ideal) .f32 0x00000000#32)) (ix2 p q)
      = relu (AffineRow.rowAffine X W B) (ix2 p q) := by
  show max (addf (matmul D prec (truncf .bf16 (shapeCast ⟨2, ![R, K]⟩ X hX) hlt) (truncf .bf16 W hlt)
            (constant (F := Ideal) ⟨2, ![R, N]⟩ .f32 0x00000000#32))
          (broadcastTo ⟨2, ![R, N]⟩ (shapeCast ⟨2, ![1, N]⟩ B hB) hbc) (ix2 p q)) zero = _
  rw [affine_block_apply D hD hN]
  rfl

end Cert.NodeUpdate

end
-- ==== Proof.Region2.lean ====
/-
  Region 2 of the program: a tiled affine layer, read as one array.

  The region walks 20 grid points. Point t loads rows 5000·t … 5000·t + 4999 of the 100000×128 input, the whole
  128×128 weight and the whole 1×128 bias row, and writes rows 5000·t … 5000·t + 4999 of the 100000×128 output with
  the block's product plus the row on every row of the block. Entry (p, q) of the block written at point t is entry
  (5000·t + p, q) of the affine layer of the whole arrays, because row p of the loaded block IS row 5000·t + p of
  the input; and the 20 blocks cover every row (row r lies in block r / 5000). So after the region the output
  array holds the affine layer of the three arrays as the region found them.
-/
import proofs.«166380_j5909874999694_1_alg».proof.Proof.Gen.KernelIdeal.Frame
import proofs.«166380_j5909874999694_1_alg».proof.Proof.LibRowAffine
import proofs.«166380_j5909874999694_1_alg».proof.Proof.LibNodeUpdate
import Idealize.ShloMosaic.Lib.Pipeline.Value
import Idealize.ShloMosaic.Lib.ValueIdx
import Idealize.ShloMosaic.Lib.Tactic

set_option maxRecDepth 16384

noncomputable section

open scoped BigOperators

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets2 : (![0, 0] : Fin 2 → Nat) = fun _ => 0 := funext fun a => by fin_cases a <;> rfl

/-- The block a point writes, from the three blocks it loaded: the affine layer of those blocks, entry by entry. -/
theorem out2_apply (x0 : Vec Ideal S5000x128 .f32) (x1 : Vec Ideal S128x128 .f32) (x2 : Vec Ideal S1x128 .f32)
    (p : Fin 5000) (q : Fin 128) :
    Gen.out2_3 x0 x1 x2 (ix2 p q) = RowAffine.rowAffine x0 x1 x2 (ix2 p q) := by
  unfold Gen.out2_3
  rw [View.canon_unit_zero zeroOffsets2]
  simp only [View.ld_unit_zero (S := S5000x128) zeroOffsets2, View.ld_unit_zero (S := S128x128) zeroOffsets2,
    View.ld_unit_zero (S := S1x128) zeroOffsets2]
  unfold Gen.k2_pay1
  exact (NodeUpdate.affine_block_apply dot_S5000x128_S128x128_S5000x128_1_0_0_1_n_n rfl (by decide) none x0 x1 x2
    shapeCasts_S5000x128_S5000x128 shapeCasts_S1x128_S1x128 broadcasts_S1x128_S5000x128 bitsLt_bf16_f32 p q).trans rfl

/-- The same against whole arrays: when the loaded input block is rows 5000·k … of A, and the other two blocks are
    the whole W and B, entry y of the written block is the layer of A, W, B at the entry 5000·k rows further down. -/
theorem out2_block (A : S100000x128.Idx → EReal) (W : S128x128.Idx → EReal) (B : S1x128.Idx → EReal)
    (x0 : Vec Ideal S5000x128 .f32) (x1 : Vec Ideal S128x128 .f32) (x2 : Vec Ideal S1x128 .f32) (k : Nat)
    (hx0 : ∀ (p : Fin 5000) (d : Fin 128) (r : Fin 100000), r.val = 5000 * k + p.val → x0 (ix2 p d) = A (ix2 r d))
    (hx1 : x1 = W) (hx2 : x2 = B)
    (y : S5000x128.Idx) (i : S100000x128.Idx)
    (hi0 : (i 0).val = 5000 * k + (y 0).val) (hi1 : (i 1).val = (y 1).val) :
    Gen.out2_3 x0 x1 x2 y = RowAffine.rowAffine A W B i := by
  obtain ⟨p, q, rfl⟩ : ∃ (p : Fin 5000) (q : Fin 128), y = ix2 p q := ⟨y 0, y 1, eq_ix2 y⟩
  obtain ⟨r, q', rfl⟩ : ∃ (r : Fin 100000) (q' : Fin 128), i = ix2 r q' := ⟨i 0, i 1, eq_ix2 i⟩
  have hr : r.val = 5000 * k + p.val := hi0
  have hq : q' = q := Fin.ext hi1
  rw [hq, out2_apply, RowAffine.rowAffine_apply, RowAffine.rowAffine_apply, hx1, hx2]
  exact congrArg (· + B (ix2 0 q)) (Finset.sum_congr rfl fun d _ => by rw [hx0 p d r hr])

/-- The printed index maps, decided once over the grid: the input and the output move one block of rows per point,
    the weight and the bias row stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The layer of the three arrays as the region finds them. -/
abbrev G2 (c : Dev nD) : S100000x128.Idx → EReal :=
  RowAffine.rowAffine (R := 100000) (K := 128) (N := 128) (V c main_v45) (V c main_arg4) (V c main_v47)

/-- What point t writes back is block t of the layer. -/
theorem flushed2_eq (c : Dev nD) (t : Fin cfg2.N) :
    (Gen.dat2 V c).flushed 3 t = ((cfg2.win 3).blk t).view.read (Elt Ideal) (G2 V c) := by
  show (cfg2.win 3).cut (grid2.coords t) ((Gen.dat2 V c).after 3 t) = _
  rw [Gen.after2_3]
  obtain ⟨e00, e01, e10, e11, e20, e21, e30, e31⟩ := idx_facts2 t
  funext j
  show Gen.out2_3 (Gen.iblk2 V c 0 t) (Gen.iblk2 V c 1 t) (Gen.iblk2 V c 2 t) ((cfg2.win 3).xinj (grid2.coords t) j)
      = G2 V c (((cfg2.win 3).blk t).view.emb j)
  refine out2_block (V c main_v45) (V c main_arg4) (V c main_v47)
    (Gen.iblk2 V c 0 t) (Gen.iblk2 V c 1 t) (Gen.iblk2 V c 2 t) t.val ?_ ?_ ?_
    ((cfg2.win 3).xinj (grid2.coords t) j) (((cfg2.win 3).blk t).view.emb j) ?_ ?_
  · intro p d r hr
    show V c main_v45 (((cfg2.win 0).blk t).view.emb (ix2 p d)) = V c main_v45 (ix2 r d)
    refine congrArg (V c main_v45) (funext fun a => Fin.ext ?_)
    match a with
    | ⟨0, _⟩ => show win2_0.index t (0 : Fin 2) * 5000 + 1 * p.val = r.val; omega
    | ⟨1, _⟩ => show win2_0.index t (1 : Fin 2) * 128 + 1 * d.val = d.val; omega
  · funext y
    show V c main_arg4 (((cfg2.win 1).blk t).view.emb y) = V c main_arg4 y
    refine congrArg (V c main_arg4) (funext fun a => Fin.ext ?_)
    match a with
    | ⟨0, _⟩ => show win2_1.index t (0 : Fin 2) * 128 + 1 * (y 0).val = (y 0).val; omega
    | ⟨1, _⟩ => show win2_1.index t (1 : Fin 2) * 128 + 1 * (y 1).val = (y 1).val; omega
  · funext y
    show V c main_v47 (((cfg2.win 2).blk t).view.emb y) = V c main_v47 y
    refine congrArg (V c main_v47) (funext fun a => Fin.ext ?_)
    match a with
    | ⟨0, _⟩ => show win2_2.index t (0 : Fin 2) * 1 + 1 * (y 0).val = (y 0).val; omega
    | ⟨1, _⟩ => show win2_2.index t (1 : Fin 2) * 128 + 1 * (y 1).val = (y 1).val; omega
  · show win2_3.index t (0 : Fin 2) * 5000 + 1 * (j 0).val = 5000 * t.val + (j 0).val; omega
  · show win2_3.index t (1 : Fin 2) * 128 + 1 * (j 1).val = (j 1).val; omega

/-- An index of the output array is in point t's block iff each coordinate is in the block's range on its axis. -/
theorem mem_blk2 (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v48).slice (win2_3.rect t)).set ↔ _
  rw [View.set_slice_whole, Rect.mem_set_unit]
  exact Iff.rfl

/-- Every index of the output array is in some point's block: row r is in block r / 5000. -/
theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hlt : (i 0).val / 5000 < cfg2.N := by show _ < grid2.N; rw [N_2]; omega
  refine ⟨⟨(i 0).val / 5000, hlt⟩, flush2_3 _, ?_⟩
  rw [mem_blk2]
  obtain ⟨-, -, -, -, -, -, e30, e31⟩ := idx_facts2 ⟨(i 0).val / 5000, hlt⟩
  have e30' : win2_3.index ⟨(i 0).val / 5000, hlt⟩ (0 : Fin 2) = (i 0).val / 5000 := e30
  intro a
  match a with
  | ⟨0, _⟩ =>
    show win2_3.index _ (0 : Fin 2) * 5000 ≤ (i 0).val ∧ (i 0).val < win2_3.index _ (0 : Fin 2) * 5000 + 5000
    rw [e30']; omega
  | ⟨1, _⟩ =>
    show win2_3.index _ (1 : Fin 2) * 128 ≤ (i 1).val ∧ (i 1).val < win2_3.index _ (1 : Fin 2) * 128 + 128
    rw [e31]; omega

/-- After region 2 its output array holds the affine layer of the input, the weight and the bias row as the region
    found them. -/
theorem final2 (c : Dev nD) :
    (Gen.dat2 V c).arrAt 3 cfg2.N
      = RowAffine.rowAffine (R := 100000) (K := 128) (N := 128) (V c main_v45) (V c main_arg4) (V c main_v47) :=
  (Gen.dat2 V c).arrAt_eq_of_cover 3 (G2 V c) (fun t _ => flushed2_eq V c t) (cover2)

end Cert.KernelIdeal.Regions

end
-- ==== Proof.Region3.lean ====
/-
  Region 3 of the program: a tiled combine step, read as one array.

  The region walks 20 grid points. Point t loads rows 5000·t … 5000·t + 4999 of two 100000×128 arrays (the summed
  messages A and the projected features H) and of a 100000×1 column D (a per-row factor), and the whole 1×128 row B,
  and writes rows 5000·t … 5000·t + 4999 of the 100000×128 output with max ((A + H · D) + B) 0 taken entry by entry on
  the block, the block's column spread over the lanes and the row over the rows. Entry (p, q) of the block written at
  point t is entry (5000·t + p, q) of the clamped combine step of the whole arrays, because row p of each loaded
  block IS row 5000·t + p of its array; and the 20 blocks cover every row (row r lies in block r / 5000). So after
  the region the output array holds the clamped combine step of the four arrays as the region found them.
-/
import proofs.«166380_j5909874999694_1_alg».proof.Proof.Gen.KernelIdeal.Frame
import proofs.«166380_j5909874999694_1_alg».proof.Proof.LibCombine
import Idealize.ShloMosaic.Lib.Pipeline.Value
import Idealize.ShloMosaic.Lib.ValueIdx
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets3 : (![0, 0] : Fin 2 → Nat) = fun _ => 0 := funext fun a => by fin_cases a <;> rfl

/-- The block a point writes, from the four blocks it loaded: the clamped combine step of those blocks, entry by
    entry. Each block is first re-cast to its own shape, which changes nothing. -/
theorem out3_apply (x0 x1 : Vec Ideal S5000x128 .f32) (x2 : Vec Ideal S5000x1 .f32) (x3 : Vec Ideal S1x128 .f32)
    (p : Fin 5000) (q : Fin 128) :
    Gen.out3_4 x0 x1 x2 x3 (ix2 p q) = Combine.combineRelu x0 x1 x2 x3 (ix2 p q) := by
  unfold Gen.out3_4
  rw [View.canon_unit_zero zeroOffsets3]
  simp only [View.ld_unit_zero (S := S5000x128) zeroOffsets3, View.ld_unit_zero (S := S5000x1) zeroOffsets3,
    View.ld_unit_zero (S := S1x128) zeroOffsets3]
  unfold Gen.k3_pay1
  show max ((addf (addf (shapeCast S5000x128 x0 shapeCasts_S5000x128_S5000x128)
        (mulf (shapeCast S5000x128 x1 shapeCasts_S5000x128_S5000x128)
          (broadcastTo S5000x128 (shapeCast S5000x1 x2 shapeCasts_S5000x1_S5000x1) broadcasts_S5000x1_S5000x128)))
      (broadcastTo S5000x128 (shapeCast S1x128 x3 shapeCasts_S1x128_S1x128) broadcasts_S1x128_S5000x128) : FVec Ideal S5000x128 .f32) (ix2 p q))
      Combine.zero = _
  rw [shapeCast_self x0, shapeCast_self x1, shapeCast_self x2, shapeCast_self x3]
  exact congrArg (fun z => max z Combine.zero)
    (Combine.kernel_apply (R := 5000) (N := 128) (by decide) x0 x1 x2 x3 broadcasts_S5000x1_S5000x128 broadcasts_S1x128_S5000x128 p q)

/-- The same against whole arrays: when the loaded blocks of A, H and D are their rows 5000·k …, and the fourth block
    is the whole row B, entry y of the written block is the clamped combine step of A, H, D, B at the entry 5000·k
    rows further down. -/
theorem out3_block (A H : S100000x128.Idx → EReal) (D : S100000x1.Idx → EReal) (B : S1x128.Idx → EReal)
    (x0 x1 : Vec Ideal S5000x128 .f32) (x2 : Vec Ideal S5000x1 .f32) (x3 : Vec Ideal S1x128 .f32) (k : Nat)
    (hx0 : ∀ (p : Fin 5000) (q : Fin 128) (r : Fin 100000), r.val = 5000 * k + p.val → x0 (ix2 p q) = A (ix2 r q))
    (hx1 : ∀ (p : Fin 5000) (q : Fin 128) (r : Fin 100000), r.val = 5000 * k + p.val → x1 (ix2 p q) = H (ix2 r q))
    (hx2 : ∀ (p : Fin 5000) (r : Fin 100000), r.val = 5000 * k + p.val → x2 (ix2 p (0 : Fin 1)) = D (ix2 r (0 : Fin 1)))
    (hx3 : x3 = B)
    (y : S5000x128.Idx) (i : S100000x128.Idx)
    (hi0 : (i 0).val = 5000 * k + (y 0).val) (hi1 : (i 1).val = (y 1).val) :
    Gen.out3_4 x0 x1 x2 x3 y = Combine.combineRelu A H D B i := by
  obtain ⟨p, q, rfl⟩ : ∃ (p : Fin 5000) (q : Fin 128), y = ix2 p q := ⟨y 0, y 1, eq_ix2 y⟩
  obtain ⟨r, q', rfl⟩ : ∃ (r : Fin 100000) (q' : Fin 128), i = ix2 r q' := ⟨i 0, i 1, eq_ix2 i⟩
  have hr : r.val = 5000 * k + p.val := hi0
  have hq : q' = q := Fin.ext hi1
  rw [hq, out3_apply, Combine.combineRelu_apply, Combine.combineRelu_apply, hx0 p q r hr, hx1 p q r hr, hx2 p r hr, hx3]

/-- The printed index maps, decided once over the grid: the three row-blocked inputs and the output move one block
    of rows per point, the row B stays. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The clamped combine step of the four arrays as the region finds them. -/
abbrev G3 (c : Dev nD) : S100000x128.Idx → EReal :=
  Combine.combineRelu (R := 100000) (N := 128) (V c main_v61) (V c main_v48) (V c main_v62) (V c main_v63)

/-- What point t writes back is block t of the clamped combine step. -/
theorem flushed3_eq (c : Dev nD) (t : Fin cfg3.N) :
    (Gen.dat3 V c).flushed 4 t = ((cfg3.win 4).blk t).view.read (Elt Ideal) (G3 V c) := by
  show (cfg3.win 4).cut (grid3.coords t) ((Gen.dat3 V c).after 4 t) = _
  rw [Gen.after3_4]
  obtain ⟨e00, e01, e10, e11, e20, e21, e30, e31, e40, e41⟩ := idx_facts3 t
  funext j
  show Gen.out3_4 (Gen.iblk3 V c 0 t) (Gen.iblk3 V c 1 t) (Gen.iblk3 V c 2 t) (Gen.iblk3 V c 3 t)
        ((cfg3.win 4).xinj (grid3.coords t) j)
      = G3 V c (((cfg3.win 4).blk t).view.emb j)
  refine out3_block (V c main_v61) (V c main_v48) (V c main_v62) (V c main_v63)
    (Gen.iblk3 V c 0 t) (Gen.iblk3 V c 1 t) (Gen.iblk3 V c 2 t) (Gen.iblk3 V c 3 t) t.val ?_ ?_ ?_ ?_
    ((cfg3.win 4).xinj (grid3.coords t) j) (((cfg3.win 4).blk t).view.emb j) ?_ ?_
  · intro p q r hr
    show V c main_v61 (((cfg3.win 0).blk t).view.emb (ix2 p q)) = V c main_v61 (ix2 r q)
    refine congrArg (V c main_v61) (funext fun a => Fin.ext ?_)
    match a with
    | ⟨0, _⟩ => show win3_0.index t (0 : Fin 2) * 5000 + 1 * p.val = r.val; omega
    | ⟨1, _⟩ => show win3_0.index t (1 : Fin 2) * 128 + 1 * q.val = q.val; omega
  · intro p q r hr
    show V c main_v48 (((cfg3.win 1).blk t).view.emb (ix2 p q)) = V c main_v48 (ix2 r q)
    refine congrArg (V c main_v48) (funext fun a => Fin.ext ?_)
    match a with
    | ⟨0, _⟩ => show win3_1.index t (0 : Fin 2) * 5000 + 1 * p.val = r.val; omega
    | ⟨1, _⟩ => show win3_1.index t (1 : Fin 2) * 128 + 1 * q.val = q.val; omega
  · intro p r hr
    show V c main_v62 (((cfg3.win 2).blk t).view.emb (ix2 p (0 : Fin 1))) = V c main_v62 (ix2 r (0 : Fin 1))
    refine congrArg (V c main_v62) (funext fun a => Fin.ext ?_)
    match a with
    | ⟨0, _⟩ => show win3_2.index t (0 : Fin 2) * 5000 + 1 * p.val = r.val; omega
    | ⟨1, _⟩ => show win3_2.index t (1 : Fin 2) * 1 + 1 * 0 = 0; omega
  · funext y
    show V c main_v63 (((cfg3.win 3).blk t).view.emb y) = V c main_v63 y
    refine congrArg (V c main_v63) (funext fun a => Fin.ext ?_)
    match a with
    | ⟨0, _⟩ => show win3_3.index t (0 : Fin 2) * 1 + 1 * (y 0).val = (y 0).val; omega
    | ⟨1, _⟩ => show win3_3.index t (1 : Fin 2) * 128 + 1 * (y 1).val = (y 1).val; omega
  · show win3_4.index t (0 : Fin 2) * 5000 + 1 * (j 0).val = 5000 * t.val + (j 0).val; omega
  · show win3_4.index t (1 : Fin 2) * 128 + 1 * (j 1).val = (j 1).val; omega

/-- An index of the output array is in point t's block iff each coordinate is in the block's range on its axis. -/
theorem mem_blk3 (t : Fin cfg3.N) (i : S100000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v64).slice (win3_4.rect t)).set ↔ _
  rw [View.set_slice_whole, Rect.mem_set_unit]
  exact Iff.rfl

/-- Every index of the output array is in some point's block: row r is in block r / 5000. -/
theorem cover3 (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hlt : (i 0).val / 5000 < cfg3.N := by show _ < grid3.N; rw [N_3]; omega
  refine ⟨⟨(i 0).val / 5000, hlt⟩, flush3_4 _, ?_⟩
  rw [mem_blk3]
  obtain ⟨-, -, -, -, -, -, -, -, e40, e41⟩ := idx_facts3 ⟨(i 0).val / 5000, hlt⟩
  have e40' : win3_4.index ⟨(i 0).val / 5000, hlt⟩ (0 : Fin 2) = (i 0).val / 5000 := e40
  intro a
  match a with
  | ⟨0, _⟩ =>
    show win3_4.index _ (0 : Fin 2) * 5000 ≤ (i 0).val ∧ (i 0).val < win3_4.index _ (0 : Fin 2) * 5000 + 5000
    rw [e40']; omega
  | ⟨1, _⟩ =>
    show win3_4.index _ (1 : Fin 2) * 128 ≤ (i 1).val ∧ (i 1).val < win3_4.index _ (1 : Fin 2) * 128 + 128
    rw [e41]; omega

/-- After region 3 its output array holds the clamped combine step of the four arrays as the region found them. -/
theorem final3 (c : Dev nD) :
    (Gen.dat3 V c).arrAt 4 cfg3.N
      = Combine.combineRelu (R := 100000) (N := 128) (V c main_v61) (V c main_v48) (V c main_v62) (V c main_v63) :=
  (Gen.dat3 V c).arrAt_eq_of_cover 4 (G3 V c) (fun t _ => flushed3_eq V c t) (cover3)

end Cert.KernelIdeal.Regions

end
-- ==== Proof.Layer2.lean ====
/-
  Layer 2 of the graph convolution in the idealized kernel: a linear projection of the node features (region 2),
  the messages gathered along the edges, scaled by each edge's factor and summed at the target nodes (host
  operations), and the combine step, clamped at zero (region 3).

  Each buffer holds the reference program's stage of the same meaning. The projection: the region's output array is
  the affine layer of its three input arrays, whose offset row is zero, so it is the plain matrix product the
  reference computes (x + 0 = x for every extended real). The messages: the kernel's host operations are the
  reference's, on buffers already identified. The combine step: the region's output array is the clamped
  (A + H · D) + B over the column D and the row B that are reshapes of the per-node factor and of the offset, which
  is the reference's spelling with the two vectors broadcast.
-/
import proofs.«166380_j5909874999694_1_alg».proof.Proof.Gen.KernelIdeal.Frame
import proofs.«166380_j5909874999694_1_alg».proof.Proof.Gen.ReferenceIdeal.Read
import proofs.«166380_j5909874999694_1_alg».proof.Proof.Carry
import proofs.«166380_j5909874999694_1_alg».proof.Proof.Stretch0
import proofs.«166380_j5909874999694_1_alg».proof.Proof.Layer1
import proofs.«166380_j5909874999694_1_alg».proof.Proof.LibHostForms
import proofs.«166380_j5909874999694_1_alg».proof.Proof.LibRowAffine
import proofs.«166380_j5909874999694_1_alg».proof.Proof.Region2
import proofs.«166380_j5909874999694_1_alg».proof.Proof.Region3

set_option maxRecDepth 16384

noncomputable section

namespace Cert.KernelIdeal.Layer2

open Cert.KernelIdeal Cert.KernelIdeal.Gen
open Idealize.ShloMosaic Idealize.ShloMosaic.TcCoe Idealize.SL.Sem
open Cert

variable (m : (ℓ : Loc nD τ sig) → Buf (Elt Ideal) ℓ) (ρ : Dev nD → PrngReg) (c : Dev nD)

/-! ## Buffers computed earlier, as this layer's segments find them -/

theorem src_at : W6 m ρ c (Proc.devRef .tc main_v1) = Cert.ReferenceIdeal.Read.val_main_v1 (F := Ideal) (m ((c : Thread nD τ).loc main_arg1)) :=
  ((Carry.reg2 m ρ c main_v1 (by decide)).trans ((Carry.host2 m ρ c main_v1 (by decide)).trans ((Carry.reg1 m ρ c main_v1 (by decide)).trans ((Carry.host1 m ρ c main_v1 (by decide)).trans (Carry.reg0 m ρ c main_v1 (by decide)))))).trans (Stretch0.src_eq m ρ c)
theorem dst_at : W6 m ρ c (Proc.devRef .tc main_v3) = Cert.ReferenceIdeal.Read.val_main_v3 (F := Ideal) (m ((c : Thread nD τ).loc main_arg1)) :=
  ((Carry.reg2 m ρ c main_v3 (by decide)).trans ((Carry.host2 m ρ c main_v3 (by decide)).trans ((Carry.reg1 m ρ c main_v3 (by decide)).trans ((Carry.host1 m ρ c main_v3 (by decide)).trans (Carry.reg0 m ρ c main_v3 (by decide)))))).trans (Stretch0.dst_eq m ρ c)
theorem edgeNorm_at : W6 m ρ c (Proc.devRef .tc main_v25) = Cert.ReferenceIdeal.Read.val_main_v25 (F := Ideal) (m ((c : Thread nD τ).loc main_arg1)) :=
  ((Carry.reg2 m ρ c main_v25 (by decide)).trans ((Carry.host2 m ρ c main_v25 (by decide)).trans ((Carry.reg1 m ρ c main_v25 (by decide)).trans ((Carry.host1 m ρ c main_v25 (by decide)).trans (Carry.reg0 m ρ c main_v25 (by decide)))))).trans (Stretch0.edgeNorm_eq m ρ c)
theorem selfNorm_at : W6 m ρ c (Proc.devRef .tc main_v26) = Cert.ReferenceIdeal.Read.val_main_v26 (F := Ideal) (m ((c : Thread nD τ).loc main_arg1)) :=
  ((Carry.reg2 m ρ c main_v26 (by decide)).trans ((Carry.host2 m ρ c main_v26 (by decide)).trans ((Carry.reg1 m ρ c main_v26 (by decide)).trans ((Carry.host1 m ρ c main_v26 (by decide)).trans (Carry.reg0 m ρ c main_v26 (by decide)))))).trans (Stretch0.selfNorm_eq m ρ c)
theorem offset_at : W6 m ρ c (Proc.devRef .tc main_arg5) = (m ((c : Thread nD τ).loc main_arg5)) :=
  (((Carry.reg2 m ρ c main_arg5 (by decide)).trans ((Carry.host2 m ρ c main_arg5 (by decide)).trans ((Carry.reg1 m ρ c main_arg5 (by decide)).trans ((Carry.host1 m ρ c main_arg5 (by decide)).trans ((Carry.reg0 m ρ c main_arg5 (by decide)).trans (Carry.host0 m ρ c main_arg5 (by decide))))))).trans (show W0 m ρ c (Proc.devRef .tc main_arg5) = m ((c : Thread nD τ).loc main_arg5) from rfl))
theorem weight_at : W5 m ρ c (Proc.devRef .tc main_arg4) = (m ((c : Thread nD τ).loc main_arg4)) :=
  (((Carry.host2 m ρ c main_arg4 (by decide)).trans ((Carry.reg1 m ρ c main_arg4 (by decide)).trans ((Carry.host1 m ρ c main_arg4 (by decide)).trans ((Carry.reg0 m ρ c main_arg4 (by decide)).trans (Carry.host0 m ρ c main_arg4 (by decide)))))).trans (show W0 m ρ c (Proc.devRef .tc main_arg4) = m ((c : Thread nD τ).loc main_arg4) from rfl))
theorem zeroRow_at : W5 m ρ c (Proc.devRef .tc main_v47) = shapeCast S1x128 (broadcastInDim S128 ![] bcast_S_S128 (constant (F := Ideal) S_ .f32 0x00000000#32)) shapeCasts_S128_S1x128 := by
  show StableHlo.after hostOps2 (W4 m ρ c) (Proc.devRef .tc main_v47) = _
  dsimp only [hostOps2]
  after_results_simp
  rfl
theorem input_at : W5 m ρ c (Proc.devRef .tc main_v45) = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) :=
  (Carry.host2 m ρ c main_v45 (by decide)).trans (Layer1.out_eq m ρ c)

/-! ## The projection -/

/-- The projected features: the reference's matrix product. -/
theorem lin_eq : W6 m ρ c (Proc.devRef .tc main_v48) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have h : W6 m ρ c (Proc.devRef .tc main_v48) = _ := (W6_arr m ρ c 3).trans (Regions.final2 (V5 m ρ) c)
  refine h.trans ?_
  rw [show V5 m ρ c main_v45 = _ from input_at m ρ c, show V5 m ρ c main_arg4 = _ from weight_at m ρ c,
    show V5 m ρ c main_v47 = _ from zeroRow_at m ρ c]
  exact (RowAffine.host_nobias_eq (R := 100000) (K := 128) (N := 128) Cert.ReferenceIdeal.dot_S100000x128_S128x128_S100000x128_1_0_0_1_n_n rfl none
    (Cert.ReferenceIdeal.Read.val_main_v48 (F := Ideal) (m ((c : Thread nD τ).loc main_arg0)) (m ((c : Thread nD τ).loc main_arg1)) (m ((c : Thread nD τ).loc main_arg2)) (m ((c : Thread nD τ).loc main_arg3))) (m ((c : Thread nD τ).loc main_arg4)) shapeCasts_S128_S1x128 bcast_S_S128).symm

/-! ## The messages summed at the target nodes -/

/-- The aggregated messages: the reference's scatter-add of the gathered, scaled rows. -/
theorem agg_eq : W7 m ρ c (Proc.devRef .tc main_v61) = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W6 m ρ c) (Proc.devRef .tc main_v61) = _
  dsimp only [hostOps3]
  after_results_simp
  rw [lin_eq m ρ c, src_at m ρ c, dst_at m ρ c, edgeNorm_at m ρ c]
  rfl

/-- The per-node factor as a column. -/
theorem col_eq : W7 m ρ c (Proc.devRef .tc main_v62) = shapeCast S100000x1 (Cert.ReferenceIdeal.Read.val_main_v26 (F := Ideal) (m ((c : Thread nD τ).loc main_arg1))) shapeCasts_S100000_S100000x1 := by
  show StableHlo.after hostOps3 (W6 m ρ c) (Proc.devRef .tc main_v62) = _
  dsimp only [hostOps3]
  after_results_simp
  rw [selfNorm_at m ρ c]
  rfl

/-- The offset as a row. -/
theorem row_eq : W7 m ρ c (Proc.devRef .tc main_v63) = shapeCast S1x128 (m ((c : Thread nD τ).loc main_arg5)) shapeCasts_S128_S1x128 := by
  show StableHlo.after hostOps3 (W6 m ρ c) (Proc.devRef .tc main_v63) = _
  dsimp only [hostOps3]
  after_results_simp
  rw [offset_at m ρ c]
  rfl

/-! ## The combine step -/

/-- The layer's output: the reference's clamped sum. -/
theorem out_eq : W8 m ρ c (Proc.devRef .tc main_v64) = Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h : W8 m ρ c (Proc.devRef .tc main_v64) = _ := (W8_arr m ρ c 4).trans (Regions.final3 (V7 m ρ) c)
  refine h.trans ?_
  rw [show V7 m ρ c main_v61 = _ from agg_eq m ρ c,
    show V7 m ρ c main_v48 = _ from (Carry.host3 m ρ c main_v48 (by decide)).trans (lin_eq m ρ c),
    show V7 m ρ c main_v62 = _ from col_eq m ρ c, show V7 m ρ c main_v63 = _ from row_eq m ρ c]
  exact (HostForms.host_combine_eq (R := 100000) (N := 128) (by decide) (Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (Cert.ReferenceIdeal.Read.val_main_v26 (F := Ideal) (m ((c : Thread nD τ).loc main_arg1))) (m ((c : Thread nD τ).loc main_arg5))
    Cert.ReferenceIdeal.Gen.bcast_S100000_S100000x1_0 Cert.ReferenceIdeal.Gen.bcast_S100000x1_S100000x128_0_1 Cert.ReferenceIdeal.Gen.bcast_S128_S1x128_1 Cert.ReferenceIdeal.Gen.bcast_S1x128_S100000x128_0_1
    Cert.ReferenceIdeal.Gen.bcast_S_S100000x128 shapeCasts_S100000_S100000x1 shapeCasts_S128_S1x128).symm

end Cert.KernelIdeal.Layer2

end
-- ==== Proof.Region4.lean ====
/-
  Region 4 of the program: a tiled affine layer, read as one array.

  The region walks 20 grid points. Point t loads rows 5000·t … 5000·t + 4999 of the 100000×128 input, the whole
  128×64 weight and the whole 1×64 bias row, and writes rows 5000·t … 5000·t + 4999 of the 100000×64 output with
  the block's product plus the row on every row of the block. Entry (p, q) of the block written at point t is entry
  (5000·t + p, q) of the affine layer of the whole arrays, because row p of the loaded block IS row 5000·t + p of
  the input; and the 20 blocks cover every row (row r lies in block r / 5000). So after the region the output
  array holds the affine layer of the three arrays as the region found them.
-/
import proofs.«166380_j5909874999694_1_alg».proof.Proof.Gen.KernelIdeal.Frame
import proofs.«166380_j5909874999694_1_alg».proof.Proof.LibRowAffine
import proofs.«166380_j5909874999694_1_alg».proof.Proof.LibNodeUpdate
import Idealize.ShloMosaic.Lib.Pipeline.Value
import Idealize.ShloMosaic.Lib.ValueIdx
import Idealize.ShloMosaic.Lib.Tactic

set_option maxRecDepth 16384

noncomputable section

open scoped BigOperators

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets4 : (![0, 0] : Fin 2 → Nat) = fun _ => 0 := funext fun a => by fin_cases a <;> rfl

/-- The block a point writes, from the three blocks it loaded: the affine layer of those blocks, entry by entry. -/
theorem out4_apply (x0 : Vec Ideal S5000x128 .f32) (x1 : Vec Ideal S128x64 .f32) (x2 : Vec Ideal S1x64 .f32)
    (p : Fin 5000) (q : Fin 64) :
    Gen.out4_3 x0 x1 x2 (ix2 p q) = RowAffine.rowAffine x0 x1 x2 (ix2 p q) := by
  unfold Gen.out4_3
  rw [View.canon_unit_zero zeroOffsets4]
  simp only [View.ld_unit_zero (S := S5000x128) zeroOffsets4, View.ld_unit_zero (S := S128x64) zeroOffsets4,
    View.ld_unit_zero (S := S1x64) zeroOffsets4]
  unfold Gen.k4_pay1
  exact (NodeUpdate.affine_block_apply dot_S5000x128_S128x64_S5000x64_1_0_0_1_n_n rfl (by decide) none x0 x1 x2
    shapeCasts_S5000x128_S5000x128 shapeCasts_S1x64_S1x64 broadcasts_S1x64_S5000x64 bitsLt_bf16_f32 p q).trans rfl

/-- The same against whole arrays: when the loaded input block is rows 5000·k … of A, and the other two blocks are
    the whole W and B, entry y of the written block is the layer of A, W, B at the entry 5000·k rows further down. -/
theorem out4_block (A : S100000x128.Idx → EReal) (W : S128x64.Idx → EReal) (B : S1x64.Idx → EReal)
    (x0 : Vec Ideal S5000x128 .f32) (x1 : Vec Ideal S128x64 .f32) (x2 : Vec Ideal S1x64 .f32) (k : Nat)
    (hx0 : ∀ (p : Fin 5000) (d : Fin 128) (r : Fin 100000), r.val = 5000 * k + p.val → x0 (ix2 p d) = A (ix2 r d))
    (hx1 : x1 = W) (hx2 : x2 = B)
    (y : S5000x64.Idx) (i : S100000x64.Idx)
    (hi0 : (i 0).val = 5000 * k + (y 0).val) (hi1 : (i 1).val = (y 1).val) :
    Gen.out4_3 x0 x1 x2 y = RowAffine.rowAffine A W B i := by
  obtain ⟨p, q, rfl⟩ : ∃ (p : Fin 5000) (q : Fin 64), y = ix2 p q := ⟨y 0, y 1, eq_ix2 y⟩
  obtain ⟨r, q', rfl⟩ : ∃ (r : Fin 100000) (q' : Fin 64), i = ix2 r q' := ⟨i 0, i 1, eq_ix2 i⟩
  have hr : r.val = 5000 * k + p.val := hi0
  have hq : q' = q := Fin.ext hi1
  rw [hq, out4_apply, RowAffine.rowAffine_apply, RowAffine.rowAffine_apply, hx1, hx2]
  exact congrArg (· + B (ix2 0 q)) (Finset.sum_congr rfl fun d _ => by rw [hx0 p d r hr])

/-- The printed index maps, decided once over the grid: the input and the output move one block of rows per point,
    the weight and the bias row stay. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The layer of the three arrays as the region finds them. -/
abbrev G4 (c : Dev nD) : S100000x64.Idx → EReal :=
  RowAffine.rowAffine (R := 100000) (K := 128) (N := 64) (V c main_v64) (V c main_arg6) (V c main_v66)

/-- What point t writes back is block t of the layer. -/
theorem flushed4_eq (c : Dev nD) (t : Fin cfg4.N) :
    (Gen.dat4 V c).flushed 3 t = ((cfg4.win 3).blk t).view.read (Elt Ideal) (G4 V c) := by
  show (cfg4.win 3).cut (grid4.coords t) ((Gen.dat4 V c).after 3 t) = _
  rw [Gen.after4_3]
  obtain ⟨e00, e01, e10, e11, e20, e21, e30, e31⟩ := idx_facts4 t
  funext j
  show Gen.out4_3 (Gen.iblk4 V c 0 t) (Gen.iblk4 V c 1 t) (Gen.iblk4 V c 2 t) ((cfg4.win 3).xinj (grid4.coords t) j)
      = G4 V c (((cfg4.win 3).blk t).view.emb j)
  refine out4_block (V c main_v64) (V c main_arg6) (V c main_v66)
    (Gen.iblk4 V c 0 t) (Gen.iblk4 V c 1 t) (Gen.iblk4 V c 2 t) t.val ?_ ?_ ?_
    ((cfg4.win 3).xinj (grid4.coords t) j) (((cfg4.win 3).blk t).view.emb j) ?_ ?_
  · intro p d r hr
    show V c main_v64 (((cfg4.win 0).blk t).view.emb (ix2 p d)) = V c main_v64 (ix2 r d)
    refine congrArg (V c main_v64) (funext fun a => Fin.ext ?_)
    match a with
    | ⟨0, _⟩ => show win4_0.index t (0 : Fin 2) * 5000 + 1 * p.val = r.val; omega
    | ⟨1, _⟩ => show win4_0.index t (1 : Fin 2) * 128 + 1 * d.val = d.val; omega
  · funext y
    show V c main_arg6 (((cfg4.win 1).blk t).view.emb y) = V c main_arg6 y
    refine congrArg (V c main_arg6) (funext fun a => Fin.ext ?_)
    match a with
    | ⟨0, _⟩ => show win4_1.index t (0 : Fin 2) * 128 + 1 * (y 0).val = (y 0).val; omega
    | ⟨1, _⟩ => show win4_1.index t (1 : Fin 2) * 64 + 1 * (y 1).val = (y 1).val; omega
  · funext y
    show V c main_v66 (((cfg4.win 2).blk t).view.emb y) = V c main_v66 y
    refine congrArg (V c main_v66) (funext fun a => Fin.ext ?_)
    match a with
    | ⟨0, _⟩ => show win4_2.index t (0 : Fin 2) * 1 + 1 * (y 0).val = (y 0).val; omega
    | ⟨1, _⟩ => show win4_2.index t (1 : Fin 2) * 64 + 1 * (y 1).val = (y 1).val; omega
  · show win4_3.index t (0 : Fin 2) * 5000 + 1 * (j 0).val = 5000 * t.val + (j 0).val; omega
  · show win4_3.index t (1 : Fin 2) * 64 + 1 * (j 1).val = (j 1).val; omega

/-- An index of the output array is in point t's block iff each coordinate is in the block's range on its axis. -/
theorem mem_blk4 (t : Fin cfg4.N) (i : S100000x64.Idx) :
    i ∈ ((cfg4.win 3).blk t).view.set ↔ ∀ a : Fin 2, win4_3.index t a * S5000x64.size a ≤ (i a).val
      ∧ (i a).val < win4_3.index t a * S5000x64.size a + S5000x64.size a := by
  show i ∈ ((View.whole main_v67).slice (win4_3.rect t)).set ↔ _
  rw [View.set_slice_whole, Rect.mem_set_unit]
  exact Iff.rfl

/-- Every index of the output array is in some point's block: row r is in block r / 5000. -/
theorem cover4 (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  have hlt : (i 0).val / 5000 < cfg4.N := by show _ < grid4.N; rw [N_4]; omega
  refine ⟨⟨(i 0).val / 5000, hlt⟩, flush4_3 _, ?_⟩
  rw [mem_blk4]
  obtain ⟨-, -, -, -, -, -, e30, e31⟩ := idx_facts4 ⟨(i 0).val / 5000, hlt⟩
  have e30' : win4_3.index ⟨(i 0).val / 5000, hlt⟩ (0 : Fin 2) = (i 0).val / 5000 := e30
  intro a
  match a with
  | ⟨0, _⟩ =>
    show win4_3.index _ (0 : Fin 2) * 5000 ≤ (i 0).val ∧ (i 0).val < win4_3.index _ (0 : Fin 2) * 5000 + 5000
    rw [e30']; omega
  | ⟨1, _⟩ =>
    show win4_3.index _ (1 : Fin 2) * 64 ≤ (i 1).val ∧ (i 1).val < win4_3.index _ (1 : Fin 2) * 64 + 64
    rw [e31]; omega

/-- After region 4 its output array holds the affine layer of the input, the weight and the bias row as the region
    found them. -/
theorem final4 (c : Dev nD) :
    (Gen.dat4 V c).arrAt 3 cfg4.N
      = RowAffine.rowAffine (R := 100000) (K := 128) (N := 64) (V c main_v64) (V c main_arg6) (V c main_v66) :=
  (Gen.dat4 V c).arrAt_eq_of_cover 3 (G4 V c) (fun t _ => flushed4_eq V c t) (cover4)

end Cert.KernelIdeal.Regions

end
-- ==== Proof.Region5.lean ====
/-
  Region 5 of the program: a tiled combine step, read as one array.

  The region walks 20 grid points. Point t loads rows 5000·t … 5000·t + 4999 of two 100000×64 arrays (the summed
  messages A and the projected features H) and of a 100000×1 column D (a per-row factor), and the whole 1×64 row B,
  and writes rows 5000·t … 5000·t + 4999 of the 100000×64 output with max ((A + H · D) + B) 0 taken entry by entry on
  the block, the block's column spread over the lanes and the row over the rows. Entry (p, q) of the block written at
  point t is entry (5000·t + p, q) of the clamped combine step of the whole arrays, because row p of each loaded
  block IS row 5000·t + p of its array; and the 20 blocks cover every row (row r lies in block r / 5000). So after
  the region the output array holds the clamped combine step of the four arrays as the region found them.
-/
import proofs.«166380_j5909874999694_1_alg».proof.Proof.Gen.KernelIdeal.Frame
import proofs.«166380_j5909874999694_1_alg».proof.Proof.LibCombine
import Idealize.ShloMosaic.Lib.Pipeline.Value
import Idealize.ShloMosaic.Lib.ValueIdx
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets5 : (![0, 0] : Fin 2 → Nat) = fun _ => 0 := funext fun a => by fin_cases a <;> rfl

/-- The block a point writes, from the four blocks it loaded: the clamped combine step of those blocks, entry by
    entry. Each block is first re-cast to its own shape, which changes nothing. -/
theorem out5_apply (x0 x1 : Vec Ideal S5000x64 .f32) (x2 : Vec Ideal S5000x1 .f32) (x3 : Vec Ideal S1x64 .f32)
    (p : Fin 5000) (q : Fin 64) :
    Gen.out5_4 x0 x1 x2 x3 (ix2 p q) = Combine.combineRelu x0 x1 x2 x3 (ix2 p q) := by
  unfold Gen.out5_4
  rw [View.canon_unit_zero zeroOffsets5]
  simp only [View.ld_unit_zero (S := S5000x64) zeroOffsets5, View.ld_unit_zero (S := S5000x1) zeroOffsets5,
    View.ld_unit_zero (S := S1x64) zeroOffsets5]
  unfold Gen.k5_pay1
  show max ((addf (addf (shapeCast S5000x64 x0 shapeCasts_S5000x64_S5000x64)
        (mulf (shapeCast S5000x64 x1 shapeCasts_S5000x64_S5000x64)
          (broadcastTo S5000x64 (shapeCast S5000x1 x2 shapeCasts_S5000x1_S5000x1) broadcasts_S5000x1_S5000x64)))
      (broadcastTo S5000x64 (shapeCast S1x64 x3 shapeCasts_S1x64_S1x64) broadcasts_S1x64_S5000x64) : FVec Ideal S5000x64 .f32) (ix2 p q))
      Combine.zero = _
  rw [shapeCast_self x0, shapeCast_self x1, shapeCast_self x2, shapeCast_self x3]
  exact congrArg (fun z => max z Combine.zero)
    (Combine.kernel_apply (R := 5000) (N := 64) (by decide) x0 x1 x2 x3 broadcasts_S5000x1_S5000x64 broadcasts_S1x64_S5000x64 p q)

/-- The same against whole arrays: when the loaded blocks of A, H and D are their rows 5000·k …, and the fourth block
    is the whole row B, entry y of the written block is the clamped combine step of A, H, D, B at the entry 5000·k
    rows further down. -/
theorem out5_block (A H : S100000x64.Idx → EReal) (D : S100000x1.Idx → EReal) (B : S1x64.Idx → EReal)
    (x0 x1 : Vec Ideal S5000x64 .f32) (x2 : Vec Ideal S5000x1 .f32) (x3 : Vec Ideal S1x64 .f32) (k : Nat)
    (hx0 : ∀ (p : Fin 5000) (q : Fin 64) (r : Fin 100000), r.val = 5000 * k + p.val → x0 (ix2 p q) = A (ix2 r q))
    (hx1 : ∀ (p : Fin 5000) (q : Fin 64) (r : Fin 100000), r.val = 5000 * k + p.val → x1 (ix2 p q) = H (ix2 r q))
    (hx2 : ∀ (p : Fin 5000) (r : Fin 100000), r.val = 5000 * k + p.val → x2 (ix2 p (0 : Fin 1)) = D (ix2 r (0 : Fin 1)))
    (hx3 : x3 = B)
    (y : S5000x64.Idx) (i : S100000x64.Idx)
    (hi0 : (i 0).val = 5000 * k + (y 0).val) (hi1 : (i 1).val = (y 1).val) :
    Gen.out5_4 x0 x1 x2 x3 y = Combine.combineRelu A H D B i := by
  obtain ⟨p, q, rfl⟩ : ∃ (p : Fin 5000) (q : Fin 64), y = ix2 p q := ⟨y 0, y 1, eq_ix2 y⟩
  obtain ⟨r, q', rfl⟩ : ∃ (r : Fin 100000) (q' : Fin 64), i = ix2 r q' := ⟨i 0, i 1, eq_ix2 i⟩
  have hr : r.val = 5000 * k + p.val := hi0
  have hq : q' = q := Fin.ext hi1
  rw [hq, out5_apply, Combine.combineRelu_apply, Combine.combineRelu_apply, hx0 p q r hr, hx1 p q r hr, hx2 p r hr, hx3]

/-- The printed index maps, decided once over the grid: the three row-blocked inputs and the output move one block
    of rows per point, the row B stays. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The clamped combine step of the four arrays as the region finds them. -/
abbrev G5 (c : Dev nD) : S100000x64.Idx → EReal :=
  Combine.combineRelu (R := 100000) (N := 64) (V c main_v80) (V c main_v67) (V c main_v81) (V c main_v82)

/-- What point t writes back is block t of the clamped combine step. -/
theorem flushed5_eq (c : Dev nD) (t : Fin cfg5.N) :
    (Gen.dat5 V c).flushed 4 t = ((cfg5.win 4).blk t).view.read (Elt Ideal) (G5 V c) := by
  show (cfg5.win 4).cut (grid5.coords t) ((Gen.dat5 V c).after 4 t) = _
  rw [Gen.after5_4]
  obtain ⟨e00, e01, e10, e11, e20, e21, e30, e31, e40, e41⟩ := idx_facts5 t
  funext j
  show Gen.out5_4 (Gen.iblk5 V c 0 t) (Gen.iblk5 V c 1 t) (Gen.iblk5 V c 2 t) (Gen.iblk5 V c 3 t)
        ((cfg5.win 4).xinj (grid5.coords t) j)
      = G5 V c (((cfg5.win 4).blk t).view.emb j)
  refine out5_block (V c main_v80) (V c main_v67) (V c main_v81) (V c main_v82)
    (Gen.iblk5 V c 0 t) (Gen.iblk5 V c 1 t) (Gen.iblk5 V c 2 t) (Gen.iblk5 V c 3 t) t.val ?_ ?_ ?_ ?_
    ((cfg5.win 4).xinj (grid5.coords t) j) (((cfg5.win 4).blk t).view.emb j) ?_ ?_
  · intro p q r hr
    show V c main_v80 (((cfg5.win 0).blk t).view.emb (ix2 p q)) = V c main_v80 (ix2 r q)
    refine congrArg (V c main_v80) (funext fun a => Fin.ext ?_)
    match a with
    | ⟨0, _⟩ => show win5_0.index t (0 : Fin 2) * 5000 + 1 * p.val = r.val; omega
    | ⟨1, _⟩ => show win5_0.index t (1 : Fin 2) * 64 + 1 * q.val = q.val; omega
  · intro p q r hr
    show V c main_v67 (((cfg5.win 1).blk t).view.emb (ix2 p q)) = V c main_v67 (ix2 r q)
    refine congrArg (V c main_v67) (funext fun a => Fin.ext ?_)
    match a with
    | ⟨0, _⟩ => show win5_1.index t (0 : Fin 2) * 5000 + 1 * p.val = r.val; omega
    | ⟨1, _⟩ => show win5_1.index t (1 : Fin 2) * 64 + 1 * q.val = q.val; omega
  · intro p r hr
    show V c main_v81 (((cfg5.win 2).blk t).view.emb (ix2 p (0 : Fin 1))) = V c main_v81 (ix2 r (0 : Fin 1))
    refine congrArg (V c main_v81) (funext fun a => Fin.ext ?_)
    match a with
    | ⟨0, _⟩ => show win5_2.index t (0 : Fin 2) * 5000 + 1 * p.val = r.val; omega
    | ⟨1, _⟩ => show win5_2.index t (1 : Fin 2) * 1 + 1 * 0 = 0; omega
  · funext y
    show V c main_v82 (((cfg5.win 3).blk t).view.emb y) = V c main_v82 y
    refine congrArg (V c main_v82) (funext fun a => Fin.ext ?_)
    match a with
    | ⟨0, _⟩ => show win5_3.index t (0 : Fin 2) * 1 + 1 * (y 0).val = (y 0).val; omega
    | ⟨1, _⟩ => show win5_3.index t (1 : Fin 2) * 64 + 1 * (y 1).val = (y 1).val; omega
  · show win5_4.index t (0 : Fin 2) * 5000 + 1 * (j 0).val = 5000 * t.val + (j 0).val; omega
  · show win5_4.index t (1 : Fin 2) * 64 + 1 * (j 1).val = (j 1).val; omega

/-- An index of the output array is in point t's block iff each coordinate is in the block's range on its axis. -/
theorem mem_blk5 (t : Fin cfg5.N) (i : S100000x64.Idx) :
    i ∈ ((cfg5.win 4).blk t).view.set ↔ ∀ a : Fin 2, win5_4.index t a * S5000x64.size a ≤ (i a).val
      ∧ (i a).val < win5_4.index t a * S5000x64.size a + S5000x64.size a := by
  show i ∈ ((View.whole main_v83).slice (win5_4.rect t)).set ↔ _
  rw [View.set_slice_whole, Rect.mem_set_unit]
  exact Iff.rfl

/-- Every index of the output array is in some point's block: row r is in block r / 5000. -/
theorem cover5 (i : S100000x64.Idx) :
    ∃ t : Fin cfg5.N, (cfg5.win 4).flush t = true ∧ i ∈ ((cfg5.win 4).blk t).view.set := by
  have hi0 : (i 0).val < 100000 := (i 0).isLt
  have hi1 : (i 1).val < 64 := (i 1).isLt
  have hlt : (i 0).val / 5000 < cfg5.N := by show _ < grid5.N; rw [N_5]; omega
  refine ⟨⟨(i 0).val / 5000, hlt⟩, flush5_4 _, ?_⟩
  rw [mem_blk5]
  obtain ⟨-, -, -, -, -, -, -, -, e40, e41⟩ := idx_facts5 ⟨(i 0).val / 5000, hlt⟩
  have e40' : win5_4.index ⟨(i 0).val / 5000, hlt⟩ (0 : Fin 2) = (i 0).val / 5000 := e40
  intro a
  match a with
  | ⟨0, _⟩ =>
    show win5_4.index _ (0 : Fin 2) * 5000 ≤ (i 0).val ∧ (i 0).val < win5_4.index _ (0 : Fin 2) * 5000 + 5000
    rw [e40']; omega
  | ⟨1, _⟩ =>
    show win5_4.index _ (1 : Fin 2) * 64 ≤ (i 1).val ∧ (i 1).val < win5_4.index _ (1 : Fin 2) * 64 + 64
    rw [e41]; omega

/-- After region 5 its output array holds the clamped combine step of the four arrays as the region found them. -/
theorem final5 (c : Dev nD) :
    (Gen.dat5 V c).arrAt 4 cfg5.N
      = Combine.combineRelu (R := 100000) (N := 64) (V c main_v80) (V c main_v67) (V c main_v81) (V c main_v82) :=
  (Gen.dat5 V c).arrAt_eq_of_cover 4 (G5 V c) (fun t _ => flushed5_eq V c t) (cover5)

end Cert.KernelIdeal.Regions

end
-- ==== Proof.Layer3.lean ====
/-
  Layer 3 of the graph convolution in the idealized kernel: a linear projection of the node features (region 4),
  the messages gathered along the edges, scaled by each edge's factor and summed at the target nodes (host
  operations), and the combine step, clamped at zero (region 5).

  Each buffer holds the reference program's stage of the same meaning. The projection: the region's output array is
  the affine layer of its three input arrays, whose offset row is zero, so it is the plain matrix product the
  reference computes (x + 0 = x for every extended real). The messages: the kernel's host operations are the
  reference's, on buffers already identified. The combine step: the region's output array is the clamped
  (A + H · D) + B over the column D and the row B that are reshapes of the per-node factor and of the offset, which
  is the reference's spelling with the two vectors broadcast.
-/
import proofs.«166380_j5909874999694_1_alg».proof.Proof.Gen.KernelIdeal.Frame
import proofs.«166380_j5909874999694_1_alg».proof.Proof.Gen.ReferenceIdeal.Read
import proofs.«166380_j5909874999694_1_alg».proof.Proof.Carry
import proofs.«166380_j5909874999694_1_alg».proof.Proof.Stretch0
import proofs.«166380_j5909874999694_1_alg».proof.Proof.Layer2
import proofs.«166380_j5909874999694_1_alg».proof.Proof.LibHostForms
import proofs.«166380_j5909874999694_1_alg».proof.Proof.LibRowAffine
import proofs.«166380_j5909874999694_1_alg».proof.Proof.Region4
import proofs.«166380_j5909874999694_1_alg».proof.Proof.Region5

set_option maxRecDepth 16384

noncomputable section

namespace Cert.KernelIdeal.Layer3

open Cert.KernelIdeal Cert.KernelIdeal.Gen
open Idealize.ShloMosaic Idealize.ShloMosaic.TcCoe Idealize.SL.Sem
open Cert

variable (m : (ℓ : Loc nD τ sig) → Buf (Elt Ideal) ℓ) (ρ : Dev nD → PrngReg) (c : Dev nD)

/-! ## Buffers computed earlier, as this layer's segments find them -/

theorem src_at : W10 m ρ c (Proc.devRef .tc main_v1) = Cert.ReferenceIdeal.Read.val_main_v1 (F := Ideal) (m ((c : Thread nD τ).loc main_arg1)) :=
  ((Carry.reg4 m ρ c main_v1 (by decide)).trans ((Carry.host4 m ρ c main_v1 (by decide)).trans ((Carry.reg3 m ρ c main_v1 (by decide)).trans ((Carry.host3 m ρ c main_v1 (by decide)).trans ((Carry.reg2 m ρ c main_v1 (by decide)).trans ((Carry.host2 m ρ c main_v1 (by decide)).trans ((Carry.reg1 m ρ c main_v1 (by decide)).trans ((Carry.host1 m ρ c main_v1 (by decide)).trans (Carry.reg0 m ρ c main_v1 (by decide)))))))))).trans (Stretch0.src_eq m ρ c)
theorem dst_at : W10 m ρ c (Proc.devRef .tc main_v3) = Cert.ReferenceIdeal.Read.val_main_v3 (F := Ideal) (m ((c : Thread nD τ).loc main_arg1)) :=
  ((Carry.reg4 m ρ c main_v3 (by decide)).trans ((Carry.host4 m ρ c main_v3 (by decide)).trans ((Carry.reg3 m ρ c main_v3 (by decide)).trans ((Carry.host3 m ρ c main_v3 (by decide)).trans ((Carry.reg2 m ρ c main_v3 (by decide)).trans ((Carry.host2 m ρ c main_v3 (by decide)).trans ((Carry.reg1 m ρ c main_v3 (by decide)).trans ((Carry.host1 m ρ c main_v3 (by decide)).trans (Carry.reg0 m ρ c main_v3 (by decide)))))))))).trans (Stretch0.dst_eq m ρ c)
theorem edgeNorm_at : W10 m ρ c (Proc.devRef .tc main_v25) = Cert.ReferenceIdeal.Read.val_main_v25 (F := Ideal) (m ((c : Thread nD τ).loc main_arg1)) :=
  ((Carry.reg4 m ρ c main_v25 (by decide)).trans ((Carry.host4 m ρ c main_v25 (by decide)).trans ((Carry.reg3 m ρ c main_v25 (by decide)).trans ((Carry.host3 m ρ c main_v25 (by decide)).trans ((Carry.reg2 m ρ c main_v25 (by decide)).trans ((Carry.host2 m ρ c main_v25 (by decide)).trans ((Carry.reg1 m ρ c main_v25 (by decide)).trans ((Carry.host1 m ρ c main_v25 (by decide)).trans (Carry.reg0 m ρ c main_v25 (by decide)))))))))).trans (Stretch0.edgeNorm_eq m ρ c)
theorem selfNorm_at : W10 m ρ c (Proc.devRef .tc main_v26) = Cert.ReferenceIdeal.Read.val_main_v26 (F := Ideal) (m ((c : Thread nD τ).loc main_arg1)) :=
  ((Carry.reg4 m ρ c main_v26 (by decide)).trans ((Carry.host4 m ρ c main_v26 (by decide)).trans ((Carry.reg3 m ρ c main_v26 (by decide)).trans ((Carry.host3 m ρ c main_v26 (by decide)).trans ((Carry.reg2 m ρ c main_v26 (by decide)).trans ((Carry.host2 m ρ c main_v26 (by decide)).trans ((Carry.reg1 m ρ c main_v26 (by decide)).trans ((Carry.host1 m ρ c main_v26 (by decide)).trans (Carry.reg0 m ρ c main_v26 (by decide)))))))))).trans (Stretch0.selfNorm_eq m ρ c)
theorem offset_at : W10 m ρ c (Proc.devRef .tc main_arg7) = (m ((c : Thread nD τ).loc main_arg7)) :=
  (((Carry.reg4 m ρ c main_arg7 (by decide)).trans ((Carry.host4 m ρ c main_arg7 (by decide)).trans ((Carry.reg3 m ρ c main_arg7 (by decide)).trans ((Carry.host3 m ρ c main_arg7 (by decide)).trans ((Carry.reg2 m ρ c main_arg7 (by decide)).trans ((Carry.host2 m ρ c main_arg7 (by decide)).trans ((Carry.reg1 m ρ c main_arg7 (by decide)).trans ((Carry.host1 m ρ c main_arg7 (by decide)).trans ((Carry.reg0 m ρ c main_arg7 (by decide)).trans (Carry.host0 m ρ c main_arg7 (by decide))))))))))).trans (show W0 m ρ c (Proc.devRef .tc main_arg7) = m ((c : Thread nD τ).loc main_arg7) from rfl))
theorem weight_at : W9 m ρ c (Proc.devRef .tc main_arg6) = (m ((c : Thread nD τ).loc main_arg6)) :=
  (((Carry.host4 m ρ c main_arg6 (by decide)).trans ((Carry.reg3 m ρ c main_arg6 (by decide)).trans ((Carry.host3 m ρ c main_arg6 (by decide)).trans ((Carry.reg2 m ρ c main_arg6 (by decide)).trans ((Carry.host2 m ρ c main_arg6 (by decide)).trans ((Carry.reg1 m ρ c main_arg6 (by decide)).trans ((Carry.host1 m ρ c main_arg6 (by decide)).trans ((Carry.reg0 m ρ c main_arg6 (by decide)).trans (Carry.host0 m ρ c main_arg6 (by decide)))))))))).trans (show W0 m ρ c (Proc.devRef .tc main_arg6) = m ((c : Thread nD τ).loc main_arg6) from rfl))
theorem zeroRow_at : W9 m ρ c (Proc.devRef .tc main_v66) = shapeCast S1x64 (broadcastInDim S64 ![] bcast_S_S64 (constant (F := Ideal) S_ .f32 0x00000000#32)) shapeCasts_S64_S1x64 := by
  show StableHlo.after hostOps4 (W8 m ρ c) (Proc.devRef .tc main_v66) = _
  dsimp only [hostOps4]
  after_results_simp
  rfl
theorem input_at : W9 m ρ c (Proc.devRef .tc main_v64) = Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (Carry.host4 m ρ c main_v64 (by decide)).trans (Layer2.out_eq m ρ c)

/-! ## The projection -/

/-- The projected features: the reference's matrix product. -/
theorem lin_eq : W10 m ρ c (Proc.devRef .tc main_v67) = Cert.ReferenceIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h : W10 m ρ c (Proc.devRef .tc main_v67) = _ := (W10_arr m ρ c 3).trans (Regions.final4 (V9 m ρ) c)
  refine h.trans ?_
  rw [show V9 m ρ c main_v64 = _ from input_at m ρ c, show V9 m ρ c main_arg6 = _ from weight_at m ρ c,
    show V9 m ρ c main_v66 = _ from zeroRow_at m ρ c]
  exact (RowAffine.host_nobias_eq (R := 100000) (K := 128) (N := 64) Cert.ReferenceIdeal.dot_S100000x128_S128x64_S100000x64_1_0_0_1_n_n rfl none
    (Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) shapeCasts_S64_S1x64 bcast_S_S64).symm

/-! ## The messages summed at the target nodes -/

/-- The aggregated messages: the reference's scatter-add of the gathered, scaled rows. -/
theorem agg_eq : W11 m ρ c (Proc.devRef .tc main_v80) = Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps5 (W10 m ρ c) (Proc.devRef .tc main_v80) = _
  dsimp only [hostOps5]
  after_results_simp
  rw [lin_eq m ρ c, src_at m ρ c, dst_at m ρ c, edgeNorm_at m ρ c]
  rfl

/-- The per-node factor as a column. -/
theorem col_eq : W11 m ρ c (Proc.devRef .tc main_v81) = shapeCast S100000x1 (Cert.ReferenceIdeal.Read.val_main_v26 (F := Ideal) (m ((c : Thread nD τ).loc main_arg1))) shapeCasts_S100000_S100000x1 := by
  show StableHlo.after hostOps5 (W10 m ρ c) (Proc.devRef .tc main_v81) = _
  dsimp only [hostOps5]
  after_results_simp
  rw [selfNorm_at m ρ c]
  rfl

/-- The offset as a row. -/
theorem row_eq : W11 m ρ c (Proc.devRef .tc main_v82) = shapeCast S1x64 (m ((c : Thread nD τ).loc main_arg7)) shapeCasts_S64_S1x64 := by
  show StableHlo.after hostOps5 (W10 m ρ c) (Proc.devRef .tc main_v82) = _
  dsimp only [hostOps5]
  after_results_simp
  rw [offset_at m ρ c]
  rfl

/-! ## The combine step -/

/-- The layer's output: the reference's clamped sum. -/
theorem out_eq : W12 m ρ c (Proc.devRef .tc main_v83) = Cert.ReferenceIdeal.Read.val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h : W12 m ρ c (Proc.devRef .tc main_v83) = _ := (W12_arr m ρ c 4).trans (Regions.final5 (V11 m ρ) c)
  refine h.trans ?_
  rw [show V11 m ρ c main_v80 = _ from agg_eq m ρ c,
    show V11 m ρ c main_v67 = _ from (Carry.host5 m ρ c main_v67 (by decide)).trans (lin_eq m ρ c),
    show V11 m ρ c main_v81 = _ from col_eq m ρ c, show V11 m ρ c main_v82 = _ from row_eq m ρ c]
  exact (HostForms.host_combine_eq (R := 100000) (N := 64) (by decide) (Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (Cert.ReferenceIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (Cert.ReferenceIdeal.Read.val_main_v26 (F := Ideal) (m ((c : Thread nD τ).loc main_arg1))) (m ((c : Thread nD τ).loc main_arg7))
    Cert.ReferenceIdeal.Gen.bcast_S100000_S100000x1_0 Cert.ReferenceIdeal.Gen.bcast_S100000x1_S100000x64_0_1 Cert.ReferenceIdeal.Gen.bcast_S64_S1x64_1 Cert.ReferenceIdeal.Gen.bcast_S1x64_S100000x64_0_1
    Cert.ReferenceIdeal.Gen.bcast_S_S100000x64 shapeCasts_S100000_S100000x1 shapeCasts_S64_S1x64).symm

end Cert.KernelIdeal.Layer3

end
-- ==== Proof.Region6.lean ====
/-
  Region 6 of the program: a tiled affine layer, read as one array.

  The region walks 20 grid points. Point t loads rows 5000·t … 5000·t + 4999 of the 100000×64 input, the whole
  64×1 weight and the whole 1×1 bias row, and writes rows 5000·t … 5000·t + 4999 of the 100000×1 output with
  the block's product plus the row (here a single cell, the output having one lane) on every row of the block. Entry (p, q) of the block written at point t is entry
  (5000·t + p, q) of the affine layer of the whole arrays, because row p of the loaded block IS row 5000·t + p of
  the input; and the 20 blocks cover every row (row r lies in block r / 5000). So after the region the output
  array holds the affine layer of the three arrays as the region found them.
-/
import proofs.«166380_j5909874999694_1_alg».proof.Proof.Gen.KernelIdeal.Frame
import proofs.«166380_j5909874999694_1_alg».proof.Proof.LibRowAffine
import proofs.«166380_j5909874999694_1_alg».proof.Proof.LibPlainDot
import Idealize.ShloMosaic.Lib.Pipeline.Value
import Idealize.ShloMosaic.Lib.ValueIdx
import Idealize.ShloMosaic.Lib.Tactic

set_option maxRecDepth 16384

noncomputable section

open scoped BigOperators

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets6 : (![0, 0] : Fin 2 → Nat) = fun _ => 0 := funext fun a => by fin_cases a <;> rfl

/-- A 1×1 cell copied to every row of a 5000×1 column, at (p, q): the cell. Both of the cell's axes have length one,
    so both are axes a broadcast copies. -/
theorem broadcastTo_cell {α : Type} (v : S1x1.Idx → α) (h : S1x1.Broadcasts S5000x1) (p : Fin 5000) (q : Fin 1) :
    broadcastTo S5000x1 v h (ix2 p q) = v (ix2 (0 : Fin 1) q) :=
  broadcastTo_apply v h (ix2 p q) (ix2 (0 : Fin 1) q) (fun a => match a with
    | ⟨0, _⟩ => by
      show (0 : Nat) = if (1 : Nat) = 1 then 0 else _
      rw [if_pos rfl]
    | ⟨1, _⟩ => by
      show q.val = if (1 : Nat) = 1 then 0 else q.val
      rw [if_pos rfl]
      have := q.isLt
      omega)

/-- The block a point writes, from the three blocks it loaded: the affine layer of those blocks, entry by entry.
    The output has one lane, so the bias "row" is one cell. -/
theorem out6_apply (x0 : Vec Ideal S5000x64 .f32) (x1 : Vec Ideal S64x1 .f32) (x2 : Vec Ideal S1x1 .f32)
    (p : Fin 5000) (q : Fin 1) :
    Gen.out6_3 x0 x1 x2 (ix2 p q) = RowAffine.rowAffine x0 x1 x2 (ix2 p q) := by
  unfold Gen.out6_3
  rw [View.canon_unit_zero zeroOffsets6]
  simp only [View.ld_unit_zero (S := S5000x64) zeroOffsets6, View.ld_unit_zero (S := S64x1) zeroOffsets6,
    View.ld_unit_zero (S := S1x1) zeroOffsets6]
  unfold Gen.k6_pay1
  show (matmul dot_S5000x64_S64x1_S5000x1_1_0_0_1_n_n none
          (truncf .bf16 (shapeCast S5000x64 x0 shapeCasts_S5000x64_S5000x64) bitsLt_bf16_f32) (truncf .bf16 x1 bitsLt_bf16_f32)
          (constant (F := Ideal) S5000x1 .f32 0x00000000#32) : FVec Ideal S5000x1 .f32) (ix2 p q)
      + broadcastTo S5000x1 (shapeCast S1x1 x2 shapeCasts_S1x1_S1x1) broadcasts_S1x1_S5000x1 (ix2 p q) = _
  rw [shapeCast_self x0, shapeCast_self x2, broadcastTo_cell, RowAffine.rowAffine_apply]
  exact congrArg (· + x2 (ix2 0 q))
    (PlainDot.matmul_zero_apply dot_S5000x64_S64x1_S5000x1_1_0_0_1_n_n rfl none
      (truncf .bf16 x0 bitsLt_bf16_f32) (truncf .bf16 x1 bitsLt_bf16_f32) p q)

/-- The same against whole arrays: when the loaded input block is rows 5000·k … of A, and the other two blocks are
    the whole W and B, entry y of the written block is the layer of A, W, B at the entry 5000·k rows further down. -/
theorem out6_block (A : S100000x64.Idx → EReal) (W : S64x1.Idx → EReal) (B : S1x1.Idx → EReal)
    (x0 : Vec Ideal S5000x64 .f32) (x1 : Vec Ideal S64x1 .f32) (x2 : Vec Ideal S1x1 .f32) (k : Nat)
    (hx0 : ∀ (p : Fin 5000) (d : Fin 64) (r : Fin 100000), r.val = 5000 * k + p.val → x0 (ix2 p d) = A (ix2 r d))
    (hx1 : x1 = W) (hx2 : x2 = B)
    (y : S5000x1.Idx) (i : S100000x1.Idx)
    (hi0 : (i 0).val = 5000 * k + (y 0).val) (hi1 : (i 1).val = (y 1).val) :
    Gen.out6_3 x0 x1 x2 y = RowAffine.rowAffine A W B i := by
  obtain ⟨p, q, rfl⟩ : ∃ (p : Fin 5000) (q : Fin 1), y = ix2 p q := ⟨y 0, y 1, eq_ix2 y⟩
  obtain ⟨r, q', rfl⟩ : ∃ (r : Fin 100000) (q' : Fin 1), i = ix2 r q' := ⟨i 0, i 1, eq_ix2 i⟩
  have hr : r.val = 5000 * k + p.val := hi0
  have hq : q' = q := Fin.ext hi1
  rw [hq, out6_apply, RowAffine.rowAffine_apply, RowAffine.rowAffine_apply, hx1, hx2]
  exact congrArg (· + B (ix2 0 q)) (Finset.sum_congr rfl fun d _ => by rw [hx0 p d r hr])

/-- The printed index maps, decided once over the grid: the input and the output move one block of rows per point,
    the weight and the bias row stay. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The layer of the three arrays as the region finds them. -/
abbrev G6 (c : Dev nD) : S100000x1.Idx → EReal :=
  RowAffine.rowAffine (R := 100000) (K := 64) (N := 1) (V c main_v83) (V c main_arg8) (V c main_v84)

/-- What point t writes back is block t of the layer. -/
theorem flushed6_eq (c : Dev nD) (t : Fin cfg6.N) :
    (Gen.dat6 V c).flushed 3 t = ((cfg6.win 3).blk t).view.read (Elt Ideal) (G6 V c) := by
  show (cfg6.win 3).cut (grid6.coords t) ((Gen.dat6 V c).after 3 t) = _
  rw [Gen.after6_3]
  obtain ⟨e00, e01, e10, e11, e20, e21, e30, e31⟩ := idx_facts6 t
  funext j
  show Gen.out6_3 (Gen.iblk6 V c 0 t) (Gen.iblk6 V c 1 t) (Gen.iblk6 V c 2 t) ((cfg6.win 3).xinj (grid6.coords t) j)
      = G6 V c (((cfg6.win 3).blk t).view.emb j)
  refine out6_block (V c main_v83) (V c main_arg8) (V c main_v84)
    (Gen.iblk6 V c 0 t) (Gen.iblk6 V c 1 t) (Gen.iblk6 V c 2 t) t.val ?_ ?_ ?_
    ((cfg6.win 3).xinj (grid6.coords t) j) (((cfg6.win 3).blk t).view.emb j) ?_ ?_
  · intro p d r hr
    show V c main_v83 (((cfg6.win 0).blk t).view.emb (ix2 p d)) = V c main_v83 (ix2 r d)
    refine congrArg (V c main_v83) (funext fun a => Fin.ext ?_)
    match a with
    | ⟨0, _⟩ => show win6_0.index t (0 : Fin 2) * 5000 + 1 * p.val = r.val; omega
    | ⟨1, _⟩ => show win6_0.index t (1 : Fin 2) * 64 + 1 * d.val = d.val; omega
  · funext y
    show V c main_arg8 (((cfg6.win 1).blk t).view.emb y) = V c main_arg8 y
    refine congrArg (V c main_arg8) (funext fun a => Fin.ext ?_)
    match a with
    | ⟨0, _⟩ => show win6_1.index t (0 : Fin 2) * 64 + 1 * (y 0).val = (y 0).val; omega
    | ⟨1, _⟩ => show win6_1.index t (1 : Fin 2) * 1 + 1 * (y 1).val = (y 1).val; omega
  · funext y
    show V c main_v84 (((cfg6.win 2).blk t).view.emb y) = V c main_v84 y
    refine congrArg (V c main_v84) (funext fun a => Fin.ext ?_)
    match a with
    | ⟨0, _⟩ => show win6_2.index t (0 : Fin 2) * 1 + 1 * (y 0).val = (y 0).val; omega
    | ⟨1, _⟩ => show win6_2.index t (1 : Fin 2) * 1 + 1 * (y 1).val = (y 1).val; omega
  · show win6_3.index t (0 : Fin 2) * 5000 + 1 * (j 0).val = 5000 * t.val + (j 0).val; omega
  · show win6_3.index t (1 : Fin 2) * 1 + 1 * (j 1).val = (j 1).val; omega

/-- An index of the output array is in point t's block iff each coordinate is in the block's range on its axis. -/
theorem mem_blk6 (t : Fin cfg6.N) (i : S100000x1.Idx) :
    i ∈ ((cfg6.win 3).blk t).view.set ↔ ∀ a : Fin 2, win6_3.index t a * S5000x1.size a ≤ (i a).val
      ∧ (i a).val < win6_3.index t a * S5000x1.size a + S5000x1.size a := by
  show i ∈ ((View.whole main_v85).slice (win6_3.rect t)).set ↔ _
  rw [View.set_slice_whole, Rect.mem_set_unit]
  exact Iff.rfl

/-- Every index of the output array is in some point's block: row r is in block r / 5000. -/
theorem cover6 (i : S100000x1.Idx) :
    ∃ t : Fin cfg6.N, (cfg6.win 3).flush t = true ∧ i ∈ ((cfg6.win 3).blk t).view.set := by
  have hi0 : (i 0).val < 100000 := (i 0).isLt
  have hi1 : (i 1).val < 1 := (i 1).isLt
  have hlt : (i 0).val / 5000 < cfg6.N := by show _ < grid6.N; rw [N_6]; omega
  refine ⟨⟨(i 0).val / 5000, hlt⟩, flush6_3 _, ?_⟩
  rw [mem_blk6]
  obtain ⟨-, -, -, -, -, -, e30, e31⟩ := idx_facts6 ⟨(i 0).val / 5000, hlt⟩
  have e30' : win6_3.index ⟨(i 0).val / 5000, hlt⟩ (0 : Fin 2) = (i 0).val / 5000 := e30
  intro a
  match a with
  | ⟨0, _⟩ =>
    show win6_3.index _ (0 : Fin 2) * 5000 ≤ (i 0).val ∧ (i 0).val < win6_3.index _ (0 : Fin 2) * 5000 + 5000
    rw [e30']; omega
  | ⟨1, _⟩ =>
    show win6_3.index _ (1 : Fin 2) * 1 ≤ (i 1).val ∧ (i 1).val < win6_3.index _ (1 : Fin 2) * 1 + 1
    rw [e31]; omega

/-- After region 6 its output array holds the affine layer of the input, the weight and the bias row as the region
    found them. -/
theorem final6 (c : Dev nD) :
    (Gen.dat6 V c).arrAt 3 cfg6.N
      = RowAffine.rowAffine (R := 100000) (K := 64) (N := 1) (V c main_v83) (V c main_arg8) (V c main_v84) :=
  (Gen.dat6 V c).arrAt_eq_of_cover 3 (G6 V c) (fun t _ => flushed6_eq V c t) (cover6)

end Cert.KernelIdeal.Regions

end
-- ==== Proof.Output.lean ====
/-
  The output layer of the idealized kernel: the last region's linear layer with one output lane.

  The last region's output array is the affine layer of the third graph-convolution layer's output, the 64×1
  weight and the length-1 offset reshaped to a 1×1 cell. The reference computes the matrix product and adds the
  offset broadcast to a 1×1 cell and then to every row: the same array.
-/
import proofs.«166380_j5909874999694_1_alg».proof.Proof.Gen.KernelIdeal.Frame
import proofs.«166380_j5909874999694_1_alg».proof.Proof.Gen.ReferenceIdeal.Read
import proofs.«166380_j5909874999694_1_alg».proof.Proof.Carry
import proofs.«166380_j5909874999694_1_alg».proof.Proof.Layer3
import proofs.«166380_j5909874999694_1_alg».proof.Proof.LibHostForms
import proofs.«166380_j5909874999694_1_alg».proof.Proof.LibRowAffine
import proofs.«166380_j5909874999694_1_alg».proof.Proof.Region6

set_option maxRecDepth 16384

noncomputable section

namespace Cert.KernelIdeal.Output

open Cert.KernelIdeal Cert.KernelIdeal.Gen
open Idealize.ShloMosaic Idealize.ShloMosaic.TcCoe Idealize.SL.Sem
open Cert

variable (m : (ℓ : Loc nD τ sig) → Buf (Elt Ideal) ℓ) (ρ : Dev nD → PrngReg) (c : Dev nD)

theorem input_at : W13 m ρ c (Proc.devRef .tc main_v83) = Cert.ReferenceIdeal.Read.val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (Carry.host6 m ρ c main_v83 (by decide)).trans (Layer3.out_eq m ρ c)
theorem weight_at : W13 m ρ c (Proc.devRef .tc main_arg8) = (m ((c : Thread nD τ).loc main_arg8)) :=
  (((Carry.host6 m ρ c main_arg8 (by decide)).trans ((Carry.reg5 m ρ c main_arg8 (by decide)).trans ((Carry.host5 m ρ c main_arg8 (by decide)).trans ((Carry.reg4 m ρ c main_arg8 (by decide)).trans ((Carry.host4 m ρ c main_arg8 (by decide)).trans ((Carry.reg3 m ρ c main_arg8 (by decide)).trans ((Carry.host3 m ρ c main_arg8 (by decide)).trans ((Carry.reg2 m ρ c main_arg8 (by decide)).trans ((Carry.host2 m ρ c main_arg8 (by decide)).trans ((Carry.reg1 m ρ c main_arg8 (by decide)).trans ((Carry.host1 m ρ c main_arg8 (by decide)).trans ((Carry.reg0 m ρ c main_arg8 (by decide)).trans (Carry.host0 m ρ c main_arg8 (by decide)))))))))))))).trans (show W0 m ρ c (Proc.devRef .tc main_arg8) = m ((c : Thread nD τ).loc main_arg8) from rfl))
theorem offset_at : W12 m ρ c (Proc.devRef .tc main_arg9) = (m ((c : Thread nD τ).loc main_arg9)) :=
  (((Carry.reg5 m ρ c main_arg9 (by decide)).trans ((Carry.host5 m ρ c main_arg9 (by decide)).trans ((Carry.reg4 m ρ c main_arg9 (by decide)).trans ((Carry.host4 m ρ c main_arg9 (by decide)).trans ((Carry.reg3 m ρ c main_arg9 (by decide)).trans ((Carry.host3 m ρ c main_arg9 (by decide)).trans ((Carry.reg2 m ρ c main_arg9 (by decide)).trans ((Carry.host2 m ρ c main_arg9 (by decide)).trans ((Carry.reg1 m ρ c main_arg9 (by decide)).trans ((Carry.host1 m ρ c main_arg9 (by decide)).trans ((Carry.reg0 m ρ c main_arg9 (by decide)).trans (Carry.host0 m ρ c main_arg9 (by decide))))))))))))).trans (show W0 m ρ c (Proc.devRef .tc main_arg9) = m ((c : Thread nD τ).loc main_arg9) from rfl))
/-- The offset as a 1×1 cell. -/
theorem cell_eq : W13 m ρ c (Proc.devRef .tc main_v84) = shapeCast S1x1 (m ((c : Thread nD τ).loc main_arg9)) shapeCasts_S1_S1x1 := by
  show StableHlo.after hostOps6 (W12 m ρ c) (Proc.devRef .tc main_v84) = _
  dsimp only [hostOps6]
  after_results_simp
  rw [offset_at m ρ c]
  rfl

/-- The kernel's result array: the reference's last stage. -/
theorem result_eq : W14 m ρ c (Proc.devRef .tc main_v85) = Cert.ReferenceIdeal.Read.val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h : W14 m ρ c (Proc.devRef .tc main_v85) = _ := (W14_arr m ρ c 3).trans (Regions.final6 (V13 m ρ) c)
  refine h.trans ?_
  rw [show V13 m ρ c main_v83 = _ from input_at m ρ c, show V13 m ρ c main_arg8 = _ from weight_at m ρ c,
    show V13 m ρ c main_v84 = _ from cell_eq m ρ c]
  exact (HostForms.host_one_lane_eq (R := 100000) (K := 64) Cert.ReferenceIdeal.dot_S100000x64_S64x1_S100000x1_1_0_0_1_n_n rfl none
    (Cert.ReferenceIdeal.Read.val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) (m ((c : Thread nD τ).loc main_arg9)) shapeCasts_S1_S1x1 Cert.ReferenceIdeal.Gen.bcast_S1_S1x1_1 Cert.ReferenceIdeal.Gen.bcast_S1x1_S100000x1_0_1).symm

end Cert.KernelIdeal.Output

end
-- ==== Proof.lean ====
/-
  A three-layer graph convolution with a linear output layer, on 100000 nodes and 1600000 edges: the tiled kernel
  against its plain reference, equal as extended reals.

  Both programs compute, from the edge list, each node's factor d = rsqrt(1 + in-degree); then three times
  h ← max(S(h·W) + (h·W)·d² + b, 0), where S gathers every edge's source row, scales it by the product of the
  factors at the edge's two ends and sums the rows at the edge's target; and last h·Wc + bc. The kernel computes the
  products h·W and the clamped combine steps in regions tiled over blocks of 5000 nodes, adding a zero offset row
  to each product, and leaves the gather, the scaling and the sum to the host, exactly as the reference spells
  them. Buffer by buffer the kernel holds the reference's stage of the same meaning (Proof/Stretch0, Layer1–3,
  Output): a product plus a zero row is the product, a tiled product or combine step is the whole-array one, a
  vector reshaped to a column or a row is the vector broadcast to it. No step needs finite inputs: every
  identification holds entry by entry on the extended reals.

  The idealization rewrote nothing, so the word-level kernel's idealization claim is trivial; the three frames are
  the generated runs.
-/
import proofs.«166380_j5909874999694_1_alg».proof.Defs
import proofs.«166380_j5909874999694_1_alg».proof.Proof.Gen.Kernel
import proofs.«166380_j5909874999694_1_alg».proof.Proof.Gen.Kernel.Frame
import proofs.«166380_j5909874999694_1_alg».proof.Proof.Gen.KernelIdeal
import proofs.«166380_j5909874999694_1_alg».proof.Proof.Gen.KernelIdeal.Frame
import proofs.«166380_j5909874999694_1_alg».proof.Proof.Gen.ReferenceIdeal
import proofs.«166380_j5909874999694_1_alg».proof.Proof.Gen.Pre_finite_inputs
import proofs.«166380_j5909874999694_1_alg».proof.Proof.Gen.ReferenceIdeal.Run
import proofs.«166380_j5909874999694_1_alg».proof.Proof.Gen.ReferenceIdeal.Read
import proofs.«166380_j5909874999694_1_alg».proof.Proof.KernelRun
import proofs.«166380_j5909874999694_1_alg».proof.Proof.Output
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the reference's last stage of the (agreeing) arguments in their result buffers. -/
theorem algebraic : Cert.algebraic_KernelIdeal_ReferenceIdeal := by
  intro m ρ m' ρ' _ hagree
  refine ⟨fun c => Cert.ReferenceIdeal.Read.val_main_v96 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Output.result_eq m ρ c), (h c).2⟩)
      (Cert.KernelIdeal.Run.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v96_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
